-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v141)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v141) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v206) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S7x128x128 : Shape := ⟨3, ![7, 128, 128]⟩
abbrev S7x128 : Shape := ⟨2, ![7, 128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S7x128x128 : S_.BroadcastsInDim S7x128x128 (![] : Fin 0 → Fin S7x128x128.rank)
  reducesTo_S7x128x128_S_d0_1_2 : S7x128x128.ReducesTo [0, 1, 2] S_
  bcast_S_S7x128 : S_.BroadcastsInDim S7x128 (![] : Fin 0 → Fin S7x128.rank)
  reducesTo_S7x128_S_d0_1 : S7x128.ReducesTo [0, 1] S_

variable [Facts]

def fn_part1 {F : FTy → Type} [FloatOps F] (main_v13 : IVec S_ 1) (main_v16 : IVec S7x128 1) : IVec S_ 1 :=
  let main_c_5 : IVec S_ 1 := constantI S_ 1 1#1
  let main_v17 : IVec S_ 1 := (fun x v => Host.reduce IntOp.andi x v reducesTo_S7x128_S_d0_1 h_S_) main_v16 main_c_5
  let main_v18 : IVec S_ 1 := andi main_v13 main_v17
  main_v18

def fn {F : FTy → Type} [FloatOps F] (main_arg0 : FVec F S100000x128 .f32) (main_arg1 : IVec S2x1600000 32) (main_arg2 : FVec F S7x128x128 .f32) (main_arg3 : FVec F S7x128x128 .f32) (main_arg4 : FVec F S7x128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S7x128x128 .f32 := Host.absf main_arg2
  let main_cst_0 : FVec F S_ .f32 := constant S_ .f32 0x7F800000#32
  let main_v5 : FVec F S7x128x128 .f32 := broadcastInDim S7x128x128 ![] bcast_S_S7x128x128 main_cst_0
  let main_v6 : IVec S7x128x128 1 := cmpf .olt main_v4 main_v5
  let main_c_1 : IVec S_ 1 := constantI S_ 1 1#1
  let main_v7 : IVec S_ 1 := (fun x v => Host.reduce IntOp.andi x v reducesTo_S7x128x128_S_d0_1_2 h_S_) main_v6 main_c_1
  let main_v8 : IVec S_ 1 := andi main_v3 main_v7
  let main_v9 : FVec F S7x128x128 .f32 := Host.absf main_arg3
  let main_cst_2 : FVec F S_ .f32 := constant S_ .f32 0x7F800000#32
  let main_v10 : FVec F S7x128x128 .f32 := broadcastInDim S7x128x128 ![] bcast_S_S7x128x128 main_cst_2
  let main_v11 : IVec S7x128x128 1 := cmpf .olt main_v9 main_v10
  let main_c_3 : IVec S_ 1 := constantI S_ 1 1#1
  let main_v12 : IVec S_ 1 := (fun x v => Host.reduce IntOp.andi x v reducesTo_S7x128x128_S_d0_1_2 h_S_) main_v11 main_c_3
  let main_v13 : IVec S_ 1 := andi main_v8 main_v12
  let main_v14 : FVec F S7x128 .f32 := Host.absf main_arg4
  let main_cst_4 : FVec F S_ .f32 := constant S_ .f32 0x7F800000#32
  let main_v15 : FVec F S7x128 .f32 := broadcastInDim S7x128 ![] bcast_S_S7x128 main_cst_4
  let main_v16 : IVec S7x128 1 := cmpf .olt main_v14 main_v15
  fn_part1 (F := F) main_v13 main_v16
-- ==== Kernel.lean ====
abbrev S100000x128 : Shape := ⟨2, ![100000, 128]⟩
abbrev S2x1600000 : Shape := ⟨2, ![2, 1600000]⟩
abbrev S7x128x128 : Shape := ⟨3, ![7, 128, 128]⟩
abbrev S7x128 : Shape := ⟨2, ![7, 128]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S7x256x128 : Shape := ⟨3, ![7, 256, 128]⟩
abbrev S1600000x128 : Shape := ⟨2, ![1600000, 128]⟩
abbrev S100000x1 : Shape := ⟨2, ![100000, 1]⟩
abbrev S1x256x128 : Shape := ⟨3, ![1, 256, 128]⟩
abbrev S256x128 : Shape := ⟨2, ![256, 128]⟩
abbrev S1x128 : Shape := ⟨2, ![1, 128]⟩
abbrev S128 : Shape := ⟨1, ![128]⟩
abbrev S5000x128 : Shape := ⟨2, ![5000, 128]⟩
abbrev S5000x256 : Shape := ⟨2, ![5000, 256]⟩

abbrev nBuf : Space → Nat
  | .hbm => 172
  | .vmem => 56
  | .smem => 0
  | _ => 0

abbrev hbmTy0_0 (i : Nat) : BufTy := match i % 128 with
  | 0 => ⟨S100000x128, .f32⟩
  | 1 => ⟨S2x1600000, .i32⟩
  | 2 => ⟨S7x128x128, .f32⟩
  | 3 => ⟨S7x128x128, .f32⟩
  | 4 => ⟨S7x128, .f32⟩
  | 5 => ⟨S1x1600000, .i32⟩
  | 6 => ⟨S1600000, .i32⟩
  | 7 => ⟨S1x1600000, .i32⟩
  | 8 => ⟨S1600000, .i32⟩
  | 9 => ⟨S_, .f32⟩
  | 10 => ⟨S1600000, .f32⟩
  | 11 => ⟨S_, .f32⟩
  | 12 => ⟨S100000, .f32⟩
  | 13 => ⟨S1600000x1, .i32⟩
  | 14 => ⟨S100000, .f32⟩
  | 15 => ⟨S_, .f32⟩
  | 16 => ⟨S100000, .f32⟩
  | 17 => ⟨S100000, .f32⟩
  | 18 => ⟨S_, .f32⟩
  | 19 => ⟨S100000, .f32⟩
  | 20 => ⟨S100000, .f32⟩
  | 21 => ⟨S7x128x128, .f32⟩
  | 22 => ⟨S7x128x128, .f32⟩
  | 23 => ⟨S7x256x128, .f32⟩
  | 24 => ⟨S7x256x128, .bf16⟩
  | 25 => ⟨S_, .i32⟩
  | 26 => ⟨S1600000, .i32⟩
  | 27 => ⟨S1600000, .i1⟩
  | 28 => ⟨S_, .i32⟩
  | 29 => ⟨S1600000, .i32⟩
  | 30 => ⟨S1600000, .i32⟩
  | 31 => ⟨S1600000, .i32⟩
  | 32 => ⟨S1600000x1, .i32⟩
  | 33 => ⟨S1600000x128, .f32⟩
  | 34 => ⟨S_, .f32⟩
  | 35 => ⟨S100000x128, .f32⟩
  | 36 => ⟨S1600000x1, .i32⟩
  | 37 => ⟨S100000x128, .f32⟩
  | 38 => ⟨S100000x1, .f32⟩
  | 39 => ⟨S100000x128, .f32⟩
  | 40 => ⟨S100000x128, .f32⟩
  | 41 => ⟨S1x256x128, .bf16⟩
  | 42 => ⟨S256x128, .bf16⟩
  | 43 => ⟨S1x128, .f32⟩
  | 44 => ⟨S128, .f32⟩
  | 45 => ⟨S100000x128, .f32⟩
  | 46 => ⟨S_, .i32⟩
  | 47 => ⟨S1600000, .i32⟩
  | 48 => ⟨S1600000, .i1⟩
  | 49 => ⟨S_, .i32⟩
  | 50 => ⟨S1600000, .i32⟩
  | 51 => ⟨S1600000, .i32⟩
  | 52 => ⟨S1600000, .i32⟩
  | 53 => ⟨S1600000x1, .i32⟩
  | 54 => ⟨S1600000x128, .f32⟩
  | 55 => ⟨S_, .f32⟩
  | 56 => ⟨S100000x128, .f32⟩
  | 57 => ⟨S1600000x1, .i32⟩
  | 58 => ⟨S100000x128, .f32⟩
  | 59 => ⟨S100000x1, .f32⟩
  | 60 => ⟨S100000x128, .f32⟩
  | 61 => ⟨S100000x128, .f32⟩
  | 62 => ⟨S1x256x128, .bf16⟩
  | 63 => ⟨S256x128, .bf16⟩
  | 64 => ⟨S1x128, .f32⟩
  | 65 => ⟨S128, .f32⟩
  | 66 => ⟨S100000x128, .f32⟩
  | 67 => ⟨S_, .i32⟩
  | 68 => ⟨S1600000, .i32⟩
  | 69 => ⟨S1600000, .i1⟩
  | 70 => ⟨S_, .i32⟩
  | 71 => ⟨S1600000, .i32⟩
  | 72 => ⟨S1600000, .i32⟩
  | 73 => ⟨S1600000, .i32⟩
  | 74 => ⟨S1600000x1, .i32⟩
  | 75 => ⟨S1600000x128, .f32⟩
  | 76 => ⟨S_, .f32⟩
  | 77 => ⟨S100000x128, .f32⟩
  | 78 => ⟨S1600000x1, .i32⟩
  | 79 => ⟨S100000x128, .f32⟩
  | 80 => ⟨S100000x1, .f32⟩
  | 81 => ⟨S100000x128, .f32⟩
  | 82 => ⟨S100000x128, .f32⟩
  | 83 => ⟨S1x256x128, .bf16⟩
  | 84 => ⟨S256x128, .bf16⟩
  | 85 => ⟨S1x128, .f32⟩
  | 86 => ⟨S128, .f32⟩
  | 87 => ⟨S100000x128, .f32⟩
  | 88 => ⟨S_, .i32⟩
  | 89 => ⟨S1600000, .i32⟩
  | 90 => ⟨S1600000, .i1⟩
  | 91 => ⟨S_, .i32⟩
  | 92 => ⟨S1600000, .i32⟩
  | 93 => ⟨S1600000, .i32⟩
  | 94 => ⟨S1600000, .i32⟩
  | 95 => ⟨S1600000x1, .i32⟩
  | 96 => ⟨S1600000x128, .f32⟩
  | 97 => ⟨S_, .f32⟩
  | 98 => ⟨S100000x128, .f32⟩
  | 99 => ⟨S1600000x1, .i32⟩
  | 100 => ⟨S100000x128, .f32⟩
  | 101 => ⟨S100000x1, .f32⟩
  | 102 => ⟨S100000x128, .f32⟩
  | 103 => ⟨S100000x128, .f32⟩
  | 104 => ⟨S1x256x128, .bf16⟩
  | 105 => ⟨S256x128, .bf16⟩
  | 106 => ⟨S1x128, .f32⟩
  | 107 => ⟨S128, .f32⟩
  | 108 => ⟨S100000x128, .f32⟩
  | 109 => ⟨S_, .i32⟩
  | 110 => ⟨S1600000, .i32⟩
  | 111 => ⟨S1600000, .i1⟩
  | 112 => ⟨S_, .i32⟩
  | 113 => ⟨S1600000, .i32⟩
  | 114 => ⟨S1600000, .i32⟩
  | 115 => ⟨S1600000, .i32⟩
  | 116 => ⟨S1600000x1, .i32⟩
  | 117 => ⟨S1600000x128, .f32⟩
  | 118 => ⟨S_, .f32⟩
  | 119 => ⟨S100000x128, .f32⟩
  | 120 => ⟨S1600000x1, .i32⟩
  | 121 => ⟨S100000x128, .f32⟩
  | 122 => ⟨S100000x1, .f32⟩
  | 123 => ⟨S100000x128, .f32⟩
  | 124 => ⟨S100000x128, .f32⟩
  | 125 => ⟨S1x256x128, .bf16⟩
  | 126 => ⟨S256x128, .bf16⟩
  | 127 => ⟨S1x128, .f32⟩
  | _ => ⟨S100000x128, .f32⟩

abbrev hbmTy0_1 (i : Nat) : BufTy := match i % 128 with
  | 0 => ⟨S128, .f32⟩
  | 1 => ⟨S100000x128, .f32⟩
  | 2 => ⟨S_, .i32⟩
  | 3 => ⟨S1600000, .i32⟩
  | 4 => ⟨S1600000, .i1⟩
  | 5 => ⟨S_, .i32⟩
  | 6 => ⟨S1600000, .i32⟩
  | 7 => ⟨S1600000, .i32⟩
  | 8 => ⟨S1600000, .i32⟩
  | 9 => ⟨S1600000x1, .i32⟩
  | 10 => ⟨S1600000x128, .f32⟩
  | 11 => ⟨S_, .f32⟩
  | 12 => ⟨S100000x128, .f32⟩
  | 13 => ⟨S1600000x1, .i32⟩
  | 14 => ⟨S100000x128, .f32⟩
  | 15 => ⟨S100000x1, .f32⟩
  | 16 => ⟨S100000x128, .f32⟩
  | 17 => ⟨S100000x128, .f32⟩
  | 18 => ⟨S1x256x128, .bf16⟩
  | 19 => ⟨S256x128, .bf16⟩
  | 20 => ⟨S1x128, .f32⟩
  | 21 => ⟨S128, .f32⟩
  | 22 => ⟨S100000x128, .f32⟩
  | 23 => ⟨S_, .i32⟩
  | 24 => ⟨S1600000, .i32⟩
  | 25 => ⟨S1600000, .i1⟩
  | 26 => ⟨S_, .i32⟩
  | 27 => ⟨S1600000, .i32⟩
  | 28 => ⟨S1600000, .i32⟩
  | 29 => ⟨S1600000, .i32⟩
  | 30 => ⟨S1600000x1, .i32⟩
  | 31 => ⟨S1600000x128, .f32⟩
  | 32 => ⟨S_, .f32⟩
  | 33 => ⟨S100000x128, .f32⟩
  | 34 => ⟨S1600000x1, .i32⟩
  | 35 => ⟨S100000x128, .f32⟩
  | 36 => ⟨S100000x1, .f32⟩
  | 37 => ⟨S100000x128, .f32⟩
  | 38 => ⟨S100000x128, .f32⟩
  | 39 => ⟨S1x256x128, .bf16⟩
  | 40 => ⟨S256x128, .bf16⟩
  | 41 => ⟨S1x128, .f32⟩
  | 42 => ⟨S128, .f32⟩
  | 43 => ⟨S100000x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S256x128, .bf16⟩
  | .local _ .vmem, ⟨5, _⟩ => ⟨S128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S256x128, .bf16⟩
  | .local _ .vmem, ⟨13, _⟩ => ⟨S128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S256x128, .bf16⟩
  | .local _ .vmem, ⟨21, _⟩ => ⟨S128, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S5000x128, .f32⟩
  | .local _ .vmem, ⟨27, _⟩ => ⟨S5000x128, .f32⟩
  | .local _ .vmem, ⟨28, _⟩ => ⟨S256x128, .bf16⟩
  | .local _ .vmem, ⟨29, _⟩ => ⟨S128, .f32⟩
  | .local _ .vmem, ⟨30, _⟩ => ⟨S5000x128, .f32⟩
  | .local _ .vmem, ⟨31, _⟩ => ⟨S5000x128, .f32⟩
  | .local _ .vmem, ⟨32, _⟩ => ⟨S5000x128, .f32⟩
  | .local _ .vmem, ⟨33, _⟩ => ⟨S5000x128, .f32⟩
  | .local _ .vmem, ⟨34, _⟩ => ⟨S5000x128, .f32⟩
  | .local _ .vmem, ⟨35, _⟩ => ⟨S5000x128, .f32⟩
  | .local _ .vmem, ⟨36, _⟩ => ⟨S256x128, .bf16⟩
  | .local _ .vmem, ⟨37, _⟩ => ⟨S128, .f32⟩
  | .local _ .vmem, ⟨38, _⟩ => ⟨S5000x128, .f32⟩
  | .local _ .vmem, ⟨39, _⟩ => ⟨S5000x128, .f32⟩
  | .local _ .vmem, ⟨40, _⟩ => ⟨S5000x128, .f32⟩
  | .local _ .vmem, ⟨41, _⟩ => ⟨S5000x128, .f32⟩
  | .local _ .vmem, ⟨42, _⟩ => ⟨S5000x128, .f32⟩
  | .local _ .vmem, ⟨43, _⟩ => ⟨S5000x128, .f32⟩
  | .local _ .vmem, ⟨44, _⟩ => ⟨S256x128, .bf16⟩
  | .local _ .vmem, ⟨45, _⟩ => ⟨S128, .f32⟩
  | .local _ .vmem, ⟨46, _⟩ => ⟨S5000x128, .f32⟩
  | .local _ .vmem, ⟨47, _⟩ => ⟨S5000x128, .f32⟩
  | .local _ .vmem, ⟨48, _⟩ => ⟨S5000x128, .f32⟩
  | .local _ .vmem, ⟨49, _⟩ => ⟨S5000x128, .f32⟩
  | .local _ .vmem, ⟨50, _⟩ => ⟨S5000x128, .f32⟩
  | .local _ .vmem, ⟨51, _⟩ => ⟨S5000x128, .f32⟩
  | .local _ .vmem, ⟨52, _⟩ => ⟨S256x128, .bf16⟩
  | .local _ .vmem, ⟨53, _⟩ => ⟨S128, .f32⟩
  | .local _ .vmem, ⟨54, _⟩ => ⟨S5000x128, .f32⟩
  | .local _ .vmem, ⟨55, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | _, _ => false

abbrev semScoped : Fin 0 → Bool
  | ⟨_, h⟩ => absurd h (Nat.not_lt_zero _)

abbrev dmaSemScoped : Fin 56 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | _ => false

abbrev sig : RefSig :=
  ofTc nBuf bufTy 0 56 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_c : Ref sig .tc := ⟨.hbm, 25, rfl⟩
abbrev main_v16 : Ref sig .tc := ⟨.hbm, 26, rfl⟩
abbrev main_v17 : Ref sig .tc := ⟨.hbm, 27, rfl⟩
abbrev main_c_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_4 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_c_5 : Ref sig .tc := ⟨.hbm, 46, rfl⟩
abbrev main_v34 : Ref sig .tc := ⟨.hbm, 47, rfl⟩
abbrev main_v35 : Ref sig .tc := ⟨.hbm, 48, rfl⟩
abbrev main_c_6 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_cst_7 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_c_8 : Ref sig .tc := ⟨.hbm, 67, rfl⟩
abbrev main_v52 : Ref sig .tc := ⟨.hbm, 68, rfl⟩
abbrev main_v53 : Ref sig .tc := ⟨.hbm, 69, rfl⟩
abbrev main_c_9 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_cst_10 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_c_11 : Ref sig .tc := ⟨.hbm, 88, rfl⟩
abbrev main_v70 : Ref sig .tc := ⟨.hbm, 89, rfl⟩
abbrev main_v71 : Ref sig .tc := ⟨.hbm, 90, rfl⟩
abbrev main_c_12 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_cst_13 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_c_14 : Ref sig .tc := ⟨.hbm, 109, rfl⟩
abbrev main_v88 : Ref sig .tc := ⟨.hbm, 110, rfl⟩
abbrev main_v89 : Ref sig .tc := ⟨.hbm, 111, rfl⟩
abbrev main_c_15 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev main_v94 : Ref sig .tc := ⟨.hbm, 117, rfl⟩
abbrev main_cst_16 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_v99 : Ref sig .tc := ⟨.hbm, 123, rfl⟩
abbrev main_v100 : Ref sig .tc := ⟨.hbm, 124, rfl⟩
abbrev main_v101 : Ref sig .tc := ⟨.hbm, 125, rfl⟩
abbrev main_v102 : Ref sig .tc := ⟨.hbm, 126, rfl⟩
abbrev main_v103 : Ref sig .tc := ⟨.hbm, 127, rfl⟩
abbrev main_v104 : Ref sig .tc := ⟨.hbm, 128, rfl⟩
abbrev main_v105 : Ref sig .tc := ⟨.hbm, 129, rfl⟩
abbrev main_c_17 : Ref sig .tc := ⟨.hbm, 130, rfl⟩
abbrev main_v106 : Ref sig .tc := ⟨.hbm, 131, rfl⟩
abbrev main_v107 : Ref sig .tc := ⟨.hbm, 132, rfl⟩
abbrev main_c_18 : Ref sig .tc := ⟨.hbm, 133, rfl⟩
abbrev main_v108 : Ref sig .tc := ⟨.hbm, 134, rfl⟩
abbrev main_v109 : Ref sig .tc := ⟨.hbm, 135, rfl⟩
abbrev main_v110 : Ref sig .tc := ⟨.hbm, 136, rfl⟩
abbrev main_v111 : Ref sig .tc := ⟨.hbm, 137, rfl⟩
abbrev main_v112 : Ref sig .tc := ⟨.hbm, 138, rfl⟩
abbrev main_cst_19 : Ref sig .tc := ⟨.hbm, 139, rfl⟩
abbrev main_v113 : Ref sig .tc := ⟨.hbm, 140, rfl⟩
abbrev main_v114 : Ref sig .tc := ⟨.hbm, 141, rfl⟩
abbrev main_v115 : Ref sig .tc := ⟨.hbm, 142, rfl⟩
abbrev main_v116 : Ref sig .tc := ⟨.hbm, 143, rfl⟩
abbrev main_v117 : Ref sig .tc := ⟨.hbm, 144, rfl⟩
abbrev main_v118 : Ref sig .tc := ⟨.hbm, 145, rfl⟩
abbrev main_v119 : Ref sig .tc := ⟨.hbm, 146, rfl⟩
abbrev main_v120 : Ref sig .tc := ⟨.hbm, 147, rfl⟩
abbrev main_v121 : Ref sig .tc := ⟨.hbm, 148, rfl⟩
abbrev main_v122 : Ref sig .tc := ⟨.hbm, 149, rfl⟩
abbrev main_v123 : Ref sig .tc := ⟨.hbm, 150, rfl⟩
abbrev main_c_20 : Ref sig .tc := ⟨.hbm, 151, rfl⟩
abbrev main_v124 : Ref sig .tc := ⟨.hbm, 152, rfl⟩
abbrev main_v125 : Ref sig .tc := ⟨.hbm, 153, rfl⟩
abbrev main_c_21 : Ref sig .tc := ⟨.hbm, 154, rfl⟩
abbrev main_v126 : Ref sig .tc := ⟨.hbm, 155, rfl⟩
abbrev main_v127 : Ref sig .tc := ⟨.hbm, 156, rfl⟩
abbrev main_v128 : Ref sig .tc := ⟨.hbm, 157, rfl⟩
abbrev main_v129 : Ref sig .tc := ⟨.hbm, 158, rfl⟩
abbrev main_v130 : Ref sig .tc := ⟨.hbm, 159, rfl⟩
abbrev main_cst_22 : Ref sig .tc := ⟨.hbm, 160, rfl⟩
abbrev main_v131 : Ref sig .tc := ⟨.hbm, 161, rfl⟩
abbrev main_v132 : Ref sig .tc := ⟨.hbm, 162, rfl⟩
abbrev main_v133 : Ref sig .tc := ⟨.hbm, 163, rfl⟩
abbrev main_v134 : Ref sig .tc := ⟨.hbm, 164, rfl⟩
abbrev main_v135 : Ref sig .tc := ⟨.hbm, 165, rfl⟩
abbrev main_v136 : Ref sig .tc := ⟨.hbm, 166, rfl⟩
abbrev main_v137 : Ref sig .tc := ⟨.hbm, 167, rfl⟩
abbrev main_v138 : Ref sig .tc := ⟨.hbm, 168, rfl⟩
abbrev main_v139 : Ref sig .tc := ⟨.hbm, 169, rfl⟩
abbrev main_v140 : Ref sig .tc := ⟨.hbm, 170, rfl⟩
abbrev main_v141 : Ref sig .tc := ⟨.hbm, 171, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg4_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg1_1 : Ref sig .tc := ⟨.vmem, 27, rfl⟩
abbrev cc3_stg2_0 : Ref sig .tc := ⟨.vmem, 28, rfl⟩
abbrev cc3_stg3_0 : Ref sig .tc := ⟨.vmem, 29, rfl⟩
abbrev cc3_stg4_0 : Ref sig .tc := ⟨.vmem, 30, rfl⟩
abbrev cc3_stg4_1 : Ref sig .tc := ⟨.vmem, 31, rfl⟩
abbrev cc4_stg0_0 : Ref sig .tc := ⟨.vmem, 32, rfl⟩
abbrev cc4_stg0_1 : Ref sig .tc := ⟨.vmem, 33, rfl⟩
abbrev cc4_stg1_0 : Ref sig .tc := ⟨.vmem, 34, rfl⟩
abbrev cc4_stg1_1 : Ref sig .tc := ⟨.vmem, 35, rfl⟩
abbrev cc4_stg2_0 : Ref sig .tc := ⟨.vmem, 36, rfl⟩
abbrev cc4_stg3_0 : Ref sig .tc := ⟨.vmem, 37, rfl⟩
abbrev cc4_stg4_0 : Ref sig .tc := ⟨.vmem, 38, rfl⟩
abbrev cc4_stg4_1 : Ref sig .tc := ⟨.vmem, 39, rfl⟩
abbrev cc5_stg0_0 : Ref sig .tc := ⟨.vmem, 40, rfl⟩
abbrev cc5_stg0_1 : Ref sig .tc := ⟨.vmem, 41, rfl⟩
abbrev cc5_stg1_0 : Ref sig .tc := ⟨.vmem, 42, rfl⟩
abbrev cc5_stg1_1 : Ref sig .tc := ⟨.vmem, 43, rfl⟩
abbrev cc5_stg2_0 : Ref sig .tc := ⟨.vmem, 44, rfl⟩
abbrev cc5_stg3_0 : Ref sig .tc := ⟨.vmem, 45, rfl⟩
abbrev cc5_stg4_0 : Ref sig .tc := ⟨.vmem, 46, rfl⟩
abbrev cc5_stg4_1 : Ref sig .tc := ⟨.vmem, 47, rfl⟩
abbrev cc6_stg0_0 : Ref sig .tc := ⟨.vmem, 48, rfl⟩
abbrev cc6_stg0_1 : Ref sig .tc := ⟨.vmem, 49, rfl⟩
abbrev cc6_stg1_0 : Ref sig .tc := ⟨.vmem, 50, rfl⟩
abbrev cc6_stg1_1 : Ref sig .tc := ⟨.vmem, 51, rfl⟩
abbrev cc6_stg2_0 : Ref sig .tc := ⟨.vmem, 52, rfl⟩
abbrev cc6_stg3_0 : Ref sig .tc := ⟨.vmem, 53, rfl⟩
abbrev cc6_stg4_0 : Ref sig .tc := ⟨.vmem, 54, rfl⟩
abbrev cc6_stg4_1 : Ref sig .tc := ⟨.vmem, 55, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem4_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem3_0 : DmaSem sig := 21
abbrev cc2_sem4_0 : DmaSem sig := 22
abbrev cc2_sem4_1 : DmaSem sig := 23
abbrev cc3_sem0_0 : DmaSem sig := 24
abbrev cc3_sem0_1 : DmaSem sig := 25
abbrev cc3_sem1_0 : DmaSem sig := 26
abbrev cc3_sem1_1 : DmaSem sig := 27
abbrev cc3_sem2_0 : DmaSem sig := 28
abbrev cc3_sem3_0 : DmaSem sig := 29
abbrev cc3_sem4_0 : DmaSem sig := 30
abbrev cc3_sem4_1 : DmaSem sig := 31
abbrev cc4_sem0_0 : DmaSem sig := 32
abbrev cc4_sem0_1 : DmaSem sig := 33
abbrev cc4_sem1_0 : DmaSem sig := 34
abbrev cc4_sem1_1 : DmaSem sig := 35
abbrev cc4_sem2_0 : DmaSem sig := 36
abbrev cc4_sem3_0 : DmaSem sig := 37
abbrev cc4_sem4_0 : DmaSem sig := 38
abbrev cc4_sem4_1 : DmaSem sig := 39
abbrev cc5_sem0_0 : DmaSem sig := 40
abbrev cc5_sem0_1 : DmaSem sig := 41
abbrev cc5_sem1_0 : DmaSem sig := 42
abbrev cc5_sem1_1 : DmaSem sig := 43
abbrev cc5_sem2_0 : DmaSem sig := 44
abbrev cc5_sem3_0 : DmaSem sig := 45
abbrev cc5_sem4_0 : DmaSem sig := 46
abbrev cc5_sem4_1 : DmaSem sig := 47
abbrev cc6_sem0_0 : DmaSem sig := 48
abbrev cc6_sem0_1 : DmaSem sig := 49
abbrev cc6_sem1_0 : DmaSem sig := 50
abbrev cc6_sem1_1 : DmaSem sig := 51
abbrev cc6_sem2_0 : DmaSem sig := 52
abbrev cc6_sem3_0 : DmaSem sig := 53
abbrev cc6_sem4_0 : DmaSem sig := 54
abbrev cc6_sem4_1 : DmaSem sig := 55

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x128 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S256x128 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S256x128 .bf16 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S5000x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S256x128 .bf16 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S5000x128 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S256x128 .bf16 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S5000x128 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev grid6 : Pipeline.Grid := ⟨1, ![20], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 1 → Nat :=
  let arg0 : BitVec 32 := BitVec.ofNat 32 (i 0).val
  let c0_i32 : BitVec 32 := 0#32
  let c0_i32_0 : BitVec 32 := 0#32
  ![c0_i32.toNat]

def cc6_transform_4 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S5000x128 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S256x128 .bf16 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S128 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 2 → Memref sig .tc .vmem S5000x128 .f32 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  transposes_S7x128x128_S7x128x128_0_2_1 : S7x128x128.Transposes [0, 2, 1] S7x128x128
  concatenates_S7x128x128_S7x128x128_S7x256x128_d1 : Shape.Concatenates [S7x128x128, S7x128x128] S7x256x128 1
  bitsLt_bf16_f32 : FTy.bits .bf16 < FTy.bits .f32
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  slices_S7x256x128_S1x256x128_0_0_0 : S7x256x128.Slices ![0, 0, 0] S1x256x128
  shapeCasts_S1x256x128_S256x128 : S1x256x128.ShapeCasts S256x128
  slices_S7x128_S1x128_0_0 : S7x128.Slices ![0, 0] S1x128
  shapeCasts_S1x128_S128 : S1x128.ShapeCasts S128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  concatenates_S5000x128_S5000x128_S5000x256_d1 : Shape.Concatenates [S5000x128, S5000x128] S5000x256 1
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S128_S128_0 : ∀ a, (![0] : Fin 1 → Nat) a + S128.size a ≤ S128.size a
  h_S128 : 0 < S128.numel
  shapeCasts_S128_S128 : S128.ShapeCasts S128
  shapeCasts_S128_S1x128 : S128.ShapeCasts S1x128
  broadcasts_S1x128_S5000x128 : S1x128.Broadcasts S5000x128
  slices_S7x256x128_S1x256x128_1_0_0 : S7x256x128.Slices ![1, 0, 0] S1x256x128
  slices_S7x128_S1x128_1_0 : S7x128.Slices ![1, 0] S1x128
  slices_S7x256x128_S1x256x128_2_0_0 : S7x256x128.Slices ![2, 0, 0] S1x256x128
  slices_S7x128_S1x128_2_0 : S7x128.Slices ![2, 0] S1x128
  slices_S7x256x128_S1x256x128_3_0_0 : S7x256x128.Slices ![3, 0, 0] S1x256x128
  slices_S7x128_S1x128_3_0 : S7x128.Slices ![3, 0] S1x128
  slices_S7x256x128_S1x256x128_4_0_0 : S7x256x128.Slices ![4, 0, 0] S1x256x128
  slices_S7x128_S1x128_4_0 : S7x128.Slices ![4, 0] S1x128
  slices_S7x256x128_S1x256x128_5_0_0 : S7x256x128.Slices ![5, 0, 0] S1x256x128
  slices_S7x128_S1x128_5_0 : S7x128.Slices ![5, 0] S1x128
  slices_S7x256x128_S1x256x128_6_0_0 : S7x256x128.Slices ![6, 0, 0] S1x256x128
  slices_S7x128_S1x128_6_0 : S7x128.Slices ![6, 0] S1x128
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x256_S256x128_S5000x128_1_0_0_1_n_n_wf : DotDims.WF S5000x256 S256x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x128.size a ≤ S256x128.size a
  hwx0_2 : ∀ i : grid0.Coords, EltTy.bits .bf16 = 32 ∨ (Rect.block (s := S256x128) S256x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x128.size a ≤ S100000x128.size a
  hwx0_4 : ∀ i : grid0.Coords, EltTy.bits .f32 = 32 ∨ (Rect.block (s := S100000x128) S5000x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x128.size a ≤ S256x128.size a
  hwx1_2 : ∀ i : grid1.Coords, EltTy.bits .bf16 = 32 ∨ (Rect.block (s := S256x128) S256x128.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128.size a ≤ S128.size a
  hwx1_3 : ∀ i : grid1.Coords, EltTy.bits .f32 = 32 ∨ (Rect.block (s := S128) S128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S100000x128.size a
  hwx1_4 : ∀ i : grid1.Coords, EltTy.bits .f32 = 32 ∨ (Rect.block (s := S100000x128) S5000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S100000x128.size a
  hwx2_1 : ∀ i : grid2.Coords, EltTy.bits .f32 = 32 ∨ (Rect.block (s := S100000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S256x128.size a ≤ S256x128.size a
  hwx2_2 : ∀ i : grid2.Coords, EltTy.bits .bf16 = 32 ∨ (Rect.block (s := S256x128) S256x128.size (cc2_transform_2 i) (hinb2_2 i)).WholeWords (EltTy.packing .bf16)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128.size a ≤ S128.size a
  hwx2_3 : ∀ i : grid2.Coords, EltTy.bits .f32 = 32 ∨ (Rect.block (s := S128) S128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x128.size a ≤ S100000x128.size a
  hwx2_4 : ∀ i : grid2.Coords, EltTy.bits .f32 = 32 ∨ (Rect.block (s := S100000x128) S5000x128.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S100000x128.size a
  hwx3_1 : ∀ i : grid3.Coords, EltTy.bits .f32 = 32 ∨ (Rect.block (s := S100000x128) S5000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S256x128.size a ≤ S256x128.size a
  hwx3_2 : ∀ i : grid3.Coords, EltTy.bits .bf16 = 32 ∨ (Rect.block (s := S256x128) S256x128.size (cc3_transform_2 i) (hinb3_2 i)).WholeWords (EltTy.packing .bf16)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128.size a ≤ S128.size a
  hwx3_3 : ∀ i : grid3.Coords, EltTy.bits .f32 = 32 ∨ (Rect.block (s := S128) S128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x128.size a ≤ S100000x128.size a
  hwx3_4 : ∀ i : grid3.Coords, EltTy.bits .f32 = 32 ∨ (Rect.block (s := S100000x128) S5000x128.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x128.size a ≤ S100000x128.size a
  hwx4_1 : ∀ i : grid4.Coords, EltTy.bits .f32 = 32 ∨ (Rect.block (s := S100000x128) S5000x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S256x128.size a ≤ S256x128.size a
  hwx4_2 : ∀ i : grid4.Coords, EltTy.bits .bf16 = 32 ∨ (Rect.block (s := S256x128) S256x128.size (cc4_transform_2 i) (hinb4_2 i)).WholeWords (EltTy.packing .bf16)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128.size a ≤ S128.size a
  hwx4_3 : ∀ i : grid4.Coords, EltTy.bits .f32 = 32 ∨ (Rect.block (s := S128) S128.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S5000x128.size a ≤ S100000x128.size a
  hwx4_4 : ∀ i : grid4.Coords, EltTy.bits .f32 = 32 ∨ (Rect.block (s := S100000x128) S5000x128.size (cc4_transform_4 i) (hinb4_4 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S100000x128.size a
  hwx5_0 : ∀ i : grid5.Coords, EltTy.bits .f32 = 32 ∨ (Rect.block (s := S100000x128) S5000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x128.size a ≤ S100000x128.size a
  hwx5_1 : ∀ i : grid5.Coords, EltTy.bits .f32 = 32 ∨ (Rect.block (s := S100000x128) S5000x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S256x128.size a ≤ S256x128.size a
  hwx5_2 : ∀ i : grid5.Coords, EltTy.bits .bf16 = 32 ∨ (Rect.block (s := S256x128) S256x128.size (cc5_transform_2 i) (hinb5_2 i)).WholeWords (EltTy.packing .bf16)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S128.size a ≤ S128.size a
  hwx5_3 : ∀ i : grid5.Coords, EltTy.bits .f32 = 32 ∨ (Rect.block (s := S128) S128.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S5000x128.size a ≤ S100000x128.size a
  hwx5_4 : ∀ i : grid5.Coords, EltTy.bits .f32 = 32 ∨ (Rect.block (s := S100000x128) S5000x128.size (cc5_transform_4 i) (hinb5_4 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S100000x128.size a
  hwx6_0 : ∀ i : grid6.Coords, EltTy.bits .f32 = 32 ∨ (Rect.block (s := S100000x128) S5000x128.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S5000x128.size a ≤ S100000x128.size a
  hwx6_1 : ∀ i : grid6.Coords, EltTy.bits .f32 = 32 ∨ (Rect.block (s := S100000x128) S5000x128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S256x128.size a ≤ S256x128.size a
  hwx6_2 : ∀ i : grid6.Coords, EltTy.bits .bf16 = 32 ∨ (Rect.block (s := S256x128) S256x128.size (cc6_transform_2 i) (hinb6_2 i)).WholeWords (EltTy.packing .bf16)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S128.size a ≤ S128.size a
  hwx6_3 : ∀ i : grid6.Coords, EltTy.bits .f32 = 32 ∨ (Rect.block (s := S128) S128.size (cc6_transform_3 i) (hinb6_3 i)).WholeWords (EltTy.packing .f32)
  hstage6_4 : ∀ j, (stage6_4 j).IsWhole
  nbuf6_4 : grid6.bufCount reads6_4 false = 2
  hreads6_4 : ∀ i i' : grid6.Coords, (∀ a, reads6_4 a = true → i a = i' a) → cc6_transform_4 i = cc6_transform_4 i'
  hinb6_4 : ∀ (i : grid6.Coords) a, (cc6_transform_4 i a + 1) * S5000x128.size a ≤ S100000x128.size a
  hwx6_4 : ∀ i : grid6.Coords, EltTy.bits .f32 = 32 ∨ (Rect.block (s := S100000x128) S5000x128.size (cc6_transform_4 i) (hinb6_4 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf

abbrev win0_0 : Pipeline.Window sig grid0 :=
  Pipeline.Window.ofSpec (Memref.whole main_v28) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v30) S256x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v32) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v33) S5000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v46) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v33) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v48) S256x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v50) S128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v51) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v64) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v51) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v66) S256x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v68) S128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v69) S5000x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v82) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v69) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v84) S256x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v86) S128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v87) S5000x128.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v100) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v87) S5000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v102) S256x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v104) S128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v105) S5000x128.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev win5_0 : Pipeline.Window sig grid5 :=
  Pipeline.Window.ofSpec (Memref.whole main_v118) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v105) S5000x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v120) S256x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v122) S128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v123) S5000x128.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

abbrev win6_0 : Pipeline.Window sig grid6 :=
  Pipeline.Window.ofSpec (Memref.whole main_v136) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v123) S5000x128.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v138) S256x128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v140) S128.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v141) S5000x128.size cc6_transform_4 reads6_4 true false 2 stage6_4 sem6_4
    hrank6 hreads6_4 hinb6_4 nbuf6_4 (Memref.isWhole_whole _) hwx6_4 hstage6_4

abbrev win6 : Fin 5 → Pipeline.Window sig grid6 := fun | 0 => win6_0 | 1 => win6_1 | 2 => win6_2 | 3 => win6_3 | 4 => win6_4 | ⟨_ + 5, h⟩ => absurd h (Nat.not_lt.2 (Nat.le_add_left _ _))
abbrev spec6 : Fin 5 → Pipeline.WinSpec sig grid6.rank := fun w => (win6 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S7x128x128 : Shape := ⟨3, ![7, 128, 128]⟩
abbrev S7x128 : Shape := ⟨2, ![7, 128]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S1600000x128 : Shape := ⟨2, ![1600000, 128]⟩
abbrev S100000x1 : Shape := ⟨2, ![100000, 1]⟩

abbrev nBuf : Space → Nat
  | .hbm => 249
  | .vmem => 0
  | .smem => 0
  | _ => 0

abbrev hbmTy0_0 (i : Nat) : BufTy := match i % 128 with
  | 0 => ⟨S100000x128, .f32⟩
  | 1 => ⟨S2x1600000, .i32⟩
  | 2 => ⟨S7x128x128, .f32⟩
  | 3 => ⟨S7x128x128, .f32⟩
  | 4 => ⟨S7x128, .f32⟩
  | 5 => ⟨S1x1600000, .i32⟩
  | 6 => ⟨S1600000, .i32⟩
  | 7 => ⟨S1x1600000, .i32⟩
  | 8 => ⟨S1600000, .i32⟩
  | 9 => ⟨S_, .f32⟩
  | 10 => ⟨S1600000, .f32⟩
  | 11 => ⟨S_, .f32⟩
  | 12 => ⟨S100000, .f32⟩
  | 13 => ⟨S1600000x1, .i32⟩
  | 14 => ⟨S100000, .f32⟩
  | 15 => ⟨S_, .f32⟩
  | 16 => ⟨S100000, .f32⟩
  | 17 => ⟨S100000, .f32⟩
  | 18 => ⟨S_, .f32⟩
  | 19 => ⟨S100000, .f32⟩
  | 20 => ⟨S100000, .f32⟩
  | 21 => ⟨S1x128x128, .f32⟩
  | 22 => ⟨S128x128, .f32⟩
  | 23 => ⟨S1x128x128, .f32⟩
  | 24 => ⟨S128x128, .f32⟩
  | 25 => ⟨S1x128, .f32⟩
  | 26 => ⟨S128, .f32⟩
  | 27 => ⟨S_, .i32⟩
  | 28 => ⟨S1600000, .i32⟩
  | 29 => ⟨S1600000, .i1⟩
  | 30 => ⟨S_, .i32⟩
  | 31 => ⟨S1600000, .i32⟩
  | 32 => ⟨S1600000, .i32⟩
  | 33 => ⟨S1600000, .i32⟩
  | 34 => ⟨S1600000x1, .i32⟩
  | 35 => ⟨S1600000x128, .f32⟩
  | 36 => ⟨S_, .f32⟩
  | 37 => ⟨S100000x128, .f32⟩
  | 38 => ⟨S1600000x1, .i32⟩
  | 39 => ⟨S100000x128, .f32⟩
  | 40 => ⟨S100000x1, .f32⟩
  | 41 => ⟨S100000x128, .f32⟩
  | 42 => ⟨S100000x128, .f32⟩
  | 43 => ⟨S128x128, .f32⟩
  | 44 => ⟨S100000x128, .f32⟩
  | 45 => ⟨S128x128, .f32⟩
  | 46 => ⟨S100000x128, .f32⟩
  | 47 => ⟨S100000x128, .f32⟩
  | 48 => ⟨S1x128, .f32⟩
  | 49 => ⟨S100000x128, .f32⟩
  | 50 => ⟨S100000x128, .f32⟩
  | 51 => ⟨S_, .f32⟩
  | 52 => ⟨S100000x128, .f32⟩
  | 53 => ⟨S100000x128, .f32⟩
  | 54 => ⟨S1x128x128, .f32⟩
  | 55 => ⟨S128x128, .f32⟩
  | 56 => ⟨S1x128x128, .f32⟩
  | 57 => ⟨S128x128, .f32⟩
  | 58 => ⟨S1x128, .f32⟩
  | 59 => ⟨S128, .f32⟩
  | 60 => ⟨S_, .i32⟩
  | 61 => ⟨S1600000, .i32⟩
  | 62 => ⟨S1600000, .i1⟩
  | 63 => ⟨S_, .i32⟩
  | 64 => ⟨S1600000, .i32⟩
  | 65 => ⟨S1600000, .i32⟩
  | 66 => ⟨S1600000, .i32⟩
  | 67 => ⟨S1600000x1, .i32⟩
  | 68 => ⟨S1600000x128, .f32⟩
  | 69 => ⟨S_, .f32⟩
  | 70 => ⟨S100000x128, .f32⟩
  | 71 => ⟨S1600000x1, .i32⟩
  | 72 => ⟨S100000x128, .f32⟩
  | 73 => ⟨S100000x1, .f32⟩
  | 74 => ⟨S100000x128, .f32⟩
  | 75 => ⟨S100000x128, .f32⟩
  | 76 => ⟨S128x128, .f32⟩
  | 77 => ⟨S100000x128, .f32⟩
  | 78 => ⟨S128x128, .f32⟩
  | 79 => ⟨S100000x128, .f32⟩
  | 80 => ⟨S100000x128, .f32⟩
  | 81 => ⟨S1x128, .f32⟩
  | 82 => ⟨S100000x128, .f32⟩
  | 83 => ⟨S100000x128, .f32⟩
  | 84 => ⟨S_, .f32⟩
  | 85 => ⟨S100000x128, .f32⟩
  | 86 => ⟨S100000x128, .f32⟩
  | 87 => ⟨S1x128x128, .f32⟩
  | 88 => ⟨S128x128, .f32⟩
  | 89 => ⟨S1x128x128, .f32⟩
  | 90 => ⟨S128x128, .f32⟩
  | 91 => ⟨S1x128, .f32⟩
  | 92 => ⟨S128, .f32⟩
  | 93 => ⟨S_, .i32⟩
  | 94 => ⟨S1600000, .i32⟩
  | 95 => ⟨S1600000, .i1⟩
  | 96 => ⟨S_, .i32⟩
  | 97 => ⟨S1600000, .i32⟩
  | 98 => ⟨S1600000, .i32⟩
  | 99 => ⟨S1600000, .i32⟩
  | 100 => ⟨S1600000x1, .i32⟩
  | 101 => ⟨S1600000x128, .f32⟩
  | 102 => ⟨S_, .f32⟩
  | 103 => ⟨S100000x128, .f32⟩
  | 104 => ⟨S1600000x1, .i32⟩
  | 105 => ⟨S100000x128, .f32⟩
  | 106 => ⟨S100000x1, .f32⟩
  | 107 => ⟨S100000x128, .f32⟩
  | 108 => ⟨S100000x128, .f32⟩
  | 109 => ⟨S128x128, .f32⟩
  | 110 => ⟨S100000x128, .f32⟩
  | 111 => ⟨S128x128, .f32⟩
  | 112 => ⟨S100000x128, .f32⟩
  | 113 => ⟨S100000x128, .f32⟩
  | 114 => ⟨S1x128, .f32⟩
  | 115 => ⟨S100000x128, .f32⟩
  | 116 => ⟨S100000x128, .f32⟩
  | 117 => ⟨S_, .f32⟩
  | 118 => ⟨S100000x128, .f32⟩
  | 119 => ⟨S100000x128, .f32⟩
  | 120 => ⟨S1x128x128, .f32⟩
  | 121 => ⟨S128x128, .f32⟩
  | 122 => ⟨S1x128x128, .f32⟩
  | 123 => ⟨S128x128, .f32⟩
  | 124 => ⟨S1x128, .f32⟩
  | 125 => ⟨S128, .f32⟩
  | 126 => ⟨S_, .i32⟩
  | 127 => ⟨S1600000, .i32⟩
  | _ => ⟨S100000x128, .f32⟩

abbrev hbmTy0_1 (i : Nat) : BufTy := match i % 128 with
  | 0 => ⟨S1600000, .i1⟩
  | 1 => ⟨S_, .i32⟩
  | 2 => ⟨S1600000, .i32⟩
  | 3 => ⟨S1600000, .i32⟩
  | 4 => ⟨S1600000, .i32⟩
  | 5 => ⟨S1600000x1, .i32⟩
  | 6 => ⟨S1600000x128, .f32⟩
  | 7 => ⟨S_, .f32⟩
  | 8 => ⟨S100000x128, .f32⟩
  | 9 => ⟨S1600000x1, .i32⟩
  | 10 => ⟨S100000x128, .f32⟩
  | 11 => ⟨S100000x1, .f32⟩
  | 12 => ⟨S100000x128, .f32⟩
  | 13 => ⟨S100000x128, .f32⟩
  | 14 => ⟨S128x128, .f32⟩
  | 15 => ⟨S100000x128, .f32⟩
  | 16 => ⟨S128x128, .f32⟩
  | 17 => ⟨S100000x128, .f32⟩
  | 18 => ⟨S100000x128, .f32⟩
  | 19 => ⟨S1x128, .f32⟩
  | 20 => ⟨S100000x128, .f32⟩
  | 21 => ⟨S100000x128, .f32⟩
  | 22 => ⟨S_, .f32⟩
  | 23 => ⟨S100000x128, .f32⟩
  | 24 => ⟨S100000x128, .f32⟩
  | 25 => ⟨S1x128x128, .f32⟩
  | 26 => ⟨S128x128, .f32⟩
  | 27 => ⟨S1x128x128, .f32⟩
  | 28 => ⟨S128x128, .f32⟩
  | 29 => ⟨S1x128, .f32⟩
  | 30 => ⟨S128, .f32⟩
  | 31 => ⟨S_, .i32⟩
  | 32 => ⟨S1600000, .i32⟩
  | 33 => ⟨S1600000, .i1⟩
  | 34 => ⟨S_, .i32⟩
  | 35 => ⟨S1600000, .i32⟩
  | 36 => ⟨S1600000, .i32⟩
  | 37 => ⟨S1600000, .i32⟩
  | 38 => ⟨S1600000x1, .i32⟩
  | 39 => ⟨S1600000x128, .f32⟩
  | 40 => ⟨S_, .f32⟩
  | 41 => ⟨S100000x128, .f32⟩
  | 42 => ⟨S1600000x1, .i32⟩
  | 43 => ⟨S100000x128, .f32⟩
  | 44 => ⟨S100000x1, .f32⟩
  | 45 => ⟨S100000x128, .f32⟩
  | 46 => ⟨S100000x128, .f32⟩
  | 47 => ⟨S128x128, .f32⟩
  | 48 => ⟨S100000x128, .f32⟩
  | 49 => ⟨S128x128, .f32⟩
  | 50 => ⟨S100000x128, .f32⟩
  | 51 => ⟨S100000x128, .f32⟩
  | 52 => ⟨S1x128, .f32⟩
  | 53 => ⟨S100000x128, .f32⟩
  | 54 => ⟨S100000x128, .f32⟩
  | 55 => ⟨S_, .f32⟩
  | 56 => ⟨S100000x128, .f32⟩
  | 57 => ⟨S100000x128, .f32⟩
  | 58 => ⟨S1x128x128, .f32⟩
  | 59 => ⟨S128x128, .f32⟩
  | 60 => ⟨S1x128x128, .f32⟩
  | 61 => ⟨S128x128, .f32⟩
  | 62 => ⟨S1x128, .f32⟩
  | 63 => ⟨S128, .f32⟩
  | 64 => ⟨S_, .i32⟩
  | 65 => ⟨S1600000, .i32⟩
  | 66 => ⟨S1600000, .i1⟩
  | 67 => ⟨S_, .i32⟩
  | 68 => ⟨S1600000, .i32⟩
  | 69 => ⟨S1600000, .i32⟩
  | 70 => ⟨S1600000, .i32⟩
  | 71 => ⟨S1600000x1, .i32⟩
  | 72 => ⟨S1600000x128, .f32⟩
  | 73 => ⟨S_, .f32⟩
  | 74 => ⟨S100000x128, .f32⟩
  | 75 => ⟨S1600000x1, .i32⟩
  | 76 => ⟨S100000x128, .f32⟩
  | 77 => ⟨S100000x1, .f32⟩
  | 78 => ⟨S100000x128, .f32⟩
  | 79 => ⟨S100000x128, .f32⟩
  | 80 => ⟨S128x128, .f32⟩
  | 81 => ⟨S100000x128, .f32⟩
  | 82 => ⟨S128x128, .f32⟩
  | 83 => ⟨S100000x128, .f32⟩
  | 84 => ⟨S100000x128, .f32⟩
  | 85 => ⟨S1x128, .f32⟩
  | 86 => ⟨S100000x128, .f32⟩
  | 87 => ⟨S100000x128, .f32⟩
  | 88 => ⟨S_, .f32⟩
  | 89 => ⟨S100000x128, .f32⟩
  | 90 => ⟨S100000x128, .f32⟩
  | 91 => ⟨S1x128x128, .f32⟩
  | 92 => ⟨S128x128, .f32⟩
  | 93 => ⟨S1x128x128, .f32⟩
  | 94 => ⟨S128x128, .f32⟩
  | 95 => ⟨S1x128, .f32⟩
  | 96 => ⟨S128, .f32⟩
  | 97 => ⟨S_, .i32⟩
  | 98 => ⟨S1600000, .i32⟩
  | 99 => ⟨S1600000, .i1⟩
  | 100 => ⟨S_, .i32⟩
  | 101 => ⟨S1600000, .i32⟩
  | 102 => ⟨S1600000, .i32⟩
  | 103 => ⟨S1600000, .i32⟩
  | 104 => ⟨S1600000x1, .i32⟩
  | 105 => ⟨S1600000x128, .f32⟩
  | 106 => ⟨S_, .f32⟩
  | 107 => ⟨S100000x128, .f32⟩
  | 108 => ⟨S1600000x1, .i32⟩
  | 109 => ⟨S100000x128, .f32⟩
  | 110 => ⟨S100000x1, .f32⟩
  | 111 => ⟨S100000x128, .f32⟩
  | 112 => ⟨S100000x128, .f32⟩
  | 113 => ⟨S128x128, .f32⟩
  | 114 => ⟨S100000x128, .f32⟩
  | 115 => ⟨S128x128, .f32⟩
  | 116 => ⟨S100000x128, .f32⟩
  | 117 => ⟨S100000x128, .f32⟩
  | 118 => ⟨S1x128, .f32⟩
  | 119 => ⟨S100000x128, .f32⟩
  | 120 => ⟨S100000x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_c : Ref sig .tc := ⟨.hbm, 27, rfl⟩
abbrev main_v18 : Ref sig .tc := ⟨.hbm, 28, rfl⟩
abbrev main_v19 : Ref sig .tc := ⟨.hbm, 29, rfl⟩
abbrev main_c_3 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_4 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_call0_cst : Ref sig .tc := ⟨.hbm, 51, rfl⟩
abbrev main_call0_v0 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_c_5 : Ref sig .tc := ⟨.hbm, 60, rfl⟩
abbrev main_v46 : Ref sig .tc := ⟨.hbm, 61, rfl⟩
abbrev main_v47 : Ref sig .tc := ⟨.hbm, 62, rfl⟩
abbrev main_c_6 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_cst_7 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_call1_cst : Ref sig .tc := ⟨.hbm, 84, rfl⟩
abbrev main_call1_v0 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_c_8 : Ref sig .tc := ⟨.hbm, 93, rfl⟩
abbrev main_v74 : Ref sig .tc := ⟨.hbm, 94, rfl⟩
abbrev main_v75 : Ref sig .tc := ⟨.hbm, 95, rfl⟩
abbrev main_c_9 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_cst_10 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev main_call2_cst : Ref sig .tc := ⟨.hbm, 117, rfl⟩
abbrev main_call2_v0 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_v99 : Ref sig .tc := ⟨.hbm, 123, rfl⟩
abbrev main_v100 : Ref sig .tc := ⟨.hbm, 124, rfl⟩
abbrev main_v101 : Ref sig .tc := ⟨.hbm, 125, rfl⟩
abbrev main_c_11 : Ref sig .tc := ⟨.hbm, 126, rfl⟩
abbrev main_v102 : Ref sig .tc := ⟨.hbm, 127, rfl⟩
abbrev main_v103 : Ref sig .tc := ⟨.hbm, 128, rfl⟩
abbrev main_c_12 : Ref sig .tc := ⟨.hbm, 129, rfl⟩
abbrev main_v104 : Ref sig .tc := ⟨.hbm, 130, rfl⟩
abbrev main_v105 : Ref sig .tc := ⟨.hbm, 131, rfl⟩
abbrev main_v106 : Ref sig .tc := ⟨.hbm, 132, rfl⟩
abbrev main_v107 : Ref sig .tc := ⟨.hbm, 133, rfl⟩
abbrev main_v108 : Ref sig .tc := ⟨.hbm, 134, rfl⟩
abbrev main_cst_13 : Ref sig .tc := ⟨.hbm, 135, rfl⟩
abbrev main_v109 : Ref sig .tc := ⟨.hbm, 136, rfl⟩
abbrev main_v110 : Ref sig .tc := ⟨.hbm, 137, rfl⟩
abbrev main_v111 : Ref sig .tc := ⟨.hbm, 138, rfl⟩
abbrev main_v112 : Ref sig .tc := ⟨.hbm, 139, rfl⟩
abbrev main_v113 : Ref sig .tc := ⟨.hbm, 140, rfl⟩
abbrev main_v114 : Ref sig .tc := ⟨.hbm, 141, rfl⟩
abbrev main_v115 : Ref sig .tc := ⟨.hbm, 142, rfl⟩
abbrev main_v116 : Ref sig .tc := ⟨.hbm, 143, rfl⟩
abbrev main_v117 : Ref sig .tc := ⟨.hbm, 144, rfl⟩
abbrev main_v118 : Ref sig .tc := ⟨.hbm, 145, rfl⟩
abbrev main_v119 : Ref sig .tc := ⟨.hbm, 146, rfl⟩
abbrev main_v120 : Ref sig .tc := ⟨.hbm, 147, rfl⟩
abbrev main_v121 : Ref sig .tc := ⟨.hbm, 148, rfl⟩
abbrev main_v122 : Ref sig .tc := ⟨.hbm, 149, rfl⟩
abbrev main_call3_cst : Ref sig .tc := ⟨.hbm, 150, rfl⟩
abbrev main_call3_v0 : Ref sig .tc := ⟨.hbm, 151, rfl⟩
abbrev main_v123 : Ref sig .tc := ⟨.hbm, 152, rfl⟩
abbrev main_v124 : Ref sig .tc := ⟨.hbm, 153, rfl⟩
abbrev main_v125 : Ref sig .tc := ⟨.hbm, 154, rfl⟩
abbrev main_v126 : Ref sig .tc := ⟨.hbm, 155, rfl⟩
abbrev main_v127 : Ref sig .tc := ⟨.hbm, 156, rfl⟩
abbrev main_v128 : Ref sig .tc := ⟨.hbm, 157, rfl⟩
abbrev main_v129 : Ref sig .tc := ⟨.hbm, 158, rfl⟩
abbrev main_c_14 : Ref sig .tc := ⟨.hbm, 159, rfl⟩
abbrev main_v130 : Ref sig .tc := ⟨.hbm, 160, rfl⟩
abbrev main_v131 : Ref sig .tc := ⟨.hbm, 161, rfl⟩
abbrev main_c_15 : Ref sig .tc := ⟨.hbm, 162, rfl⟩
abbrev main_v132 : Ref sig .tc := ⟨.hbm, 163, rfl⟩
abbrev main_v133 : Ref sig .tc := ⟨.hbm, 164, rfl⟩
abbrev main_v134 : Ref sig .tc := ⟨.hbm, 165, rfl⟩
abbrev main_v135 : Ref sig .tc := ⟨.hbm, 166, rfl⟩
abbrev main_v136 : Ref sig .tc := ⟨.hbm, 167, rfl⟩
abbrev main_cst_16 : Ref sig .tc := ⟨.hbm, 168, rfl⟩
abbrev main_v137 : Ref sig .tc := ⟨.hbm, 169, rfl⟩
abbrev main_v138 : Ref sig .tc := ⟨.hbm, 170, rfl⟩
abbrev main_v139 : Ref sig .tc := ⟨.hbm, 171, rfl⟩
abbrev main_v140 : Ref sig .tc := ⟨.hbm, 172, rfl⟩
abbrev main_v141 : Ref sig .tc := ⟨.hbm, 173, rfl⟩
abbrev main_v142 : Ref sig .tc := ⟨.hbm, 174, rfl⟩
abbrev main_v143 : Ref sig .tc := ⟨.hbm, 175, rfl⟩
abbrev main_v144 : Ref sig .tc := ⟨.hbm, 176, rfl⟩
abbrev main_v145 : Ref sig .tc := ⟨.hbm, 177, rfl⟩
abbrev main_v146 : Ref sig .tc := ⟨.hbm, 178, rfl⟩
abbrev main_v147 : Ref sig .tc := ⟨.hbm, 179, rfl⟩
abbrev main_v148 : Ref sig .tc := ⟨.hbm, 180, rfl⟩
abbrev main_v149 : Ref sig .tc := ⟨.hbm, 181, rfl⟩
abbrev main_v150 : Ref sig .tc := ⟨.hbm, 182, rfl⟩
abbrev main_call4_cst : Ref sig .tc := ⟨.hbm, 183, rfl⟩
abbrev main_call4_v0 : Ref sig .tc := ⟨.hbm, 184, rfl⟩
abbrev main_v151 : Ref sig .tc := ⟨.hbm, 185, rfl⟩
abbrev main_v152 : Ref sig .tc := ⟨.hbm, 186, rfl⟩
abbrev main_v153 : Ref sig .tc := ⟨.hbm, 187, rfl⟩
abbrev main_v154 : Ref sig .tc := ⟨.hbm, 188, rfl⟩
abbrev main_v155 : Ref sig .tc := ⟨.hbm, 189, rfl⟩
abbrev main_v156 : Ref sig .tc := ⟨.hbm, 190, rfl⟩
abbrev main_v157 : Ref sig .tc := ⟨.hbm, 191, rfl⟩
abbrev main_c_17 : Ref sig .tc := ⟨.hbm, 192, rfl⟩
abbrev main_v158 : Ref sig .tc := ⟨.hbm, 193, rfl⟩
abbrev main_v159 : Ref sig .tc := ⟨.hbm, 194, rfl⟩
abbrev main_c_18 : Ref sig .tc := ⟨.hbm, 195, rfl⟩
abbrev main_v160 : Ref sig .tc := ⟨.hbm, 196, rfl⟩
abbrev main_v161 : Ref sig .tc := ⟨.hbm, 197, rfl⟩
abbrev main_v162 : Ref sig .tc := ⟨.hbm, 198, rfl⟩
abbrev main_v163 : Ref sig .tc := ⟨.hbm, 199, rfl⟩
abbrev main_v164 : Ref sig .tc := ⟨.hbm, 200, rfl⟩
abbrev main_cst_19 : Ref sig .tc := ⟨.hbm, 201, rfl⟩
abbrev main_v165 : Ref sig .tc := ⟨.hbm, 202, rfl⟩
abbrev main_v166 : Ref sig .tc := ⟨.hbm, 203, rfl⟩
abbrev main_v167 : Ref sig .tc := ⟨.hbm, 204, rfl⟩
abbrev main_v168 : Ref sig .tc := ⟨.hbm, 205, rfl⟩
abbrev main_v169 : Ref sig .tc := ⟨.hbm, 206, rfl⟩
abbrev main_v170 : Ref sig .tc := ⟨.hbm, 207, rfl⟩
abbrev main_v171 : Ref sig .tc := ⟨.hbm, 208, rfl⟩
abbrev main_v172 : Ref sig .tc := ⟨.hbm, 209, rfl⟩
abbrev main_v173 : Ref sig .tc := ⟨.hbm, 210, rfl⟩
abbrev main_v174 : Ref sig .tc := ⟨.hbm, 211, rfl⟩
abbrev main_v175 : Ref sig .tc := ⟨.hbm, 212, rfl⟩
abbrev main_v176 : Ref sig .tc := ⟨.hbm, 213, rfl⟩
abbrev main_v177 : Ref sig .tc := ⟨.hbm, 214, rfl⟩
abbrev main_v178 : Ref sig .tc := ⟨.hbm, 215, rfl⟩
abbrev main_call5_cst : Ref sig .tc := ⟨.hbm, 216, rfl⟩
abbrev main_call5_v0 : Ref sig .tc := ⟨.hbm, 217, rfl⟩
abbrev main_v179 : Ref sig .tc := ⟨.hbm, 218, rfl⟩
abbrev main_v180 : Ref sig .tc := ⟨.hbm, 219, rfl⟩
abbrev main_v181 : Ref sig .tc := ⟨.hbm, 220, rfl⟩
abbrev main_v182 : Ref sig .tc := ⟨.hbm, 221, rfl⟩
abbrev main_v183 : Ref sig .tc := ⟨.hbm, 222, rfl⟩
abbrev main_v184 : Ref sig .tc := ⟨.hbm, 223, rfl⟩
abbrev main_v185 : Ref sig .tc := ⟨.hbm, 224, rfl⟩
abbrev main_c_20 : Ref sig .tc := ⟨.hbm, 225, rfl⟩
abbrev main_v186 : Ref sig .tc := ⟨.hbm, 226, rfl⟩
abbrev main_v187 : Ref sig .tc := ⟨.hbm, 227, rfl⟩
abbrev main_c_21 : Ref sig .tc := ⟨.hbm, 228, rfl⟩
abbrev main_v188 : Ref sig .tc := ⟨.hbm, 229, rfl⟩
abbrev main_v189 : Ref sig .tc := ⟨.hbm, 230, rfl⟩
abbrev main_v190 : Ref sig .tc := ⟨.hbm, 231, rfl⟩
abbrev main_v191 : Ref sig .tc := ⟨.hbm, 232, rfl⟩
abbrev main_v192 : Ref sig .tc := ⟨.hbm, 233, rfl⟩
abbrev main_cst_22 : Ref sig .tc := ⟨.hbm, 234, rfl⟩
abbrev main_v193 : Ref sig .tc := ⟨.hbm, 235, rfl⟩
abbrev main_v194 : Ref sig .tc := ⟨.hbm, 236, rfl⟩
abbrev main_v195 : Ref sig .tc := ⟨.hbm, 237, rfl⟩
abbrev main_v196 : Ref sig .tc := ⟨.hbm, 238, rfl⟩
abbrev main_v197 : Ref sig .tc := ⟨.hbm, 239, rfl⟩
abbrev main_v198 : Ref sig .tc := ⟨.hbm, 240, rfl⟩
abbrev main_v199 : Ref sig .tc := ⟨.hbm, 241, rfl⟩
abbrev main_v200 : Ref sig .tc := ⟨.hbm, 242, rfl⟩
abbrev main_v201 : Ref sig .tc := ⟨.hbm, 243, rfl⟩
abbrev main_v202 : Ref sig .tc := ⟨.hbm, 244, rfl⟩
abbrev main_v203 : Ref sig .tc := ⟨.hbm, 245, rfl⟩
abbrev main_v204 : Ref sig .tc := ⟨.hbm, 246, rfl⟩
abbrev main_v205 : Ref sig .tc := ⟨.hbm, 247, rfl⟩
abbrev main_v206 : Ref sig .tc := ⟨.hbm, 248, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  slices_S7x128x128_S1x128x128_0_0_0 : S7x128x128.Slices ![0, 0, 0] S1x128x128
  shapeCasts_S1x128x128_S128x128 : S1x128x128.ShapeCasts S128x128
  slices_S7x128_S1x128_0_0 : S7x128.Slices ![0, 0] S1x128
  shapeCasts_S1x128_S128 : S1x128.ShapeCasts S128
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  slices_S7x128x128_S1x128x128_1_0_0 : S7x128x128.Slices ![1, 0, 0] S1x128x128
  slices_S7x128_S1x128_1_0 : S7x128.Slices ![1, 0] S1x128
  slices_S7x128x128_S1x128x128_2_0_0 : S7x128x128.Slices ![2, 0, 0] S1x128x128
  slices_S7x128_S1x128_2_0 : S7x128.Slices ![2, 0] S1x128
  slices_S7x128x128_S1x128x128_3_0_0 : S7x128x128.Slices ![3, 0, 0] S1x128x128
  slices_S7x128_S1x128_3_0 : S7x128.Slices ![3, 0] S1x128
  slices_S7x128x128_S1x128x128_4_0_0 : S7x128x128.Slices ![4, 0, 0] S1x128x128
  slices_S7x128_S1x128_4_0 : S7x128.Slices ![4, 0] S1x128
  slices_S7x128x128_S1x128x128_5_0_0 : S7x128x128.Slices ![5, 0, 0] S1x128x128
  slices_S7x128_S1x128_5_0 : S7x128.Slices ![5, 0] S1x128
  slices_S7x128x128_S1x128x128_6_0_0 : S7x128x128.Slices ![6, 0, 0] S1x128x128
  slices_S7x128_S1x128_6_0 : S7x128.Slices ![6, 0] S1x128
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.SageLayer.lean ====
/-
  One layer of the network as a function of arrays, index by index, on the extended reals.

  A layer takes the node features `h` (100000 nodes, 128 features) and the neighbour means `mn` of the same shape and
  returns, at node `r` and feature `d`,
      act ( Σ_j mn[r,j] · Wl[k,d,j]  +  Σ_j h[r,j] · Wr[k,d,j]  +  B[k,d] ),
  `act` being `max · 0` on all layers but the last. That is the two-product form (`dense`).
  The fused form (`fused`) multiplies the row `[mn[r,·] | h[r,·]]` of length 256 by the stacked matrix
  `[Wl[k]ᵀ ; Wr[k]ᵀ]` (256 × 128) in ONE sum. The two agree because a sum over 256 = 128 + 128 indices is the sum of its
  two halves, which holds in any commutative monoid (no finiteness is needed on the extended reals).
-/
import Idealize.ShloMosaic.PureOps.Ideal
import Idealize.ShloMosaic.PureOps.Ideal.Laws
import Idealize.ShloMosaic.Lib.ValueIdx

noncomputable section

open scoped BigOperators

namespace Cert.SageLayer

open Idealize.ShloMosaic Idealize.ShloMosaic.ValueIdx

/-- Node features: 100000 nodes by 128 features. -/
abbrev Nodes := (⟨2, ![100000, 128]⟩ : Shape).Idx → EReal
/-- The seven layers' square weight matrices. -/
abbrev Weights := (⟨3, ![7, 128, 128]⟩ : Shape).Idx → EReal
/-- The seven layers' bias rows. -/
abbrev Biases := (⟨2, ![7, 128]⟩ : Shape).Idx → EReal
/-- One layer's stacked weights, 256 rows by 128 columns. -/
abbrev Stacked := (⟨2, ![256, 128]⟩ : Shape).Idx → EReal
/-- One layer's bias row. -/
abbrev BiasRow := (⟨1, ![128]⟩ : Shape).Idx → EReal

/-- The activation: `max · 0` or nothing. -/
def act (relu : Bool) (v : EReal) : EReal := if relu then max v 0 else v

/-- Layer `k` at node `r`, feature `d`, in the two-product form. -/
def denseAt (relu : Bool) (k : Fin 7) (mn h : Nodes) (Wl Wr : Weights) (B : Biases) (r : Fin 100000) (d : Fin 128) : EReal :=
  act relu ((∑ j : Fin 128, mn (ix2 r j) * Wl (ix3 k d j)) + (∑ j : Fin 128, h (ix2 r j) * Wr (ix3 k d j)) + B (ix2 k d))

/-- Layer `k` as an array. -/
def dense (relu : Bool) (k : Fin 7) (mn h : Nodes) (Wl Wr : Weights) (B : Biases) : Nodes :=
  fun i => denseAt relu k mn h Wl Wr B (i 0) (i 1)

/-- Entry `j` of the row `[mn[r,·] | h[r,·]]`. -/
def catRow (mn h : Nodes) (r : Fin 100000) (j : Fin 256) : EReal :=
  if hj : j.val < 128 then mn (ix2 r ⟨j.val, hj⟩) else h (ix2 r ⟨j.val - 128, by omega⟩)

/-- A layer at node `r`, feature `d`, in the fused form: one sum over the 256 stacked rows. -/
def fusedAt (relu : Bool) (mn h : Nodes) (wc : Stacked) (b : BiasRow) (r : Fin 100000) (d : Fin 128) : EReal :=
  act relu ((∑ j : Fin 256, catRow mn h r j * wc (ix2 j d)) + b (ix1 d))

/-- The fused form as an array. -/
def fused (relu : Bool) (mn h : Nodes) (wc : Stacked) (b : BiasRow) : Nodes :=
  fun i => fusedAt relu mn h wc b (i 0) (i 1)

/-- Layer `k`'s stacked matrix `[Wl[k]ᵀ ; Wr[k]ᵀ]`. -/
def stack (k : Fin 7) (Wl Wr : Weights) : Stacked := fun i =>
  if hj : (i 0).val < 128 then Wl (ix3 k (i 1) ⟨(i 0).val, hj⟩) else Wr (ix3 k (i 1) ⟨(i 0).val - 128, by have := idx2_lt0 i; omega⟩)

/-- Layer `k`'s bias row. -/
def biasRow (k : Fin 7) (B : Biases) : BiasRow := fun i => B (ix2 k (i 0))

/-- A sum over 256 indices is the sum over the first 128 plus the sum over the last 128. -/
theorem sum_256 (f : Fin 256 → EReal) :
    ∑ j : Fin 256, f j = (∑ j : Fin 128, f ⟨j.val, by omega⟩) + ∑ j : Fin 128, f ⟨128 + j.val, by omega⟩ :=
  Fin.sum_univ_add (a := 128) (b := 128) f

/-- The fused form over the stacked matrix is the two-product form, at a node and a feature. -/
theorem fusedAt_stack (relu : Bool) (k : Fin 7) (mn h : Nodes) (Wl Wr : Weights) (B : Biases) (r : Fin 100000) (d : Fin 128) :
    fusedAt relu mn h (stack k Wl Wr) (biasRow k B) r d = denseAt relu k mn h Wl Wr B r d := by
  unfold fusedAt denseAt
  rw [sum_256]
  refine congrArg (act relu) (congrArg₂ (· + ·) (congrArg₂ (· + ·) ?_ ?_) rfl)
  · refine Finset.sum_congr rfl fun j _ => ?_
    have hj : j.val < 128 := j.isLt
    unfold catRow stack
    rw [dif_pos (show (⟨j.val, by omega⟩ : Fin 256).val < 128 from hj),
      dif_pos (show (ix2 (n0 := 256) (n1 := 128) ⟨j.val, by omega⟩ d 0).val < 128 from hj)]
  · refine Finset.sum_congr rfl fun j _ => ?_
    have hj : j.val < 128 := j.isLt
    unfold catRow stack
    rw [dif_neg (show ¬ (⟨128 + j.val, by omega⟩ : Fin 256).val < 128 from by show ¬ 128 + j.val < 128; omega),
      dif_neg (show ¬ (ix2 (n0 := 256) (n1 := 128) ⟨128 + j.val, by omega⟩ d 0).val < 128 from by
        show ¬ 128 + j.val < 128; omega)]
    refine congrArg₂ (· * ·) (congrArg h (congrArg (ix2 r) (Fin.ext ?_))) (congrArg Wr (congrArg (ix3 k d) (Fin.ext ?_)))
    · show 128 + j.val - 128 = j.val; omega
    · show 128 + j.val - 128 = j.val; omega

/-- The fused form over the stacked matrix is the two-product form. -/
theorem fused_stack (relu : Bool) (k : Fin 7) (mn h : Nodes) (Wl Wr : Weights) (B : Biases) :
    fused relu mn h (stack k Wl Wr) (biasRow k B) = dense relu k mn h Wl Wr B :=
  funext fun i => fusedAt_stack relu k mn h Wl Wr B (i 0) (i 1)

/-- One layer over an aggregation `agg` of the features (the neighbour mean). -/
def layer (relu : Bool) (k : Fin 7) (agg : Nodes → Nodes) (Wl Wr : Weights) (B : Biases) (h : Nodes) : Nodes :=
  dense relu k (agg h) h Wl Wr B

/-- The seven layers, the activation on all but the last. -/
def net (agg : Nodes → Nodes) (Wl Wr : Weights) (B : Biases) (x : Nodes) : Nodes :=
  layer false 6 agg Wl Wr B (layer true 5 agg Wl Wr B (layer true 4 agg Wl Wr B (layer true 3 agg Wl Wr B
    (layer true 2 agg Wl Wr B (layer true 1 agg Wl Wr B (layer true 0 agg Wl Wr B x))))))

end Cert.SageLayer

end
-- ==== Proof.RefLayers.lean ====
/-
  The reference network, layer by layer, is the seven-layer function of `SageLayer`.

  One layer of the reference is  act( mn · Wl[k]ᵀ + h · Wr[k]ᵀ + B[k] )  written with two matrix products against the
  transposed 128 × 128 slabs `Wl[k]`, `Wr[k]` of the weight stacks and a broadcast of the bias row `B[k]`. Read at a node
  `r` and a feature `d`: a product against a transposed matrix is `Σ_j l[r,j] · w[d,j]`; the slab `k` of a stack at
  `(d, j)` is the stack at `(k, d, j)`; the broadcast bias at `(r, d)` is `B[k, d]`; the activation compares with the
  zero word, which is the real number 0. That is `SageLayer.dense`. The aggregation `mn` of `h` (gather the source
  rows, add them up per destination, scale by the inverse degree) is the same operation in every layer and is never
  opened: it is the first layer's own aggregation stage applied to the layer's input.
-/
import proofs.«162382_j80479097192825_1_alg».proof.Proof.Gen.ReferenceIdeal.Read
import proofs.«162382_j80479097192825_1_alg».proof.Proof.SageLayer
import Idealize.ShloMosaic.Lib.ValueLayout

noncomputable section

open scoped BigOperators

namespace Cert.RefLayers

open Idealize.ShloMosaic Idealize.ShloMosaic.TcCoe Idealize.ShloMosaic.ValueIdx
open Cert.ReferenceIdeal Cert.ReferenceIdeal.Gen Cert.ReferenceIdeal.Read Cert.SageLayer

local notation "D" => dot_S100000x128_S128x128_S100000x128_1_0_0_1_n_n

/-- A product of `l` against the transpose of `w`, at node `r` and feature `d`: `Σ_j l[r,j] · w[d,j]`. -/
theorem dot_transposed (l : FVec Ideal S100000x128 .f32) (w : FVec Ideal S128x128 .f32) (r : Fin 100000) (d : Fin 128) :
    Host.dotGeneral D none l (transpose S128x128 [1, 0] w transposes_S128x128_S128x128_1_0) (ix2 r d)
      = ∑ j : Fin 128, l (ix2 r j) * w (ix2 d j) := by
  simp only [Host.dotGeneral]
  rw [Ideal.dotGeneral_apply, ← Equiv.sum_comp (ValueIdx.contrEquiv1 D 128 rfl rfl).symm]
  refine Finset.sum_congr rfl fun j _ => ?_
  have hj := ValueIdx.contrEquiv1_symm_val D 128 rfl rfl j
  refine congrArg₂ (· * ·) (congrArg l (funext fun a => Fin.ext ?_)) ?_
  · match a with
    | ⟨0, _⟩ => exact lhs_main_v32_0 (ix2 r d) _
    | ⟨1, _⟩ => exact (lhs_main_v32_1 (ix2 r d) _).trans hj
  · refine transpose_apply [1, 0] w transposes_S128x128_S128x128_1_0 _ (ix2 d j) (fun b => ?_)
    match b with
    | ⟨0, _⟩ => exact ((rhs_main_v32_0 (ix2 r d) _).trans hj).symm
    | ⟨1, _⟩ => exact (rhs_main_v32_1 (ix2 r d) _).symm

/-- Slab `k` of a weight stack, as a matrix, at `(d, j)` is the stack at `(k, d, j)`. -/
theorem slab_apply (k : Nat) (hk : k < 7) (hs : S7x128x128.Slices ![k, 0, 0] S1x128x128) (X : FVec Ideal S7x128x128 .f32)
    (d j : Fin 128) :
    shapeCast S128x128 (extractStridedSlice S1x128x128 ![k, 0, 0] X hs) shapeCasts_S1x128x128_S128x128 (ix2 d j)
      = X (ix3 (⟨k, hk⟩ : Fin 7) d j) := by
  rw [shapeCast_1ab_ab_apply]
  exact extractStridedSlice_apply _ X hs _ _ (fun a => by
    match a with
    | ⟨0, _⟩ => show k = k + 0; omega
    | ⟨1, _⟩ => show d.val = 0 + d.val; omega
    | ⟨2, _⟩ => show j.val = 0 + j.val; omega)

/-- Row `k` of the bias stack broadcast over the nodes, at `(r, d)`, is the stack at `(k, d)`. -/
theorem bias_apply (k : Nat) (hk : k < 7) (hs : S7x128.Slices ![k, 0] S1x128) (B : FVec Ideal S7x128 .f32)
    (r : Fin 100000) (d : Fin 128) :
    broadcastInDim S100000x128 ![0, 1] bcast_S1x128_S100000x128_0_1 (broadcastInDim S1x128 ![1] bcast_S128_S1x128_1
      (shapeCast S128 (extractStridedSlice S1x128 ![k, 0] B hs) shapeCasts_S1x128_S128)) (ix2 r d)
      = B (ix2 (⟨k, hk⟩ : Fin 7) d) := by
  rw [broadcastInDim_apply _ _ _ _ (ix2 (0 : Fin 1) d) (fun a => match a with | ⟨0, _⟩ => rfl | ⟨1, _⟩ => rfl),
    broadcastInDim_apply _ _ _ _ (ix1 d) (fun a => match a with | ⟨0, _⟩ => rfl), shapeCast_1a_a_apply]
  exact extractStridedSlice_apply _ B hs _ _ (fun a => by
    match a with
    | ⟨0, _⟩ => show k = k + 0; omega
    | ⟨1, _⟩ => show d.val = 0 + d.val; omega)

/-- The zero the activation compares with, broadcast over the nodes, is the real number 0. -/
theorem zero_apply (i : S100000x128.Idx) :
    broadcastInDim S100000x128 ![] bcast_S_S100000x128 (constant (F := Ideal) S_ .f32 0x00000000#32) i = 0 := by
  rw [broadcastInDim_apply _ _ _ _ ix0 (fun a => a.elim0), constant_apply, Ideal.ofBits_zero_f32]

/-- A layer of the reference before its activation, at a node and a feature. -/
theorem pre_apply (k : Nat) (hk : k < 7) (hsW : S7x128x128.Slices ![k, 0, 0] S1x128x128) (hsB : S7x128.Slices ![k, 0] S1x128)
    (mn h : FVec Ideal S100000x128 .f32) (Wl Wr : FVec Ideal S7x128x128 .f32) (B : FVec Ideal S7x128 .f32)
    (r : Fin 100000) (d : Fin 128) :
    addf (addf
        (Host.dotGeneral D none mn (transpose S128x128 [1, 0]
          (shapeCast S128x128 (extractStridedSlice S1x128x128 ![k, 0, 0] Wl hsW) shapeCasts_S1x128x128_S128x128) transposes_S128x128_S128x128_1_0))
        (Host.dotGeneral D none h (transpose S128x128 [1, 0]
          (shapeCast S128x128 (extractStridedSlice S1x128x128 ![k, 0, 0] Wr hsW) shapeCasts_S1x128x128_S128x128) transposes_S128x128_S128x128_1_0)))
      (broadcastInDim S100000x128 ![0, 1] bcast_S1x128_S100000x128_0_1 (broadcastInDim S1x128 ![1] bcast_S128_S1x128_1
        (shapeCast S128 (extractStridedSlice S1x128 ![k, 0] B hsB) shapeCasts_S1x128_S128))) (ix2 r d)
      = (∑ j : Fin 128, mn (ix2 r j) * Wl (ix3 (⟨k, hk⟩ : Fin 7) d j)) + (∑ j : Fin 128, h (ix2 r j) * Wr (ix3 (⟨k, hk⟩ : Fin 7) d j))
        + B (ix2 (⟨k, hk⟩ : Fin 7) d) := by
  rw [addf_apply, addf_apply, dot_transposed, dot_transposed, bias_apply k hk]
  simp only [slab_apply k hk]

/-- A layer of the reference with its activation is `dense true`. -/
theorem layer_relu (k : Nat) (hk : k < 7) (hsW : S7x128x128.Slices ![k, 0, 0] S1x128x128) (hsB : S7x128.Slices ![k, 0] S1x128)
    (mn h : FVec Ideal S100000x128 .f32) (Wl Wr : FVec Ideal S7x128x128 .f32) (B : FVec Ideal S7x128 .f32) :
    maximumf (addf (addf
        (Host.dotGeneral D none mn (transpose S128x128 [1, 0]
          (shapeCast S128x128 (extractStridedSlice S1x128x128 ![k, 0, 0] Wl hsW) shapeCasts_S1x128x128_S128x128) transposes_S128x128_S128x128_1_0))
        (Host.dotGeneral D none h (transpose S128x128 [1, 0]
          (shapeCast S128x128 (extractStridedSlice S1x128x128 ![k, 0, 0] Wr hsW) shapeCasts_S1x128x128_S128x128) transposes_S128x128_S128x128_1_0)))
      (broadcastInDim S100000x128 ![0, 1] bcast_S1x128_S100000x128_0_1 (broadcastInDim S1x128 ![1] bcast_S128_S1x128_1
        (shapeCast S128 (extractStridedSlice S1x128 ![k, 0] B hsB) shapeCasts_S1x128_S128))))
      (broadcastInDim S100000x128 ![] bcast_S_S100000x128 (constant (F := Ideal) S_ .f32 0x00000000#32))
      = dense true ⟨k, hk⟩ mn h Wl Wr B := by
  funext i
  obtain ⟨r, d, rfl⟩ : ∃ (r : Fin 100000) (d : Fin 128), i = ix2 r d := ⟨i 0, i 1, eq_ix2 i⟩
  rw [maximumf_apply, zero_apply, pre_apply k hk]
  rfl

/-- The last layer of the reference, without activation, is `dense false`. -/
theorem layer_lin (k : Nat) (hk : k < 7) (hsW : S7x128x128.Slices ![k, 0, 0] S1x128x128) (hsB : S7x128.Slices ![k, 0] S1x128)
    (mn h : FVec Ideal S100000x128 .f32) (Wl Wr : FVec Ideal S7x128x128 .f32) (B : FVec Ideal S7x128 .f32) :
    addf (addf
        (Host.dotGeneral D none mn (transpose S128x128 [1, 0]
          (shapeCast S128x128 (extractStridedSlice S1x128x128 ![k, 0, 0] Wl hsW) shapeCasts_S1x128x128_S128x128) transposes_S128x128_S128x128_1_0))
        (Host.dotGeneral D none h (transpose S128x128 [1, 0]
          (shapeCast S128x128 (extractStridedSlice S1x128x128 ![k, 0, 0] Wr hsW) shapeCasts_S1x128x128_S128x128) transposes_S128x128_S128x128_1_0)))
      (broadcastInDim S100000x128 ![0, 1] bcast_S1x128_S100000x128_0_1 (broadcastInDim S1x128 ![1] bcast_S128_S1x128_1
        (shapeCast S128 (extractStridedSlice S1x128 ![k, 0] B hsB) shapeCasts_S1x128_S128)))
      = dense false ⟨k, hk⟩ mn h Wl Wr B := by
  funext i
  obtain ⟨r, d, rfl⟩ : ∃ (r : Fin 100000) (d : Fin 128), i = ix2 r d := ⟨i 0, i 1, eq_ix2 i⟩
  rw [pre_apply k hk]
  rfl

/-- The neighbour mean of the features `h` under the edge list `e`: the first layer's aggregation stage, at any input. -/
def mean (e : (⟨S2x1600000, .i32⟩ : BufTy).Contents (Elt Ideal)) (h : Nodes) : Nodes := val_main_v30 (F := Ideal) h e

/-- The reference's result is the seven-layer function of its arguments: each layer's stage is `layer` of the stage
    before it, the aggregation of every layer being the first layer's at that layer's input. -/
theorem net_eq (x0 : (⟨S100000x128, .f32⟩ : BufTy).Contents (Elt Ideal)) (x1 : (⟨S2x1600000, .i32⟩ : BufTy).Contents (Elt Ideal))
    (x2 x3 : (⟨S7x128x128, .f32⟩ : BufTy).Contents (Elt Ideal)) (x4 : (⟨S7x128, .f32⟩ : BufTy).Contents (Elt Ideal)) :
    val_main_v206 (F := Ideal) x0 x1 x2 x3 x4 = net (mean x1) x2 x3 x4 x0 := by
  have e0 : val_main_v39 (F := Ideal) x0 x1 x2 x3 x4 = layer true 0 (mean x1) x2 x3 x4 x0 :=
    layer_relu 0 (by decide) slices_S7x128x128_S1x128x128_0_0_0 slices_S7x128_S1x128_0_0 (mean x1 x0) x0 x2 x3 x4
  have e1 : val_main_v67 (F := Ideal) x0 x1 x2 x3 x4 = layer true 1 (mean x1) x2 x3 x4 (val_main_v39 (F := Ideal) x0 x1 x2 x3 x4) :=
    layer_relu 1 (by decide) slices_S7x128x128_S1x128x128_1_0_0 slices_S7x128_S1x128_1_0 (mean x1 (val_main_v39 (F := Ideal) x0 x1 x2 x3 x4)) (val_main_v39 (F := Ideal) x0 x1 x2 x3 x4) x2 x3 x4
  have e2 : val_main_v95 (F := Ideal) x0 x1 x2 x3 x4 = layer true 2 (mean x1) x2 x3 x4 (val_main_v67 (F := Ideal) x0 x1 x2 x3 x4) :=
    layer_relu 2 (by decide) slices_S7x128x128_S1x128x128_2_0_0 slices_S7x128_S1x128_2_0 (mean x1 (val_main_v67 (F := Ideal) x0 x1 x2 x3 x4)) (val_main_v67 (F := Ideal) x0 x1 x2 x3 x4) x2 x3 x4
  have e3 : val_main_v123 (F := Ideal) x0 x1 x2 x3 x4 = layer true 3 (mean x1) x2 x3 x4 (val_main_v95 (F := Ideal) x0 x1 x2 x3 x4) :=
    layer_relu 3 (by decide) slices_S7x128x128_S1x128x128_3_0_0 slices_S7x128_S1x128_3_0 (mean x1 (val_main_v95 (F := Ideal) x0 x1 x2 x3 x4)) (val_main_v95 (F := Ideal) x0 x1 x2 x3 x4) x2 x3 x4
  have e4 : val_main_v151 (F := Ideal) x0 x1 x2 x3 x4 = layer true 4 (mean x1) x2 x3 x4 (val_main_v123 (F := Ideal) x0 x1 x2 x3 x4) :=
    layer_relu 4 (by decide) slices_S7x128x128_S1x128x128_4_0_0 slices_S7x128_S1x128_4_0 (mean x1 (val_main_v123 (F := Ideal) x0 x1 x2 x3 x4)) (val_main_v123 (F := Ideal) x0 x1 x2 x3 x4) x2 x3 x4
  have e5 : val_main_v179 (F := Ideal) x0 x1 x2 x3 x4 = layer true 5 (mean x1) x2 x3 x4 (val_main_v151 (F := Ideal) x0 x1 x2 x3 x4) :=
    layer_relu 5 (by decide) slices_S7x128x128_S1x128x128_5_0_0 slices_S7x128_S1x128_5_0 (mean x1 (val_main_v151 (F := Ideal) x0 x1 x2 x3 x4)) (val_main_v151 (F := Ideal) x0 x1 x2 x3 x4) x2 x3 x4
  have e6 : val_main_v206 (F := Ideal) x0 x1 x2 x3 x4 = layer false 6 (mean x1) x2 x3 x4 (val_main_v179 (F := Ideal) x0 x1 x2 x3 x4) :=
    layer_lin 6 (by decide) slices_S7x128x128_S1x128x128_6_0_0 slices_S7x128_S1x128_6_0 (mean x1 (val_main_v179 (F := Ideal) x0 x1 x2 x3 x4)) (val_main_v179 (F := Ideal) x0 x1 x2 x3 x4) x2 x3 x4
  unfold net
  rw [e6, e5, e4, e3, e2, e1, e0]

end Cert.RefLayers

end
-- ==== Proof.KernelHost.lean ====
/-
  The array operations the kernel program runs on the host around its seven regions, named once.

  From the edge list `e` (2 × 1600000): its two rows, the sources `srcOf e` and the destinations `dstOf e`; the inverse
  degree `degInvOf e` = 1 / max(number of edges into a node, 1). From features `h`: the neighbour mean `aggOf s d w h` —
  gather the source rows (a negative index counted from the end), add them up per destination, scale each node's row
  by `w`. These are never opened: the reference runs the same operations.
  From the two weight stacks: `stackAll Wl Wr`, the seven stacked matrices `[Wl[k]ᵀ ; Wr[k]ᵀ]` (7 × 256 × 128), of which
  layer `k` takes slab `k`; at `(a, d)` that slab is `Wl[k,d,a]` for `a < 128` and `Wr[k,d,a-128]` after — `SageLayer.stack`.
-/
import proofs.«162382_j80479097192825_1_alg».proof.Proof.Gen.KernelIdeal
import proofs.«162382_j80479097192825_1_alg».proof.Proof.SageLayer
import Idealize.ShloMosaic.Lib.Pipeline.Value
import Idealize.ShloMosaic.Lib.ValueLayout

noncomputable section

namespace Cert.KernelHost

open Idealize.ShloMosaic Idealize.ShloMosaic.TcCoe Idealize.ShloMosaic.ValueIdx
open Cert.KernelIdeal Cert.KernelIdeal.Gen Cert.SageLayer

/-- The edges' sources. -/
def srcOf (e : IVec S2x1600000 32) : IVec S1600000 32 :=
  shapeCast _ (extractStridedSlice S1x1600000 ![0, 0] e slices_S2x1600000_S1x1600000_0_0) shapeCasts_S1x1600000_S1600000

/-- The edges' destinations. -/
def dstOf (e : IVec S2x1600000 32) : IVec S1600000 32 :=
  shapeCast _ (extractStridedSlice S1x1600000 ![1, 0] e slices_S2x1600000_S1x1600000_1_0) shapeCasts_S1x1600000_S1600000

/-- One over the larger of a node's in-degree and one. -/
def degInvOf (e : IVec S2x1600000 32) : FVec Ideal S100000 .f32 :=
  Host.divf (broadcastInDim S100000 ![] bcast_S_S100000 (constant S_ .f32 0x3F800000#32))
    (maximumf
      (Host.scatterAdd scatter_S100000_S1600000x1_S1600000_n_0_0_1
        (broadcastInDim S100000 ![] bcast_S_S100000 (constant S_ .f32 0x00000000#32))
        (broadcastInDim S1600000x1 ![0] bcast_S1600000_S1600000x1_0 (dstOf e))
        (broadcastInDim S1600000 ![] bcast_S_S1600000 (constant S_ .f32 0x3F800000#32)))
      (broadcastInDim S100000 ![] bcast_S_S100000 (constant S_ .f32 0x3F800000#32)))

/-- The neighbour mean of `h`: source rows gathered, added per destination, scaled per node by `w`. -/
def aggOf (s d : IVec S1600000 32) (w : FVec Ideal S100000 .f32)
    (h : FVec Ideal S100000x128 .f32) : FVec Ideal S100000x128 .f32 :=
  mulf
    (Host.scatterAdd scatter_S100000x128_S1600000x1_S1600000x128_1_0_0_1
      (broadcastInDim S100000x128 ![] bcast_S_S100000x128 (constant S_ .f32 0x00000000#32))
      (broadcastInDim S1600000x1 ![0] bcast_S1600000_S1600000x1_0 d)
      (Host.gather gather_S100000x128_S1600000x1_S1600000x128_1_0_n_n_0_1_1128 h
        (broadcastInDim S1600000x1 ![0] bcast_S1600000_S1600000x1_0
          (select (cmpi .slt s (broadcastInDim S1600000 ![] bcast_S_S1600000 (constantI S_ 32 0#32)))
            (addi s (broadcastInDim S1600000 ![] bcast_S_S1600000 (constantI S_ 32 100000#32))) s))))
    (broadcastInDim S100000x128 ![0, 1] bcast_S100000x1_S100000x128_0_1 (broadcastInDim S100000x1 ![0] bcast_S100000_S100000x1_0 w))

/-- The seven layers' stacked weights. -/
def stackAll (Wl Wr : FVec Ideal S7x128x128 .f32) : FVec Ideal S7x256x128 .bf16 :=
  truncf .bf16 (concatenate S7x256x128 1
    [⟨S7x128x128, transpose S7x128x128 [0, 2, 1] Wl transposes_S7x128x128_S7x128x128_0_2_1⟩,
     ⟨S7x128x128, transpose S7x128x128 [0, 2, 1] Wr transposes_S7x128x128_S7x128x128_0_2_1⟩]
    concatenates_S7x128x128_S7x128x128_S7x256x128_d1) bitsLt_bf16_f32

/-- Slab `k` of the stacked weights, as a matrix, is layer `k`'s stacked matrix. -/
theorem stack_slab (k : Nat) (hk : k < 7) (hs : S7x256x128.Slices ![k, 0, 0] S1x256x128)
    (Wl Wr : FVec Ideal S7x128x128 .f32) :
    shapeCast S256x128 (extractStridedSlice S1x256x128 ![k, 0, 0] (stackAll Wl Wr) hs) shapeCasts_S1x256x128_S256x128
      = stack ⟨k, hk⟩ Wl Wr := by
  funext i
  obtain ⟨a, d, rfl⟩ : ∃ (a : Fin 256) (d : Fin 128), i = ix2 a d := ⟨i 0, i 1, eq_ix2 i⟩
  rw [shapeCast_1ab_ab_apply,
    extractStridedSlice_apply _ (stackAll Wl Wr) hs _ (ix3 (⟨k, hk⟩ : Fin 7) a d) (fun c => by
      match c with
      | ⟨0, _⟩ => show k = k + 0; omega
      | ⟨1, _⟩ => show a.val = 0 + a.val; omega
      | ⟨2, _⟩ => show d.val = 0 + d.val; omega)]
  unfold stackAll stack
  rw [truncf_apply]
  by_cases ha : a.val < 128
  · rw [dif_pos (show (ix2 a d 0).val < 128 from ha)]
    rw [concatenate_pair_apply_left 1 _ _ concatenates_S7x128x128_S7x128x128_S7x256x128_d1 _ rfl
      (ix3 (⟨k, hk⟩ : Fin 7) (⟨a.val, ha⟩ : Fin 128) d) (fun c => match c with | ⟨0, _⟩ => rfl | ⟨1, _⟩ => rfl | ⟨2, _⟩ => rfl)]
    exact transpose_ix3_021_apply Wl transposes_S7x128x128_S7x128x128_0_2_1 _ _ _
  · rw [dif_neg (show ¬ (ix2 a d 0).val < 128 from ha)]
    rw [concatenate_pair_apply_right 1 _ _ concatenates_S7x128x128_S7x128x128_S7x256x128_d1 _ rfl rfl
      (ix3 (⟨k, hk⟩ : Fin 7) (⟨a.val - 128, by omega⟩ : Fin 128) d)
      (fun c hc => match c, hc with | ⟨0, _⟩, _ => rfl | ⟨1, _⟩, hc => absurd rfl hc | ⟨2, _⟩, _ => rfl)
      (by show a.val - 128 + 128 = a.val; omega)]
    exact transpose_ix3_021_apply Wr transposes_S7x128x128_S7x128x128_0_2_1 _ _ _

/-- Row `k` of the bias stack, as a vector, is layer `k`'s bias row. -/
theorem bias_slab (k : Nat) (hk : k < 7) (hs : S7x128.Slices ![k, 0] S1x128) (B : FVec Ideal S7x128 .f32) :
    shapeCast S128 (extractStridedSlice S1x128 ![k, 0] B hs) shapeCasts_S1x128_S128 = biasRow ⟨k, hk⟩ B := by
  funext i
  obtain ⟨d, rfl⟩ : ∃ d : Fin 128, i = ix1 d := ⟨i 0, eq_ix1 i⟩
  rw [shapeCast_1a_a_apply]
  exact extractStridedSlice_apply _ B hs _ _ (fun c => by
    match c with
    | ⟨0, _⟩ => show k = k + 0; omega
    | ⟨1, _⟩ => show d.val = 0 + d.val; omega)

end Cert.KernelHost

end
-- ==== Proof.BlockPayload.lean ====
/-
  What the kernel body computes on one block of 5000 nodes, index by index, on the extended reals.

  The body loads the block's rows of the neighbour means `x0` and of the features `x1` (5000 × 128 each), the layer's
  stacked weights `x2` (256 × 128) and its bias row `x3` (128). It narrows both row blocks (the identity on the
  extended reals), puts them side by side into a 5000 × 256 block, multiplies by the stacked weights into a zero
  accumulator, adds the bias row to every row and, on all layers but the last, takes the maximum with zero. At row
  `p` and feature `q` this is
      act ( Σ_{j<256} [x0[p,·] | x1[p,·]]_j · x2[j,q]  +  x3[q] ).
-/
import proofs.«162382_j80479097192825_1_alg».proof.Proof.Gen.KernelIdeal.Skeleton
import proofs.«162382_j80479097192825_1_alg».proof.Proof.Gen.KernelIdeal
import proofs.«162382_j80479097192825_1_alg».proof.Proof.SageLayer
import Idealize.ShloMosaic.Lib.Pipeline.Value
import Idealize.ShloMosaic.Lib.ValueLayout
import Idealize.ShloMosaic.PureOps.Ideal.Laws

noncomputable section

open scoped BigOperators

namespace Cert.BlockPayload

open Idealize.ShloMosaic Idealize.ShloMosaic.TcCoe Idealize.ShloMosaic.ValueIdx
open Cert.KernelIdeal Cert.KernelIdeal.Gen Cert.SageLayer

local notation "Dk" => dot_S5000x256_S256x128_S5000x128_1_0_0_1_n_n

/-- Entry `j` of the row `[a[p,·] | b[p,·]]` of two 5000 × 128 blocks put side by side. -/
def blockRow (a b : S5000x128.Idx → EReal) (p : Fin 5000) (j : Fin 256) : EReal :=
  if hj : j.val < 128 then a (ix2 p ⟨j.val, hj⟩) else b (ix2 p ⟨j.val - 128, by omega⟩)

/-- Two blocks put side by side, read at row `p` and column `j`. -/
theorem concat_rows (a b : S5000x128.Idx → EReal) (p : Fin 5000) (j : Fin 256) :
    concatenate S5000x256 1 [⟨S5000x128, a⟩, ⟨S5000x128, b⟩] concatenates_S5000x128_S5000x128_S5000x256_d1 (ix2 p j)
      = blockRow a b p j := by
  unfold blockRow
  split
  · rename_i hj
    exact concatenate_pair_apply_left 1 a b concatenates_S5000x128_S5000x128_S5000x256_d1 (ix2 p j) rfl (ix2 p ⟨j.val, hj⟩)
      (fun c => match c with | ⟨0, _⟩ => rfl | ⟨1, _⟩ => rfl)
  · rename_i hj
    exact concatenate_pair_apply_right 1 a b concatenates_S5000x128_S5000x128_S5000x256_d1 (ix2 p j) rfl rfl
      (ix2 p ⟨j.val - 128, by omega⟩)
      (fun c hc => match c, hc with | ⟨0, _⟩, _ => rfl | ⟨1, _⟩, hc => absurd rfl hc)
      (by show j.val - 128 + 128 = j.val; omega)

/-- The product's left operand index: the output's row on axis 0, the summed index on axis 1. -/
theorem lhs_0 (i : S5000x128.Idx) (k : dot_S5000x256_S256x128_S5000x128_1_0_0_1_n_n.contr.Idx) : (dot_S5000x256_S256x128_S5000x128_1_0_0_1_n_n.lhsIdx i k 0).val = (i 0).val := by
  unfold DotDims.lhsIdx
  rw [dif_neg (show ¬(0 : Fin S5000x256.rank) ∈ dot_S5000x256_S256x128_S5000x128_1_0_0_1_n_n.lhsBatch by decide),
    dif_pos (show (0 : Fin S5000x256.rank) ∈ dot_S5000x256_S256x128_S5000x128_1_0_0_1_n_n.lhsNonContracting by decide)]
  rfl
theorem lhs_1 (i : S5000x128.Idx) (k : dot_S5000x256_S256x128_S5000x128_1_0_0_1_n_n.contr.Idx) : (dot_S5000x256_S256x128_S5000x128_1_0_0_1_n_n.lhsIdx i k 1).val = (k ⟨0, by decide⟩).val :=
  dot_S5000x256_S256x128_S5000x128_1_0_0_1_n_n.lhsIdx_val_of_single rfl i k
/-- The right operand index: the summed index on axis 0, the output's column on axis 1. -/
theorem rhs_0 (i : S5000x128.Idx) (k : dot_S5000x256_S256x128_S5000x128_1_0_0_1_n_n.contr.Idx) : (dot_S5000x256_S256x128_S5000x128_1_0_0_1_n_n.rhsIdx i k 0).val = (k ⟨0, by decide⟩).val :=
  dot_S5000x256_S256x128_S5000x128_1_0_0_1_n_n.rhsIdx_val_of_single rfl i k
theorem rhs_1 (i : S5000x128.Idx) (k : dot_S5000x256_S256x128_S5000x128_1_0_0_1_n_n.contr.Idx) : (dot_S5000x256_S256x128_S5000x128_1_0_0_1_n_n.rhsIdx i k 1).val = (i 1).val := by
  unfold DotDims.rhsIdx
  rw [dif_neg (show ¬(1 : Fin S256x128.rank) ∈ dot_S5000x256_S256x128_S5000x128_1_0_0_1_n_n.rhsBatch by decide),
    dif_pos (show (1 : Fin S256x128.rank) ∈ dot_S5000x256_S256x128_S5000x128_1_0_0_1_n_n.rhsNonContracting by decide)]
  rfl

/-- The block product into a zero accumulator, at row `p` and feature `q`: one sum over the 256 stacked rows. -/
theorem matmul_rows (l : FVec Ideal S5000x256 .bf16) (w : FVec Ideal S256x128 .bf16) (p : Fin 5000) (q : Fin 128) :
    matmul Dk none l w (constant S5000x128 .f32 0x00000000#32) (ix2 p q) = ∑ j : Fin 256, l (ix2 p j) * w (ix2 j q) := by
  refine (Ideal.matmul_constant_zero_apply Dk none l w (ix2 p q)).trans ?_
  rw [← Equiv.sum_comp (ValueIdx.contrEquiv1 Dk 256 rfl rfl).symm]
  refine Finset.sum_congr rfl fun j _ => ?_
  have hj := ValueIdx.contrEquiv1_symm_val Dk 256 rfl rfl j
  refine congrArg₂ (· * ·) (congrArg l (funext fun a => Fin.ext ?_)) (congrArg w (funext fun a => Fin.ext ?_))
  · match a with
    | ⟨0, _⟩ => exact lhs_0 (ix2 p q) _
    | ⟨1, _⟩ => exact (lhs_1 (ix2 p q) _).trans hj
  · match a with
    | ⟨0, _⟩ => exact (rhs_0 (ix2 p q) _).trans hj
    | ⟨1, _⟩ => exact rhs_1 (ix2 p q) _

/-- The bias row added to every row of the block, at row `p` and feature `q`. -/
theorem bias_rows (b : FVec Ideal S128 .f32) (p : Fin 5000) (q : Fin 128) :
    broadcastTo S5000x128 (shapeCast S1x128 b shapeCasts_S128_S1x128) broadcasts_S1x128_S5000x128 (ix2 p q) = b (ix1 q) := by
  rw [broadcastTo_apply _ _ _ (ix2 (0 : Fin 1) q) (fun a => match a with | ⟨0, _⟩ => rfl | ⟨1, _⟩ => rfl), shapeCast_a_1a_apply]

/-- Narrowing a block is the identity on the extended reals. -/
theorem narrow (a : Vec Ideal S5000x128 .f32) : (truncf .bf16 a bitsLt_bf16_f32 : FVec Ideal S5000x128 .bf16) = a :=
  funext fun i => rfl

/-- So is narrowing after a re-shaping to the same shape. -/
theorem narrow_cast (a : Vec Ideal S5000x128 .f32) :
    (truncf .bf16 (shapeCast S5000x128 a shapeCasts_S5000x128_S5000x128) bitsLt_bf16_f32 : FVec Ideal S5000x128 .bf16) = a := by
  funext i
  rw [truncf_apply, shapeCast_self]

/-- The body of the first layer's kernel on one block. -/
theorem pay0 (x0 : Vec Ideal S5000x128 .f32) (x1 : Vec Ideal S5000x128 .f32) (x2 : Vec Ideal S256x128 .bf16) (x3 : Vec Ideal S128 .f32)
    (p : Fin 5000) (q : Fin 128) :
    k0_pay1 (F := Ideal) x0 x1 x2 x3 (ix2 p q) = act true ((∑ j : Fin 256, blockRow x0 x1 p j * x2 (ix2 j q)) + x3 (ix1 q)) := by
  unfold k0_pay1
  simp only [shapeCast_self]
  rw [maximumf_apply, broadcast_apply, addf_apply, matmul_rows, bias_rows]
  simp only [concat_rows]
  rw [narrow_cast x0, narrow x1]
  unfold act
  rw [if_pos rfl]
  show max _ (Ideal.ofBits .f32 0x00000000#32) = max _ 0
  rw [Ideal.ofBits_zero_f32]

/-- The body of the second layer's kernel on one block (it differs from the first by an identity re-shaping of `x1`). -/
theorem pay1 (x0 : Vec Ideal S5000x128 .f32) (x1 : Vec Ideal S5000x128 .f32) (x2 : Vec Ideal S256x128 .bf16) (x3 : Vec Ideal S128 .f32)
    (p : Fin 5000) (q : Fin 128) :
    k1_pay1 (F := Ideal) x0 x1 x2 x3 (ix2 p q) = act true ((∑ j : Fin 256, blockRow x0 x1 p j * x2 (ix2 j q)) + x3 (ix1 q)) := by
  unfold k1_pay1
  simp only [shapeCast_self]
  rw [maximumf_apply, broadcast_apply, addf_apply, matmul_rows, bias_rows]
  simp only [concat_rows]
  rw [narrow_cast x0, narrow_cast x1]
  unfold act
  rw [if_pos rfl]
  show max _ (Ideal.ofBits .f32 0x00000000#32) = max _ 0
  rw [Ideal.ofBits_zero_f32]

/-- The body of the last layer's kernel on one block: no activation. -/
theorem pay6 (x0 : Vec Ideal S5000x128 .f32) (x1 : Vec Ideal S5000x128 .f32) (x2 : Vec Ideal S256x128 .bf16) (x3 : Vec Ideal S128 .f32)
    (p : Fin 5000) (q : Fin 128) :
    k6_pay1 (F := Ideal) x0 x1 x2 x3 (ix2 p q) = act false ((∑ j : Fin 256, blockRow x0 x1 p j * x2 (ix2 j q)) + x3 (ix1 q)) := by
  unfold k6_pay1
  simp only [shapeCast_self]
  rw [addf_apply, matmul_rows, bias_rows]
  simp only [concat_rows]
  rw [narrow_cast x0, narrow_cast x1]
  rfl

/-- Layers 2 to 5 run the second layer's body. -/
theorem pay2 (x0 : Vec Ideal S5000x128 .f32) (x1 : Vec Ideal S5000x128 .f32) (x2 : Vec Ideal S256x128 .bf16) (x3 : Vec Ideal S128 .f32)
    (p : Fin 5000) (q : Fin 128) :
    k2_pay1 (F := Ideal) x0 x1 x2 x3 (ix2 p q) = act true ((∑ j : Fin 256, blockRow x0 x1 p j * x2 (ix2 j q)) + x3 (ix1 q)) :=
  pay1 x0 x1 x2 x3 p q

/-- Layers 2 to 5 run the second layer's body. -/
theorem pay3 (x0 : Vec Ideal S5000x128 .f32) (x1 : Vec Ideal S5000x128 .f32) (x2 : Vec Ideal S256x128 .bf16) (x3 : Vec Ideal S128 .f32)
    (p : Fin 5000) (q : Fin 128) :
    k3_pay1 (F := Ideal) x0 x1 x2 x3 (ix2 p q) = act true ((∑ j : Fin 256, blockRow x0 x1 p j * x2 (ix2 j q)) + x3 (ix1 q)) :=
  pay1 x0 x1 x2 x3 p q

/-- Layers 2 to 5 run the second layer's body. -/
theorem pay4 (x0 : Vec Ideal S5000x128 .f32) (x1 : Vec Ideal S5000x128 .f32) (x2 : Vec Ideal S256x128 .bf16) (x3 : Vec Ideal S128 .f32)
    (p : Fin 5000) (q : Fin 128) :
    k4_pay1 (F := Ideal) x0 x1 x2 x3 (ix2 p q) = act true ((∑ j : Fin 256, blockRow x0 x1 p j * x2 (ix2 j q)) + x3 (ix1 q)) :=
  pay1 x0 x1 x2 x3 p q

/-- Layers 2 to 5 run the second layer's body. -/
theorem pay5 (x0 : Vec Ideal S5000x128 .f32) (x1 : Vec Ideal S5000x128 .f32) (x2 : Vec Ideal S256x128 .bf16) (x3 : Vec Ideal S128 .f32)
    (p : Fin 5000) (q : Fin 128) :
    k5_pay1 (F := Ideal) x0 x1 x2 x3 (ix2 p q) = act true ((∑ j : Fin 256, blockRow x0 x1 p j * x2 (ix2 j q)) + x3 (ix1 q)) :=
  pay1 x0 x1 x2 x3 p q

/-- The same at a block index `y`. -/
theorem pay0_at (x0 : Vec Ideal S5000x128 .f32) (x1 : Vec Ideal S5000x128 .f32) (x2 : Vec Ideal S256x128 .bf16) (x3 : Vec Ideal S128 .f32)
    (y : S5000x128.Idx) :
    k0_pay1 (F := Ideal) x0 x1 x2 x3 y
      = act true ((∑ j : Fin 256, blockRow x0 x1 (y 0) j * x2 (ix2 j (y 1))) + x3 (ix1 (y 1))) := by
  obtain ⟨p, q, rfl⟩ : ∃ (p : Fin 5000) (q : Fin 128), y = ix2 p q := ⟨y 0, y 1, eq_ix2 y⟩
  exact pay0 x0 x1 x2 x3 p q

/-- The same at a block index `y`. -/
theorem pay1_at (x0 : Vec Ideal S5000x128 .f32) (x1 : Vec Ideal S5000x128 .f32) (x2 : Vec Ideal S256x128 .bf16) (x3 : Vec Ideal S128 .f32)
    (y : S5000x128.Idx) :
    k1_pay1 (F := Ideal) x0 x1 x2 x3 y
      = act true ((∑ j : Fin 256, blockRow x0 x1 (y 0) j * x2 (ix2 j (y 1))) + x3 (ix1 (y 1))) := by
  obtain ⟨p, q, rfl⟩ : ∃ (p : Fin 5000) (q : Fin 128), y = ix2 p q := ⟨y 0, y 1, eq_ix2 y⟩
  exact pay1 x0 x1 x2 x3 p q

/-- The same at a block index `y`. -/
theorem pay2_at (x0 : Vec Ideal S5000x128 .f32) (x1 : Vec Ideal S5000x128 .f32) (x2 : Vec Ideal S256x128 .bf16) (x3 : Vec Ideal S128 .f32)
    (y : S5000x128.Idx) :
    k2_pay1 (F := Ideal) x0 x1 x2 x3 y
      = act true ((∑ j : Fin 256, blockRow x0 x1 (y 0) j * x2 (ix2 j (y 1))) + x3 (ix1 (y 1))) := by
  obtain ⟨p, q, rfl⟩ : ∃ (p : Fin 5000) (q : Fin 128), y = ix2 p q := ⟨y 0, y 1, eq_ix2 y⟩
  exact pay2 x0 x1 x2 x3 p q

/-- The same at a block index `y`. -/
theorem pay3_at (x0 : Vec Ideal S5000x128 .f32) (x1 : Vec Ideal S5000x128 .f32) (x2 : Vec Ideal S256x128 .bf16) (x3 : Vec Ideal S128 .f32)
    (y : S5000x128.Idx) :
    k3_pay1 (F := Ideal) x0 x1 x2 x3 y
      = act true ((∑ j : Fin 256, blockRow x0 x1 (y 0) j * x2 (ix2 j (y 1))) + x3 (ix1 (y 1))) := by
  obtain ⟨p, q, rfl⟩ : ∃ (p : Fin 5000) (q : Fin 128), y = ix2 p q := ⟨y 0, y 1, eq_ix2 y⟩
  exact pay3 x0 x1 x2 x3 p q

/-- The same at a block index `y`. -/
theorem pay4_at (x0 : Vec Ideal S5000x128 .f32) (x1 : Vec Ideal S5000x128 .f32) (x2 : Vec Ideal S256x128 .bf16) (x3 : Vec Ideal S128 .f32)
    (y : S5000x128.Idx) :
    k4_pay1 (F := Ideal) x0 x1 x2 x3 y
      = act true ((∑ j : Fin 256, blockRow x0 x1 (y 0) j * x2 (ix2 j (y 1))) + x3 (ix1 (y 1))) := by
  obtain ⟨p, q, rfl⟩ : ∃ (p : Fin 5000) (q : Fin 128), y = ix2 p q := ⟨y 0, y 1, eq_ix2 y⟩
  exact pay4 x0 x1 x2 x3 p q

/-- The same at a block index `y`. -/
theorem pay5_at (x0 : Vec Ideal S5000x128 .f32) (x1 : Vec Ideal S5000x128 .f32) (x2 : Vec Ideal S256x128 .bf16) (x3 : Vec Ideal S128 .f32)
    (y : S5000x128.Idx) :
    k5_pay1 (F := Ideal) x0 x1 x2 x3 y
      = act true ((∑ j : Fin 256, blockRow x0 x1 (y 0) j * x2 (ix2 j (y 1))) + x3 (ix1 (y 1))) := by
  obtain ⟨p, q, rfl⟩ : ∃ (p : Fin 5000) (q : Fin 128), y = ix2 p q := ⟨y 0, y 1, eq_ix2 y⟩
  exact pay5 x0 x1 x2 x3 p q

/-- The same at a block index `y`. -/
theorem pay6_at (x0 : Vec Ideal S5000x128 .f32) (x1 : Vec Ideal S5000x128 .f32) (x2 : Vec Ideal S256x128 .bf16) (x3 : Vec Ideal S128 .f32)
    (y : S5000x128.Idx) :
    k6_pay1 (F := Ideal) x0 x1 x2 x3 y
      = act false ((∑ j : Fin 256, blockRow x0 x1 (y 0) j * x2 (ix2 j (y 1))) + x3 (ix1 (y 1))) := by
  obtain ⟨p, q, rfl⟩ : ∃ (p : Fin 5000) (q : Fin 128), y = ix2 p q := ⟨y 0, y 1, eq_ix2 y⟩
  exact pay6 x0 x1 x2 x3 p q

end Cert.BlockPayload

end
-- ==== Proof.LibRegionOut.lean ====
/-
  A general lemma about buffer contents: a pallas_call region with ONE output window, seen as one host operation.
  Nothing here mentions a particular program.
-/
import Idealize.ShloMosaic.Lib.Pipeline.FrameSuffix
import Idealize.ShloMosaic.Lib.StableHlo.Run

noncomputable section

namespace Cert.LibRegionOut

open Idealize.ShloMosaic Idealize.ShloMosaic.TcCoe Idealize.SL.Sem

/-- A pipeline of any number of windows of which exactly one, `o`, is written leaves the contents that an operation
    writing only `o`'s array would leave: every other window's array as entered (`hin`), `o`'s array at the operation's
    result (`hout`), and every other buffer untouched (`Pipeline.withArrays` is the contents with the pipeline's arrays
    replaced). -/
theorem withArrays_eq_result {nD : Nat} {τ : Topo} {sig : RefSig} {Val : EltTy → Type} {gr : Nat} {W : Nat}
    (win : Fin W → Pipeline.WinSpec sig gr) (hinj : Function.Injective (Pipeline.arrRef win)) (c : Dev nD)
    (Vin : Valuation τ sig Val) (A : (w : Fin W) → Buf Val ((win w).arr.view.loc (c.tc : Thread nD τ)))
    (op : HloOp τ sig Val) (o : Fin W)
    (hw : op.writes = {Proc.devRef .tc (Pipeline.arrRef win o)})
    (hin : ∀ w, w ≠ o → A w = Vin (Proc.devRef .tc (Pipeline.arrRef win w)))
    (hout : A o = op.result Vin (Proc.devRef .tc (Pipeline.arrRef win o))) :
    Pipeline.withArrays win c Vin A = op.result Vin := by
  funext b
  by_cases h : ∃ w, Proc.devRef .tc (Pipeline.arrRef win w) = b
  · obtain ⟨w, rfl⟩ := h
    rw [Pipeline.withArrays_arr win hinj]
    by_cases hwo : w = o
    · subst hwo; exact hout
    · rw [HloOp.result_of_not_mem _ _ (by
        rw [hw, Finset.mem_singleton]; exact fun e => hwo (hinj (Proc.devRef_injective _ e)))]
      exact hin w hwo
  · unfold Pipeline.withArrays
    rw [dif_neg h, HloOp.result_of_not_mem _ _ (by rw [hw, Finset.mem_singleton]; exact fun e => h ⟨o, e.symm⟩)]

end Cert.LibRegionOut

end
-- ==== Proof.Region0.lean ====
/-
  Region 0 of the kernel program (layer 0's pallas_call), read as ONE array operation.

  The region walks the 100000 nodes in 20 blocks of 5000. At block `t` it loads rows `5000·t … 5000·t + 4999` of the
  neighbour means and of the features, the whole stacked weight matrix and the whole bias row, and writes the body's
  result to the same rows of the output. A row of the output therefore depends only on the same row of the two inputs,
  and the 20 blocks tile the output: the array the region leaves is `SageLayer.fused` of the four arrays it read,
  and every other buffer is untouched — the contents one four-operand host operation would leave.
-/
import proofs.«162382_j80479097192825_1_alg».proof.Proof.Gen.KernelIdeal.Frame
import proofs.«162382_j80479097192825_1_alg».proof.Proof.BlockPayload
import proofs.«162382_j80479097192825_1_alg».proof.Proof.SageLayer
import proofs.«162382_j80479097192825_1_alg».proof.Proof.LibRegionOut
import Idealize.ShloMosaic.Lib.Pipeline.Value
import Idealize.ShloMosaic.Lib.StableHlo.Run

set_option maxRecDepth 16384

noncomputable section

open scoped BigOperators

namespace Cert.Region0

open Idealize.ShloMosaic Idealize.ShloMosaic.TcCoe Idealize.ShloMosaic.ValueIdx Idealize.SL.Sem
open Cert.KernelIdeal Cert.KernelIdeal.Gen Cert.SageLayer Cert.BlockPayload
open Idealize.ShloMosaic.Pipeline (Dat Cfg Window)

variable (V : (c : Dev nD) → (b : Ref sig .tc) → Buf (Elt Ideal) ((c : Thread nD τ).loc b))

theorem zeros2 : (![0, 0] : Fin 2 → Nat) = fun _ => 0 := funext fun a => by fin_cases a <;> rfl
theorem zeros1 : (![0] : Fin 1 → Nat) = fun _ => 0 := funext fun a => by fin_cases a <;> rfl

/-- The printed index maps, decided over the 20 grid points: the two row-blocked inputs and the output sit at block
    `t` of the rows and block 0 of the columns; the weights and the bias are one block each. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = t.val ∧ win0_4.index t (1 : Fin 2) = 0 :=
  (by decide +kernel : ∀ t : Fin grid0.N, _)

/-- WHAT BLOCK `t` WRITES BACK is block `t` of the fused layer of the four arrays as the region finds them. -/
theorem flushed_eq (c : Dev nD) (t : Fin cfg0.N) :
    (dat0 V c).flushed 4 t = ((cfg0.win 4).blk t).view.read (Elt Ideal)
      (fused true (V c main_v28) (V c main_arg0) (V c main_v30) (V c main_v32)) := by
  show (cfg0.win 4).cut (grid0.coords t) ((dat0 V c).after 4 t) = _
  rw [after0_4]
  unfold out0_4
  rw [View.canon_unit_zero zeros2]
  simp only [View.ld_unit_zero (S := S5000x128) zeros2, View.ld_unit_zero (S := S256x128) zeros2, View.ld_unit_zero (S := S128) zeros1]
  obtain ⟨e00, e01, e10, e11, e20, e21, e30, e40, e41⟩ := idx_facts t
  funext y
  show k0_pay1 (iblk0 V c 0 t) (iblk0 V c 1 t) (iblk0 V c 2 t) (iblk0 V c 3 t) y
    = fused true (V c main_v28) (V c main_arg0) (V c main_v30) (V c main_v32) (((cfg0.win 4).blk t).view.emb y)
  refine (pay0_at (iblk0 V c 0 t) (iblk0 V c 1 t) (iblk0 V c 2 t) (iblk0 V c 3 t) y).trans ?_
  unfold fused fusedAt
  refine congrArg (act true) (congrArg₂ (· + ·) (Finset.sum_congr rfl fun j _ => congrArg₂ (· * ·) ?_ ?_) ?_)
  · unfold blockRow catRow
    by_cases hj : j.val < 128
    · rw [dif_pos hj, dif_pos hj]
      show V c main_v28 (((cfg0.win 0).blk t).view.emb (ix2 (y 0) ⟨j.val, hj⟩)) = V c main_v28 _
      refine congrArg (V c main_v28) (funext fun a => Fin.ext ?_)
      match a with
      | ⟨0, _⟩ =>
        show win0_0.index t (0 : Fin 2) * 5000 + 1 * (y 0).val = win0_4.index t (0 : Fin 2) * 5000 + 1 * (y 0).val
        omega
      | ⟨1, _⟩ =>
        show win0_0.index t (1 : Fin 2) * 128 + 1 * j.val = j.val
        omega
    · rw [dif_neg hj, dif_neg hj]
      show V c main_arg0 (((cfg0.win 1).blk t).view.emb (ix2 (y 0) ⟨j.val - 128, _⟩)) = V c main_arg0 _
      refine congrArg (V c main_arg0) (funext fun a => Fin.ext ?_)
      match a with
      | ⟨0, _⟩ =>
        show win0_1.index t (0 : Fin 2) * 5000 + 1 * (y 0).val = win0_4.index t (0 : Fin 2) * 5000 + 1 * (y 0).val
        omega
      | ⟨1, _⟩ =>
        show win0_1.index t (1 : Fin 2) * 128 + 1 * (j.val - 128) = j.val - 128
        omega
  · show V c main_v30 (((cfg0.win 2).blk t).view.emb (ix2 j (y 1))) = V c main_v30 _
    refine congrArg (V c main_v30) (funext fun a => Fin.ext ?_)
    match a with
    | ⟨0, _⟩ =>
      show win0_2.index t (0 : Fin 2) * 256 + 1 * j.val = j.val
      omega
    | ⟨1, _⟩ =>
      show win0_2.index t (1 : Fin 2) * 128 + 1 * (y 1).val = win0_4.index t (1 : Fin 2) * 128 + 1 * (y 1).val
      omega
  · show V c main_v32 (((cfg0.win 3).blk t).view.emb (ix1 (y 1))) = V c main_v32 _
    refine congrArg (V c main_v32) (funext fun a => Fin.ext ?_)
    match a with
    | ⟨0, _⟩ =>
      show win0_3.index t (0 : Fin 1) * 128 + 1 * (y 1).val = win0_4.index t (1 : Fin 2) * 128 + 1 * (y 1).val
      omega

/-- An index of the output array is in block `t` iff each coordinate is in the block's range on its axis. -/
theorem mem_blk (t : Fin cfg0.N) (i : S100000x128.Idx) :
    i ∈ ((cfg0.win 4).blk t).view.set ↔ ∀ a : Fin 2, win0_4.index t a * S5000x128.size a ≤ (i a).val
      ∧ (i a).val < win0_4.index t a * S5000x128.size a + S5000x128.size a := by
  show i ∈ ((View.whole main_v33).slice (win0_4.rect t)).set ↔ _
  rw [View.set_slice_whole, Rect.mem_set_unit]
  exact Iff.rfl

/-- The 20 blocks tile the output: row `r` is in block `r / 5000`. -/
theorem cover (i : S100000x128.Idx) :
    ∃ t : Fin cfg0.N, (cfg0.win 4).flush t = true ∧ i ∈ ((cfg0.win 4).blk t).view.set := by
  have hi0 : (i 0).val < 100000 := idx2_lt0 i
  have hi1 : (i 1).val < 128 := idx2_lt1 i
  have hN : grid0.N = 20 := N_0
  have ht : (i 0).val / 5000 < cfg0.N := by show (i 0).val / 5000 < grid0.N; rw [hN]; omega
  obtain ⟨-, -, -, -, -, -, -, e40, e41⟩ := idx_facts ⟨(i 0).val / 5000, ht⟩
  refine ⟨⟨(i 0).val / 5000, ht⟩, flush0_4 _, ?_⟩
  rw [mem_blk]
  intro a
  match a with
  | ⟨0, _⟩ =>
    show win0_4.index ⟨(i 0).val / 5000, ht⟩ (0 : Fin 2) * 5000 ≤ (i 0).val
      ∧ (i 0).val < win0_4.index ⟨(i 0).val / 5000, ht⟩ (0 : Fin 2) * 5000 + 5000
    rw [e40]
    show (i 0).val / 5000 * 5000 ≤ (i 0).val ∧ (i 0).val < (i 0).val / 5000 * 5000 + 5000
    omega
  | ⟨1, _⟩ =>
    show win0_4.index ⟨(i 0).val / 5000, ht⟩ (1 : Fin 2) * 128 ≤ (i 1).val
      ∧ (i 1).val < win0_4.index ⟨(i 0).val / 5000, ht⟩ (1 : Fin 2) * 128 + 128
    rw [e41]
    omega

/-- THE OUTPUT ARRAY after the region: the fused layer of the four arrays the region read. -/
theorem final (c : Dev nD) :
    (dat0 V c).arrAt 4 cfg0.N = fused true (V c main_v28) (V c main_arg0) (V c main_v30) (V c main_v32) :=
  (dat0 V c).arrAt_eq_of_cover 4 _ (fun t _ => flushed_eq V c t) cover

/-- The region as one four-operand array operation. -/
def op : HloOp τ sig (Elt Ideal) :=
  StableHlo.quaternary main_v28 main_arg0 main_v30 main_v32 main_v33 (fun a0 a1 a2 a3 => fused true a0 a1 a2 a3)

/-- The buffer contents at the region's exit are the operation's result on the contents at its entry. -/
theorem exit_eq (m : (ℓ : Loc nD τ sig) → Buf (Elt Ideal) ℓ) (ρ : Dev nD → PrngReg) (c : Dev nD) :
    W2 m ρ c = op.result (W1 m ρ c) := by
  unfold W2
  refine Cert.LibRegionOut.withArrays_eq_result spec0 launch0.win.arr_inj c _ _ op 4 ?_ ?_ ?_
  · unfold op; rw [StableHlo.quaternary_writes]
  · intro w hw
    have hA : ∀ w' : Fin cfg0.W, (cfg0.win w').isOut = false →
        (dat0 (V1 m ρ) c).arrAt w' cfg0.N = W1 m ρ c (Proc.devRef .tc (Pipeline.arrRef spec0 w')) :=
      fun w' h => ((dat0 (V1 m ρ) c).arrAt_in w' h cfg0.N).trans (A_eq0 (V1 m ρ) c w')
    match w, hw with
    | ⟨0, _⟩, _ => exact hA 0 rfl
    | ⟨1, _⟩, _ => exact hA 1 rfl
    | ⟨2, _⟩, _ => exact hA 2 rfl
    | ⟨3, _⟩, _ => exact hA 3 rfl
    | ⟨4, _⟩, hw => exact absurd rfl hw
  · rw [final]
    unfold op
    exact (StableHlo.quaternary_result main_v28 main_arg0 main_v30 main_v32 main_v33
      (fun a0 a1 a2 a3 => fused true a0 a1 a2 a3) _ _ _ _ _ (W1 m ρ c)).symm

end Cert.Region0

end
-- ==== Proof.Region1.lean ====
/-
  Region 1 of the kernel program (layer 1's pallas_call), read as ONE array operation.

  The region walks the 100000 nodes in 20 blocks of 5000. At block `t` it loads rows `5000·t … 5000·t + 4999` of the
  neighbour means and of the features, the whole stacked weight matrix and the whole bias row, and writes the body's
  result to the same rows of the output. A row of the output therefore depends only on the same row of the two inputs,
  and the 20 blocks tile the output: the array the region leaves is `SageLayer.fused` of the four arrays it read,
  and every other buffer is untouched — the contents one four-operand host operation would leave.
-/
import proofs.«162382_j80479097192825_1_alg».proof.Proof.Gen.KernelIdeal.Frame
import proofs.«162382_j80479097192825_1_alg».proof.Proof.BlockPayload
import proofs.«162382_j80479097192825_1_alg».proof.Proof.SageLayer
import proofs.«162382_j80479097192825_1_alg».proof.Proof.LibRegionOut
import Idealize.ShloMosaic.Lib.Pipeline.Value
import Idealize.ShloMosaic.Lib.StableHlo.Run

set_option maxRecDepth 16384

noncomputable section

open scoped BigOperators

namespace Cert.Region1

open Idealize.ShloMosaic Idealize.ShloMosaic.TcCoe Idealize.ShloMosaic.ValueIdx Idealize.SL.Sem
open Cert.KernelIdeal Cert.KernelIdeal.Gen Cert.SageLayer Cert.BlockPayload
open Idealize.ShloMosaic.Pipeline (Dat Cfg Window)

variable (V : (c : Dev nD) → (b : Ref sig .tc) → Buf (Elt Ideal) ((c : Thread nD τ).loc b))

theorem zeros2 : (![0, 0] : Fin 2 → Nat) = fun _ => 0 := funext fun a => by fin_cases a <;> rfl
theorem zeros1 : (![0] : Fin 1 → Nat) = fun _ => 0 := funext fun a => by fin_cases a <;> rfl

/-- The printed index maps, decided over the 20 grid points: the two row-blocked inputs and the output sit at block
    `t` of the rows and block 0 of the columns; the weights and the bias are one block each. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 1) = 0
    ∧ win1_4.index t (0 : Fin 2) = t.val ∧ win1_4.index t (1 : Fin 2) = 0 :=
  (by decide +kernel : ∀ t : Fin grid1.N, _)

/-- WHAT BLOCK `t` WRITES BACK is block `t` of the fused layer of the four arrays as the region finds them. -/
theorem flushed_eq (c : Dev nD) (t : Fin cfg1.N) :
    (dat1 V c).flushed 4 t = ((cfg1.win 4).blk t).view.read (Elt Ideal)
      (fused true (V c main_v46) (V c main_v33) (V c main_v48) (V c main_v50)) := by
  show (cfg1.win 4).cut (grid1.coords t) ((dat1 V c).after 4 t) = _
  rw [after1_4]
  unfold out1_4
  rw [View.canon_unit_zero zeros2]
  simp only [View.ld_unit_zero (S := S5000x128) zeros2, View.ld_unit_zero (S := S256x128) zeros2, View.ld_unit_zero (S := S128) zeros1]
  obtain ⟨e00, e01, e10, e11, e20, e21, e30, e40, e41⟩ := idx_facts t
  funext y
  show k1_pay1 (iblk1 V c 0 t) (iblk1 V c 1 t) (iblk1 V c 2 t) (iblk1 V c 3 t) y
    = fused true (V c main_v46) (V c main_v33) (V c main_v48) (V c main_v50) (((cfg1.win 4).blk t).view.emb y)
  refine (pay1_at (iblk1 V c 0 t) (iblk1 V c 1 t) (iblk1 V c 2 t) (iblk1 V c 3 t) y).trans ?_
  unfold fused fusedAt
  refine congrArg (act true) (congrArg₂ (· + ·) (Finset.sum_congr rfl fun j _ => congrArg₂ (· * ·) ?_ ?_) ?_)
  · unfold blockRow catRow
    by_cases hj : j.val < 128
    · rw [dif_pos hj, dif_pos hj]
      show V c main_v46 (((cfg1.win 0).blk t).view.emb (ix2 (y 0) ⟨j.val, hj⟩)) = V c main_v46 _
      refine congrArg (V c main_v46) (funext fun a => Fin.ext ?_)
      match a with
      | ⟨0, _⟩ =>
        show win1_0.index t (0 : Fin 2) * 5000 + 1 * (y 0).val = win1_4.index t (0 : Fin 2) * 5000 + 1 * (y 0).val
        omega
      | ⟨1, _⟩ =>
        show win1_0.index t (1 : Fin 2) * 128 + 1 * j.val = j.val
        omega
    · rw [dif_neg hj, dif_neg hj]
      show V c main_v33 (((cfg1.win 1).blk t).view.emb (ix2 (y 0) ⟨j.val - 128, _⟩)) = V c main_v33 _
      refine congrArg (V c main_v33) (funext fun a => Fin.ext ?_)
      match a with
      | ⟨0, _⟩ =>
        show win1_1.index t (0 : Fin 2) * 5000 + 1 * (y 0).val = win1_4.index t (0 : Fin 2) * 5000 + 1 * (y 0).val
        omega
      | ⟨1, _⟩ =>
        show win1_1.index t (1 : Fin 2) * 128 + 1 * (j.val - 128) = j.val - 128
        omega
  · show V c main_v48 (((cfg1.win 2).blk t).view.emb (ix2 j (y 1))) = V c main_v48 _
    refine congrArg (V c main_v48) (funext fun a => Fin.ext ?_)
    match a with
    | ⟨0, _⟩ =>
      show win1_2.index t (0 : Fin 2) * 256 + 1 * j.val = j.val
      omega
    | ⟨1, _⟩ =>
      show win1_2.index t (1 : Fin 2) * 128 + 1 * (y 1).val = win1_4.index t (1 : Fin 2) * 128 + 1 * (y 1).val
      omega
  · show V c main_v50 (((cfg1.win 3).blk t).view.emb (ix1 (y 1))) = V c main_v50 _
    refine congrArg (V c main_v50) (funext fun a => Fin.ext ?_)
    match a with
    | ⟨0, _⟩ =>
      show win1_3.index t (0 : Fin 1) * 128 + 1 * (y 1).val = win1_4.index t (1 : Fin 2) * 128 + 1 * (y 1).val
      omega

/-- An index of the output array is in block `t` iff each coordinate is in the block's range on its axis. -/
theorem mem_blk (t : Fin cfg1.N) (i : S100000x128.Idx) :
    i ∈ ((cfg1.win 4).blk t).view.set ↔ ∀ a : Fin 2, win1_4.index t a * S5000x128.size a ≤ (i a).val
      ∧ (i a).val < win1_4.index t a * S5000x128.size a + S5000x128.size a := by
  show i ∈ ((View.whole main_v51).slice (win1_4.rect t)).set ↔ _
  rw [View.set_slice_whole, Rect.mem_set_unit]
  exact Iff.rfl

/-- The 20 blocks tile the output: row `r` is in block `r / 5000`. -/
theorem cover (i : S100000x128.Idx) :
    ∃ t : Fin cfg1.N, (cfg1.win 4).flush t = true ∧ i ∈ ((cfg1.win 4).blk t).view.set := by
  have hi0 : (i 0).val < 100000 := idx2_lt0 i
  have hi1 : (i 1).val < 128 := idx2_lt1 i
  have hN : grid1.N = 20 := N_1
  have ht : (i 0).val / 5000 < cfg1.N := by show (i 0).val / 5000 < grid1.N; rw [hN]; omega
  obtain ⟨-, -, -, -, -, -, -, e40, e41⟩ := idx_facts ⟨(i 0).val / 5000, ht⟩
  refine ⟨⟨(i 0).val / 5000, ht⟩, flush1_4 _, ?_⟩
  rw [mem_blk]
  intro a
  match a with
  | ⟨0, _⟩ =>
    show win1_4.index ⟨(i 0).val / 5000, ht⟩ (0 : Fin 2) * 5000 ≤ (i 0).val
      ∧ (i 0).val < win1_4.index ⟨(i 0).val / 5000, ht⟩ (0 : Fin 2) * 5000 + 5000
    rw [e40]
    show (i 0).val / 5000 * 5000 ≤ (i 0).val ∧ (i 0).val < (i 0).val / 5000 * 5000 + 5000
    omega
  | ⟨1, _⟩ =>
    show win1_4.index ⟨(i 0).val / 5000, ht⟩ (1 : Fin 2) * 128 ≤ (i 1).val
      ∧ (i 1).val < win1_4.index ⟨(i 0).val / 5000, ht⟩ (1 : Fin 2) * 128 + 128
    rw [e41]
    omega

/-- THE OUTPUT ARRAY after the region: the fused layer of the four arrays the region read. -/
theorem final (c : Dev nD) :
    (dat1 V c).arrAt 4 cfg1.N = fused true (V c main_v46) (V c main_v33) (V c main_v48) (V c main_v50) :=
  (dat1 V c).arrAt_eq_of_cover 4 _ (fun t _ => flushed_eq V c t) cover

/-- The region as one four-operand array operation. -/
def op : HloOp τ sig (Elt Ideal) :=
  StableHlo.quaternary main_v46 main_v33 main_v48 main_v50 main_v51 (fun a0 a1 a2 a3 => fused true a0 a1 a2 a3)

/-- The buffer contents at the region's exit are the operation's result on the contents at its entry. -/
theorem exit_eq (m : (ℓ : Loc nD τ sig) → Buf (Elt Ideal) ℓ) (ρ : Dev nD → PrngReg) (c : Dev nD) :
    W4 m ρ c = op.result (W3 m ρ c) := by
  unfold W4
  refine Cert.LibRegionOut.withArrays_eq_result spec1 launch1.win.arr_inj c _ _ op 4 ?_ ?_ ?_
  · unfold op; rw [StableHlo.quaternary_writes]
  · intro w hw
    have hA : ∀ w' : Fin cfg1.W, (cfg1.win w').isOut = false →
        (dat1 (V3 m ρ) c).arrAt w' cfg1.N = W3 m ρ c (Proc.devRef .tc (Pipeline.arrRef spec1 w')) :=
      fun w' h => ((dat1 (V3 m ρ) c).arrAt_in w' h cfg1.N).trans (A_eq1 (V3 m ρ) c w')
    match w, hw with
    | ⟨0, _⟩, _ => exact hA 0 rfl
    | ⟨1, _⟩, _ => exact hA 1 rfl
    | ⟨2, _⟩, _ => exact hA 2 rfl
    | ⟨3, _⟩, _ => exact hA 3 rfl
    | ⟨4, _⟩, hw => exact absurd rfl hw
  · rw [final]
    unfold op
    exact (StableHlo.quaternary_result main_v46 main_v33 main_v48 main_v50 main_v51
      (fun a0 a1 a2 a3 => fused true a0 a1 a2 a3) _ _ _ _ _ (W3 m ρ c)).symm

end Cert.Region1

end
-- ==== Proof.Region2.lean ====
/-
  Region 2 of the kernel program (layer 2's pallas_call), read as ONE array operation.

  The region walks the 100000 nodes in 20 blocks of 5000. At block `t` it loads rows `5000·t … 5000·t + 4999` of the
  neighbour means and of the features, the whole stacked weight matrix and the whole bias row, and writes the body's
  result to the same rows of the output. A row of the output therefore depends only on the same row of the two inputs,
  and the 20 blocks tile the output: the array the region leaves is `SageLayer.fused` of the four arrays it read,
  and every other buffer is untouched — the contents one four-operand host operation would leave.
-/
import proofs.«162382_j80479097192825_1_alg».proof.Proof.Gen.KernelIdeal.Frame
import proofs.«162382_j80479097192825_1_alg».proof.Proof.BlockPayload
import proofs.«162382_j80479097192825_1_alg».proof.Proof.SageLayer
import proofs.«162382_j80479097192825_1_alg».proof.Proof.LibRegionOut
import Idealize.ShloMosaic.Lib.Pipeline.Value
import Idealize.ShloMosaic.Lib.StableHlo.Run

set_option maxRecDepth 16384

noncomputable section

open scoped BigOperators

namespace Cert.Region2

open Idealize.ShloMosaic Idealize.ShloMosaic.TcCoe Idealize.ShloMosaic.ValueIdx Idealize.SL.Sem
open Cert.KernelIdeal Cert.KernelIdeal.Gen Cert.SageLayer Cert.BlockPayload
open Idealize.ShloMosaic.Pipeline (Dat Cfg Window)

variable (V : (c : Dev nD) → (b : Ref sig .tc) → Buf (Elt Ideal) ((c : Thread nD τ).loc b))

theorem zeros2 : (![0, 0] : Fin 2 → Nat) = fun _ => 0 := funext fun a => by fin_cases a <;> rfl
theorem zeros1 : (![0] : Fin 1 → Nat) = fun _ => 0 := funext fun a => by fin_cases a <;> rfl

/-- The printed index maps, decided over the 20 grid points: the two row-blocked inputs and the output sit at block
    `t` of the rows and block 0 of the columns; the weights and the bias are one block each. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 1) = 0
    ∧ win2_4.index t (0 : Fin 2) = t.val ∧ win2_4.index t (1 : Fin 2) = 0 :=
  (by decide +kernel : ∀ t : Fin grid2.N, _)

/-- WHAT BLOCK `t` WRITES BACK is block `t` of the fused layer of the four arrays as the region finds them. -/
theorem flushed_eq (c : Dev nD) (t : Fin cfg2.N) :
    (dat2 V c).flushed 4 t = ((cfg2.win 4).blk t).view.read (Elt Ideal)
      (fused true (V c main_v64) (V c main_v51) (V c main_v66) (V c main_v68)) := by
  show (cfg2.win 4).cut (grid2.coords t) ((dat2 V c).after 4 t) = _
  rw [after2_4]
  unfold out2_4
  rw [View.canon_unit_zero zeros2]
  simp only [View.ld_unit_zero (S := S5000x128) zeros2, View.ld_unit_zero (S := S256x128) zeros2, View.ld_unit_zero (S := S128) zeros1]
  obtain ⟨e00, e01, e10, e11, e20, e21, e30, e40, e41⟩ := idx_facts t
  funext y
  show k2_pay1 (iblk2 V c 0 t) (iblk2 V c 1 t) (iblk2 V c 2 t) (iblk2 V c 3 t) y
    = fused true (V c main_v64) (V c main_v51) (V c main_v66) (V c main_v68) (((cfg2.win 4).blk t).view.emb y)
  refine (pay2_at (iblk2 V c 0 t) (iblk2 V c 1 t) (iblk2 V c 2 t) (iblk2 V c 3 t) y).trans ?_
  unfold fused fusedAt
  refine congrArg (act true) (congrArg₂ (· + ·) (Finset.sum_congr rfl fun j _ => congrArg₂ (· * ·) ?_ ?_) ?_)
  · unfold blockRow catRow
    by_cases hj : j.val < 128
    · rw [dif_pos hj, dif_pos hj]
      show V c main_v64 (((cfg2.win 0).blk t).view.emb (ix2 (y 0) ⟨j.val, hj⟩)) = V c main_v64 _
      refine congrArg (V c main_v64) (funext fun a => Fin.ext ?_)
      match a with
      | ⟨0, _⟩ =>
        show win2_0.index t (0 : Fin 2) * 5000 + 1 * (y 0).val = win2_4.index t (0 : Fin 2) * 5000 + 1 * (y 0).val
        omega
      | ⟨1, _⟩ =>
        show win2_0.index t (1 : Fin 2) * 128 + 1 * j.val = j.val
        omega
    · rw [dif_neg hj, dif_neg hj]
      show V c main_v51 (((cfg2.win 1).blk t).view.emb (ix2 (y 0) ⟨j.val - 128, _⟩)) = V c main_v51 _
      refine congrArg (V c main_v51) (funext fun a => Fin.ext ?_)
      match a with
      | ⟨0, _⟩ =>
        show win2_1.index t (0 : Fin 2) * 5000 + 1 * (y 0).val = win2_4.index t (0 : Fin 2) * 5000 + 1 * (y 0).val
        omega
      | ⟨1, _⟩ =>
        show win2_1.index t (1 : Fin 2) * 128 + 1 * (j.val - 128) = j.val - 128
        omega
  · show V c main_v66 (((cfg2.win 2).blk t).view.emb (ix2 j (y 1))) = V c main_v66 _
    refine congrArg (V c main_v66) (funext fun a => Fin.ext ?_)
    match a with
    | ⟨0, _⟩ =>
      show win2_2.index t (0 : Fin 2) * 256 + 1 * j.val = j.val
      omega
    | ⟨1, _⟩ =>
      show win2_2.index t (1 : Fin 2) * 128 + 1 * (y 1).val = win2_4.index t (1 : Fin 2) * 128 + 1 * (y 1).val
      omega
  · show V c main_v68 (((cfg2.win 3).blk t).view.emb (ix1 (y 1))) = V c main_v68 _
    refine congrArg (V c main_v68) (funext fun a => Fin.ext ?_)
    match a with
    | ⟨0, _⟩ =>
      show win2_3.index t (0 : Fin 1) * 128 + 1 * (y 1).val = win2_4.index t (1 : Fin 2) * 128 + 1 * (y 1).val
      omega

/-- An index of the output array is in block `t` iff each coordinate is in the block's range on its axis. -/
theorem mem_blk (t : Fin cfg2.N) (i : S100000x128.Idx) :
    i ∈ ((cfg2.win 4).blk t).view.set ↔ ∀ a : Fin 2, win2_4.index t a * S5000x128.size a ≤ (i a).val
      ∧ (i a).val < win2_4.index t a * S5000x128.size a + S5000x128.size a := by
  show i ∈ ((View.whole main_v69).slice (win2_4.rect t)).set ↔ _
  rw [View.set_slice_whole, Rect.mem_set_unit]
  exact Iff.rfl

/-- The 20 blocks tile the output: row `r` is in block `r / 5000`. -/
theorem cover (i : S100000x128.Idx) :
    ∃ t : Fin cfg2.N, (cfg2.win 4).flush t = true ∧ i ∈ ((cfg2.win 4).blk t).view.set := by
  have hi0 : (i 0).val < 100000 := idx2_lt0 i
  have hi1 : (i 1).val < 128 := idx2_lt1 i
  have hN : grid2.N = 20 := N_2
  have ht : (i 0).val / 5000 < cfg2.N := by show (i 0).val / 5000 < grid2.N; rw [hN]; omega
  obtain ⟨-, -, -, -, -, -, -, e40, e41⟩ := idx_facts ⟨(i 0).val / 5000, ht⟩
  refine ⟨⟨(i 0).val / 5000, ht⟩, flush2_4 _, ?_⟩
  rw [mem_blk]
  intro a
  match a with
  | ⟨0, _⟩ =>
    show win2_4.index ⟨(i 0).val / 5000, ht⟩ (0 : Fin 2) * 5000 ≤ (i 0).val
      ∧ (i 0).val < win2_4.index ⟨(i 0).val / 5000, ht⟩ (0 : Fin 2) * 5000 + 5000
    rw [e40]
    show (i 0).val / 5000 * 5000 ≤ (i 0).val ∧ (i 0).val < (i 0).val / 5000 * 5000 + 5000
    omega
  | ⟨1, _⟩ =>
    show win2_4.index ⟨(i 0).val / 5000, ht⟩ (1 : Fin 2) * 128 ≤ (i 1).val
      ∧ (i 1).val < win2_4.index ⟨(i 0).val / 5000, ht⟩ (1 : Fin 2) * 128 + 128
    rw [e41]
    omega

/-- THE OUTPUT ARRAY after the region: the fused layer of the four arrays the region read. -/
theorem final (c : Dev nD) :
    (dat2 V c).arrAt 4 cfg2.N = fused true (V c main_v64) (V c main_v51) (V c main_v66) (V c main_v68) :=
  (dat2 V c).arrAt_eq_of_cover 4 _ (fun t _ => flushed_eq V c t) cover

/-- The region as one four-operand array operation. -/
def op : HloOp τ sig (Elt Ideal) :=
  StableHlo.quaternary main_v64 main_v51 main_v66 main_v68 main_v69 (fun a0 a1 a2 a3 => fused true a0 a1 a2 a3)

/-- The buffer contents at the region's exit are the operation's result on the contents at its entry. -/
theorem exit_eq (m : (ℓ : Loc nD τ sig) → Buf (Elt Ideal) ℓ) (ρ : Dev nD → PrngReg) (c : Dev nD) :
    W6 m ρ c = op.result (W5 m ρ c) := by
  unfold W6
  refine Cert.LibRegionOut.withArrays_eq_result spec2 launch2.win.arr_inj c _ _ op 4 ?_ ?_ ?_
  · unfold op; rw [StableHlo.quaternary_writes]
  · intro w hw
    have hA : ∀ w' : Fin cfg2.W, (cfg2.win w').isOut = false →
        (dat2 (V5 m ρ) c).arrAt w' cfg2.N = W5 m ρ c (Proc.devRef .tc (Pipeline.arrRef spec2 w')) :=
      fun w' h => ((dat2 (V5 m ρ) c).arrAt_in w' h cfg2.N).trans (A_eq2 (V5 m ρ) c w')
    match w, hw with
    | ⟨0, _⟩, _ => exact hA 0 rfl
    | ⟨1, _⟩, _ => exact hA 1 rfl
    | ⟨2, _⟩, _ => exact hA 2 rfl
    | ⟨3, _⟩, _ => exact hA 3 rfl
    | ⟨4, _⟩, hw => exact absurd rfl hw
  · rw [final]
    unfold op
    exact (StableHlo.quaternary_result main_v64 main_v51 main_v66 main_v68 main_v69
      (fun a0 a1 a2 a3 => fused true a0 a1 a2 a3) _ _ _ _ _ (W5 m ρ c)).symm

end Cert.Region2

end
-- ==== Proof.Region3.lean ====
/-
  Region 3 of the kernel program (layer 3's pallas_call), read as ONE array operation.

  The region walks the 100000 nodes in 20 blocks of 5000. At block `t` it loads rows `5000·t … 5000·t + 4999` of the
  neighbour means and of the features, the whole stacked weight matrix and the whole bias row, and writes the body's
  result to the same rows of the output. A row of the output therefore depends only on the same row of the two inputs,
  and the 20 blocks tile the output: the array the region leaves is `SageLayer.fused` of the four arrays it read,
  and every other buffer is untouched — the contents one four-operand host operation would leave.
-/
import proofs.«162382_j80479097192825_1_alg».proof.Proof.Gen.KernelIdeal.Frame
import proofs.«162382_j80479097192825_1_alg».proof.Proof.BlockPayload
import proofs.«162382_j80479097192825_1_alg».proof.Proof.SageLayer
import proofs.«162382_j80479097192825_1_alg».proof.Proof.LibRegionOut
import Idealize.ShloMosaic.Lib.Pipeline.Value
import Idealize.ShloMosaic.Lib.StableHlo.Run

set_option maxRecDepth 16384

noncomputable section

open scoped BigOperators

namespace Cert.Region3

open Idealize.ShloMosaic Idealize.ShloMosaic.TcCoe Idealize.ShloMosaic.ValueIdx Idealize.SL.Sem
open Cert.KernelIdeal Cert.KernelIdeal.Gen Cert.SageLayer Cert.BlockPayload
open Idealize.ShloMosaic.Pipeline (Dat Cfg Window)

variable (V : (c : Dev nD) → (b : Ref sig .tc) → Buf (Elt Ideal) ((c : Thread nD τ).loc b))

theorem zeros2 : (![0, 0] : Fin 2 → Nat) = fun _ => 0 := funext fun a => by fin_cases a <;> rfl
theorem zeros1 : (![0] : Fin 1 → Nat) = fun _ => 0 := funext fun a => by fin_cases a <;> rfl

/-- The printed index maps, decided over the 20 grid points: the two row-blocked inputs and the output sit at block
    `t` of the rows and block 0 of the columns; the weights and the bias are one block each. -/
theorem idx_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 1) = 0
    ∧ win3_4.index t (0 : Fin 2) = t.val ∧ win3_4.index t (1 : Fin 2) = 0 :=
  (by decide +kernel : ∀ t : Fin grid3.N, _)

/-- WHAT BLOCK `t` WRITES BACK is block `t` of the fused layer of the four arrays as the region finds them. -/
theorem flushed_eq (c : Dev nD) (t : Fin cfg3.N) :
    (dat3 V c).flushed 4 t = ((cfg3.win 4).blk t).view.read (Elt Ideal)
      (fused true (V c main_v82) (V c main_v69) (V c main_v84) (V c main_v86)) := by
  show (cfg3.win 4).cut (grid3.coords t) ((dat3 V c).after 4 t) = _
  rw [after3_4]
  unfold out3_4
  rw [View.canon_unit_zero zeros2]
  simp only [View.ld_unit_zero (S := S5000x128) zeros2, View.ld_unit_zero (S := S256x128) zeros2, View.ld_unit_zero (S := S128) zeros1]
  obtain ⟨e00, e01, e10, e11, e20, e21, e30, e40, e41⟩ := idx_facts t
  funext y
  show k3_pay1 (iblk3 V c 0 t) (iblk3 V c 1 t) (iblk3 V c 2 t) (iblk3 V c 3 t) y
    = fused true (V c main_v82) (V c main_v69) (V c main_v84) (V c main_v86) (((cfg3.win 4).blk t).view.emb y)
  refine (pay3_at (iblk3 V c 0 t) (iblk3 V c 1 t) (iblk3 V c 2 t) (iblk3 V c 3 t) y).trans ?_
  unfold fused fusedAt
  refine congrArg (act true) (congrArg₂ (· + ·) (Finset.sum_congr rfl fun j _ => congrArg₂ (· * ·) ?_ ?_) ?_)
  · unfold blockRow catRow
    by_cases hj : j.val < 128
    · rw [dif_pos hj, dif_pos hj]
      show V c main_v82 (((cfg3.win 0).blk t).view.emb (ix2 (y 0) ⟨j.val, hj⟩)) = V c main_v82 _
      refine congrArg (V c main_v82) (funext fun a => Fin.ext ?_)
      match a with
      | ⟨0, _⟩ =>
        show win3_0.index t (0 : Fin 2) * 5000 + 1 * (y 0).val = win3_4.index t (0 : Fin 2) * 5000 + 1 * (y 0).val
        omega
      | ⟨1, _⟩ =>
        show win3_0.index t (1 : Fin 2) * 128 + 1 * j.val = j.val
        omega
    · rw [dif_neg hj, dif_neg hj]
      show V c main_v69 (((cfg3.win 1).blk t).view.emb (ix2 (y 0) ⟨j.val - 128, _⟩)) = V c main_v69 _
      refine congrArg (V c main_v69) (funext fun a => Fin.ext ?_)
      match a with
      | ⟨0, _⟩ =>
        show win3_1.index t (0 : Fin 2) * 5000 + 1 * (y 0).val = win3_4.index t (0 : Fin 2) * 5000 + 1 * (y 0).val
        omega
      | ⟨1, _⟩ =>
        show win3_1.index t (1 : Fin 2) * 128 + 1 * (j.val - 128) = j.val - 128
        omega
  · show V c main_v84 (((cfg3.win 2).blk t).view.emb (ix2 j (y 1))) = V c main_v84 _
    refine congrArg (V c main_v84) (funext fun a => Fin.ext ?_)
    match a with
    | ⟨0, _⟩ =>
      show win3_2.index t (0 : Fin 2) * 256 + 1 * j.val = j.val
      omega
    | ⟨1, _⟩ =>
      show win3_2.index t (1 : Fin 2) * 128 + 1 * (y 1).val = win3_4.index t (1 : Fin 2) * 128 + 1 * (y 1).val
      omega
  · show V c main_v86 (((cfg3.win 3).blk t).view.emb (ix1 (y 1))) = V c main_v86 _
    refine congrArg (V c main_v86) (funext fun a => Fin.ext ?_)
    match a with
    | ⟨0, _⟩ =>
      show win3_3.index t (0 : Fin 1) * 128 + 1 * (y 1).val = win3_4.index t (1 : Fin 2) * 128 + 1 * (y 1).val
      omega

/-- An index of the output array is in block `t` iff each coordinate is in the block's range on its axis. -/
theorem mem_blk (t : Fin cfg3.N) (i : S100000x128.Idx) :
    i ∈ ((cfg3.win 4).blk t).view.set ↔ ∀ a : Fin 2, win3_4.index t a * S5000x128.size a ≤ (i a).val
      ∧ (i a).val < win3_4.index t a * S5000x128.size a + S5000x128.size a := by
  show i ∈ ((View.whole main_v87).slice (win3_4.rect t)).set ↔ _
  rw [View.set_slice_whole, Rect.mem_set_unit]
  exact Iff.rfl

/-- The 20 blocks tile the output: row `r` is in block `r / 5000`. -/
theorem cover (i : S100000x128.Idx) :
    ∃ t : Fin cfg3.N, (cfg3.win 4).flush t = true ∧ i ∈ ((cfg3.win 4).blk t).view.set := by
  have hi0 : (i 0).val < 100000 := idx2_lt0 i
  have hi1 : (i 1).val < 128 := idx2_lt1 i
  have hN : grid3.N = 20 := N_3
  have ht : (i 0).val / 5000 < cfg3.N := by show (i 0).val / 5000 < grid3.N; rw [hN]; omega
  obtain ⟨-, -, -, -, -, -, -, e40, e41⟩ := idx_facts ⟨(i 0).val / 5000, ht⟩
  refine ⟨⟨(i 0).val / 5000, ht⟩, flush3_4 _, ?_⟩
  rw [mem_blk]
  intro a
  match a with
  | ⟨0, _⟩ =>
    show win3_4.index ⟨(i 0).val / 5000, ht⟩ (0 : Fin 2) * 5000 ≤ (i 0).val
      ∧ (i 0).val < win3_4.index ⟨(i 0).val / 5000, ht⟩ (0 : Fin 2) * 5000 + 5000
    rw [e40]
    show (i 0).val / 5000 * 5000 ≤ (i 0).val ∧ (i 0).val < (i 0).val / 5000 * 5000 + 5000
    omega
  | ⟨1, _⟩ =>
    show win3_4.index ⟨(i 0).val / 5000, ht⟩ (1 : Fin 2) * 128 ≤ (i 1).val
      ∧ (i 1).val < win3_4.index ⟨(i 0).val / 5000, ht⟩ (1 : Fin 2) * 128 + 128
    rw [e41]
    omega

/-- THE OUTPUT ARRAY after the region: the fused layer of the four arrays the region read. -/
theorem final (c : Dev nD) :
    (dat3 V c).arrAt 4 cfg3.N = fused true (V c main_v82) (V c main_v69) (V c main_v84) (V c main_v86) :=
  (dat3 V c).arrAt_eq_of_cover 4 _ (fun t _ => flushed_eq V c t) cover

/-- The region as one four-operand array operation. -/
def op : HloOp τ sig (Elt Ideal) :=
  StableHlo.quaternary main_v82 main_v69 main_v84 main_v86 main_v87 (fun a0 a1 a2 a3 => fused true a0 a1 a2 a3)

/-- The buffer contents at the region's exit are the operation's result on the contents at its entry. -/
theorem exit_eq (m : (ℓ : Loc nD τ sig) → Buf (Elt Ideal) ℓ) (ρ : Dev nD → PrngReg) (c : Dev nD) :
    W8 m ρ c = op.result (W7 m ρ c) := by
  unfold W8
  refine Cert.LibRegionOut.withArrays_eq_result spec3 launch3.win.arr_inj c _ _ op 4 ?_ ?_ ?_
  · unfold op; rw [StableHlo.quaternary_writes]
  · intro w hw
    have hA : ∀ w' : Fin cfg3.W, (cfg3.win w').isOut = false →
        (dat3 (V7 m ρ) c).arrAt w' cfg3.N = W7 m ρ c (Proc.devRef .tc (Pipeline.arrRef spec3 w')) :=
      fun w' h => ((dat3 (V7 m ρ) c).arrAt_in w' h cfg3.N).trans (A_eq3 (V7 m ρ) c w')
    match w, hw with
    | ⟨0, _⟩, _ => exact hA 0 rfl
    | ⟨1, _⟩, _ => exact hA 1 rfl
    | ⟨2, _⟩, _ => exact hA 2 rfl
    | ⟨3, _⟩, _ => exact hA 3 rfl
    | ⟨4, _⟩, hw => exact absurd rfl hw
  · rw [final]
    unfold op
    exact (StableHlo.quaternary_result main_v82 main_v69 main_v84 main_v86 main_v87
      (fun a0 a1 a2 a3 => fused true a0 a1 a2 a3) _ _ _ _ _ (W7 m ρ c)).symm

end Cert.Region3

end
-- ==== Proof.Region4.lean ====
/-
  Region 4 of the kernel program (layer 4's pallas_call), read as ONE array operation.

  The region walks the 100000 nodes in 20 blocks of 5000. At block `t` it loads rows `5000·t … 5000·t + 4999` of the
  neighbour means and of the features, the whole stacked weight matrix and the whole bias row, and writes the body's
  result to the same rows of the output. A row of the output therefore depends only on the same row of the two inputs,
  and the 20 blocks tile the output: the array the region leaves is `SageLayer.fused` of the four arrays it read,
  and every other buffer is untouched — the contents one four-operand host operation would leave.
-/
import proofs.«162382_j80479097192825_1_alg».proof.Proof.Gen.KernelIdeal.Frame
import proofs.«162382_j80479097192825_1_alg».proof.Proof.BlockPayload
import proofs.«162382_j80479097192825_1_alg».proof.Proof.SageLayer
import proofs.«162382_j80479097192825_1_alg».proof.Proof.LibRegionOut
import Idealize.ShloMosaic.Lib.Pipeline.Value
import Idealize.ShloMosaic.Lib.StableHlo.Run

set_option maxRecDepth 16384

noncomputable section

open scoped BigOperators

namespace Cert.Region4

open Idealize.ShloMosaic Idealize.ShloMosaic.TcCoe Idealize.ShloMosaic.ValueIdx Idealize.SL.Sem
open Cert.KernelIdeal Cert.KernelIdeal.Gen Cert.SageLayer Cert.BlockPayload
open Idealize.ShloMosaic.Pipeline (Dat Cfg Window)

variable (V : (c : Dev nD) → (b : Ref sig .tc) → Buf (Elt Ideal) ((c : Thread nD τ).loc b))

theorem zeros2 : (![0, 0] : Fin 2 → Nat) = fun _ => 0 := funext fun a => by fin_cases a <;> rfl
theorem zeros1 : (![0] : Fin 1 → Nat) = fun _ => 0 := funext fun a => by fin_cases a <;> rfl

/-- The printed index maps, decided over the 20 grid points: the two row-blocked inputs and the output sit at block
    `t` of the rows and block 0 of the columns; the weights and the bias are one block each. -/
theorem idx_facts : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 1) = 0
    ∧ win4_4.index t (0 : Fin 2) = t.val ∧ win4_4.index t (1 : Fin 2) = 0 :=
  (by decide +kernel : ∀ t : Fin grid4.N, _)

/-- WHAT BLOCK `t` WRITES BACK is block `t` of the fused layer of the four arrays as the region finds them. -/
theorem flushed_eq (c : Dev nD) (t : Fin cfg4.N) :
    (dat4 V c).flushed 4 t = ((cfg4.win 4).blk t).view.read (Elt Ideal)
      (fused true (V c main_v100) (V c main_v87) (V c main_v102) (V c main_v104)) := by
  show (cfg4.win 4).cut (grid4.coords t) ((dat4 V c).after 4 t) = _
  rw [after4_4]
  unfold out4_4
  rw [View.canon_unit_zero zeros2]
  simp only [View.ld_unit_zero (S := S5000x128) zeros2, View.ld_unit_zero (S := S256x128) zeros2, View.ld_unit_zero (S := S128) zeros1]
  obtain ⟨e00, e01, e10, e11, e20, e21, e30, e40, e41⟩ := idx_facts t
  funext y
  show k4_pay1 (iblk4 V c 0 t) (iblk4 V c 1 t) (iblk4 V c 2 t) (iblk4 V c 3 t) y
    = fused true (V c main_v100) (V c main_v87) (V c main_v102) (V c main_v104) (((cfg4.win 4).blk t).view.emb y)
  refine (pay4_at (iblk4 V c 0 t) (iblk4 V c 1 t) (iblk4 V c 2 t) (iblk4 V c 3 t) y).trans ?_
  unfold fused fusedAt
  refine congrArg (act true) (congrArg₂ (· + ·) (Finset.sum_congr rfl fun j _ => congrArg₂ (· * ·) ?_ ?_) ?_)
  · unfold blockRow catRow
    by_cases hj : j.val < 128
    · rw [dif_pos hj, dif_pos hj]
      show V c main_v100 (((cfg4.win 0).blk t).view.emb (ix2 (y 0) ⟨j.val, hj⟩)) = V c main_v100 _
      refine congrArg (V c main_v100) (funext fun a => Fin.ext ?_)
      match a with
      | ⟨0, _⟩ =>
        show win4_0.index t (0 : Fin 2) * 5000 + 1 * (y 0).val = win4_4.index t (0 : Fin 2) * 5000 + 1 * (y 0).val
        omega
      | ⟨1, _⟩ =>
        show win4_0.index t (1 : Fin 2) * 128 + 1 * j.val = j.val
        omega
    · rw [dif_neg hj, dif_neg hj]
      show V c main_v87 (((cfg4.win 1).blk t).view.emb (ix2 (y 0) ⟨j.val - 128, _⟩)) = V c main_v87 _
      refine congrArg (V c main_v87) (funext fun a => Fin.ext ?_)
      match a with
      | ⟨0, _⟩ =>
        show win4_1.index t (0 : Fin 2) * 5000 + 1 * (y 0).val = win4_4.index t (0 : Fin 2) * 5000 + 1 * (y 0).val
        omega
      | ⟨1, _⟩ =>
        show win4_1.index t (1 : Fin 2) * 128 + 1 * (j.val - 128) = j.val - 128
        omega
  · show V c main_v102 (((cfg4.win 2).blk t).view.emb (ix2 j (y 1))) = V c main_v102 _
    refine congrArg (V c main_v102) (funext fun a => Fin.ext ?_)
    match a with
    | ⟨0, _⟩ =>
      show win4_2.index t (0 : Fin 2) * 256 + 1 * j.val = j.val
      omega
    | ⟨1, _⟩ =>
      show win4_2.index t (1 : Fin 2) * 128 + 1 * (y 1).val = win4_4.index t (1 : Fin 2) * 128 + 1 * (y 1).val
      omega
  · show V c main_v104 (((cfg4.win 3).blk t).view.emb (ix1 (y 1))) = V c main_v104 _
    refine congrArg (V c main_v104) (funext fun a => Fin.ext ?_)
    match a with
    | ⟨0, _⟩ =>
      show win4_3.index t (0 : Fin 1) * 128 + 1 * (y 1).val = win4_4.index t (1 : Fin 2) * 128 + 1 * (y 1).val
      omega

/-- An index of the output array is in block `t` iff each coordinate is in the block's range on its axis. -/
theorem mem_blk (t : Fin cfg4.N) (i : S100000x128.Idx) :
    i ∈ ((cfg4.win 4).blk t).view.set ↔ ∀ a : Fin 2, win4_4.index t a * S5000x128.size a ≤ (i a).val
      ∧ (i a).val < win4_4.index t a * S5000x128.size a + S5000x128.size a := by
  show i ∈ ((View.whole main_v105).slice (win4_4.rect t)).set ↔ _
  rw [View.set_slice_whole, Rect.mem_set_unit]
  exact Iff.rfl

/-- The 20 blocks tile the output: row `r` is in block `r / 5000`. -/
theorem cover (i : S100000x128.Idx) :
    ∃ t : Fin cfg4.N, (cfg4.win 4).flush t = true ∧ i ∈ ((cfg4.win 4).blk t).view.set := by
  have hi0 : (i 0).val < 100000 := idx2_lt0 i
  have hi1 : (i 1).val < 128 := idx2_lt1 i
  have hN : grid4.N = 20 := N_4
  have ht : (i 0).val / 5000 < cfg4.N := by show (i 0).val / 5000 < grid4.N; rw [hN]; omega
  obtain ⟨-, -, -, -, -, -, -, e40, e41⟩ := idx_facts ⟨(i 0).val / 5000, ht⟩
  refine ⟨⟨(i 0).val / 5000, ht⟩, flush4_4 _, ?_⟩
  rw [mem_blk]
  intro a
  match a with
  | ⟨0, _⟩ =>
    show win4_4.index ⟨(i 0).val / 5000, ht⟩ (0 : Fin 2) * 5000 ≤ (i 0).val
      ∧ (i 0).val < win4_4.index ⟨(i 0).val / 5000, ht⟩ (0 : Fin 2) * 5000 + 5000
    rw [e40]
    show (i 0).val / 5000 * 5000 ≤ (i 0).val ∧ (i 0).val < (i 0).val / 5000 * 5000 + 5000
    omega
  | ⟨1, _⟩ =>
    show win4_4.index ⟨(i 0).val / 5000, ht⟩ (1 : Fin 2) * 128 ≤ (i 1).val
      ∧ (i 1).val < win4_4.index ⟨(i 0).val / 5000, ht⟩ (1 : Fin 2) * 128 + 128
    rw [e41]
    omega

/-- THE OUTPUT ARRAY after the region: the fused layer of the four arrays the region read. -/
theorem final (c : Dev nD) :
    (dat4 V c).arrAt 4 cfg4.N = fused true (V c main_v100) (V c main_v87) (V c main_v102) (V c main_v104) :=
  (dat4 V c).arrAt_eq_of_cover 4 _ (fun t _ => flushed_eq V c t) cover

/-- The region as one four-operand array operation. -/
def op : HloOp τ sig (Elt Ideal) :=
  StableHlo.quaternary main_v100 main_v87 main_v102 main_v104 main_v105 (fun a0 a1 a2 a3 => fused true a0 a1 a2 a3)

/-- The buffer contents at the region's exit are the operation's result on the contents at its entry. -/
theorem exit_eq (m : (ℓ : Loc nD τ sig) → Buf (Elt Ideal) ℓ) (ρ : Dev nD → PrngReg) (c : Dev nD) :
    W10 m ρ c = op.result (W9 m ρ c) := by
  unfold W10
  refine Cert.LibRegionOut.withArrays_eq_result spec4 launch4.win.arr_inj c _ _ op 4 ?_ ?_ ?_
  · unfold op; rw [StableHlo.quaternary_writes]
  · intro w hw
    have hA : ∀ w' : Fin cfg4.W, (cfg4.win w').isOut = false →
        (dat4 (V9 m ρ) c).arrAt w' cfg4.N = W9 m ρ c (Proc.devRef .tc (Pipeline.arrRef spec4 w')) :=
      fun w' h => ((dat4 (V9 m ρ) c).arrAt_in w' h cfg4.N).trans (A_eq4 (V9 m ρ) c w')
    match w, hw with
    | ⟨0, _⟩, _ => exact hA 0 rfl
    | ⟨1, _⟩, _ => exact hA 1 rfl
    | ⟨2, _⟩, _ => exact hA 2 rfl
    | ⟨3, _⟩, _ => exact hA 3 rfl
    | ⟨4, _⟩, hw => exact absurd rfl hw
  · rw [final]
    unfold op
    exact (StableHlo.quaternary_result main_v100 main_v87 main_v102 main_v104 main_v105
      (fun a0 a1 a2 a3 => fused true a0 a1 a2 a3) _ _ _ _ _ (W9 m ρ c)).symm

end Cert.Region4

end
-- ==== Proof.Region5.lean ====
/-
  Region 5 of the kernel program (layer 5's pallas_call), read as ONE array operation.

  The region walks the 100000 nodes in 20 blocks of 5000. At block `t` it loads rows `5000·t … 5000·t + 4999` of the
  neighbour means and of the features, the whole stacked weight matrix and the whole bias row, and writes the body's
  result to the same rows of the output. A row of the output therefore depends only on the same row of the two inputs,
  and the 20 blocks tile the output: the array the region leaves is `SageLayer.fused` of the four arrays it read,
  and every other buffer is untouched — the contents one four-operand host operation would leave.
-/
import proofs.«162382_j80479097192825_1_alg».proof.Proof.Gen.KernelIdeal.Frame
import proofs.«162382_j80479097192825_1_alg».proof.Proof.BlockPayload
import proofs.«162382_j80479097192825_1_alg».proof.Proof.SageLayer
import proofs.«162382_j80479097192825_1_alg».proof.Proof.LibRegionOut
import Idealize.ShloMosaic.Lib.Pipeline.Value
import Idealize.ShloMosaic.Lib.StableHlo.Run

set_option maxRecDepth 16384

noncomputable section

open scoped BigOperators

namespace Cert.Region5

open Idealize.ShloMosaic Idealize.ShloMosaic.TcCoe Idealize.ShloMosaic.ValueIdx Idealize.SL.Sem
open Cert.KernelIdeal Cert.KernelIdeal.Gen Cert.SageLayer Cert.BlockPayload
open Idealize.ShloMosaic.Pipeline (Dat Cfg Window)

variable (V : (c : Dev nD) → (b : Ref sig .tc) → Buf (Elt Ideal) ((c : Thread nD τ).loc b))

theorem zeros2 : (![0, 0] : Fin 2 → Nat) = fun _ => 0 := funext fun a => by fin_cases a <;> rfl
theorem zeros1 : (![0] : Fin 1 → Nat) = fun _ => 0 := funext fun a => by fin_cases a <;> rfl

/-- The printed index maps, decided over the 20 grid points: the two row-blocked inputs and the output sit at block
    `t` of the rows and block 0 of the columns; the weights and the bias are one block each. -/
theorem idx_facts : ∀ t : Fin cfg5.N,
    win5_0.index t (0 : Fin 2) = t.val ∧ win5_0.index t (1 : Fin 2) = 0
    ∧ win5_1.index t (0 : Fin 2) = t.val ∧ win5_1.index t (1 : Fin 2) = 0
    ∧ win5_2.index t (0 : Fin 2) = 0 ∧ win5_2.index t (1 : Fin 2) = 0
    ∧ win5_3.index t (0 : Fin 1) = 0
    ∧ win5_4.index t (0 : Fin 2) = t.val ∧ win5_4.index t (1 : Fin 2) = 0 :=
  (by decide +kernel : ∀ t : Fin grid5.N, _)

/-- WHAT BLOCK `t` WRITES BACK is block `t` of the fused layer of the four arrays as the region finds them. -/
theorem flushed_eq (c : Dev nD) (t : Fin cfg5.N) :
    (dat5 V c).flushed 4 t = ((cfg5.win 4).blk t).view.read (Elt Ideal)
      (fused true (V c main_v118) (V c main_v105) (V c main_v120) (V c main_v122)) := by
  show (cfg5.win 4).cut (grid5.coords t) ((dat5 V c).after 4 t) = _
  rw [after5_4]
  unfold out5_4
  rw [View.canon_unit_zero zeros2]
  simp only [View.ld_unit_zero (S := S5000x128) zeros2, View.ld_unit_zero (S := S256x128) zeros2, View.ld_unit_zero (S := S128) zeros1]
  obtain ⟨e00, e01, e10, e11, e20, e21, e30, e40, e41⟩ := idx_facts t
  funext y
  show k5_pay1 (iblk5 V c 0 t) (iblk5 V c 1 t) (iblk5 V c 2 t) (iblk5 V c 3 t) y
    = fused true (V c main_v118) (V c main_v105) (V c main_v120) (V c main_v122) (((cfg5.win 4).blk t).view.emb y)
  refine (pay5_at (iblk5 V c 0 t) (iblk5 V c 1 t) (iblk5 V c 2 t) (iblk5 V c 3 t) y).trans ?_
  unfold fused fusedAt
  refine congrArg (act true) (congrArg₂ (· + ·) (Finset.sum_congr rfl fun j _ => congrArg₂ (· * ·) ?_ ?_) ?_)
  · unfold blockRow catRow
    by_cases hj : j.val < 128
    · rw [dif_pos hj, dif_pos hj]
      show V c main_v118 (((cfg5.win 0).blk t).view.emb (ix2 (y 0) ⟨j.val, hj⟩)) = V c main_v118 _
      refine congrArg (V c main_v118) (funext fun a => Fin.ext ?_)
      match a with
      | ⟨0, _⟩ =>
        show win5_0.index t (0 : Fin 2) * 5000 + 1 * (y 0).val = win5_4.index t (0 : Fin 2) * 5000 + 1 * (y 0).val
        omega
      | ⟨1, _⟩ =>
        show win5_0.index t (1 : Fin 2) * 128 + 1 * j.val = j.val
        omega
    · rw [dif_neg hj, dif_neg hj]
      show V c main_v105 (((cfg5.win 1).blk t).view.emb (ix2 (y 0) ⟨j.val - 128, _⟩)) = V c main_v105 _
      refine congrArg (V c main_v105) (funext fun a => Fin.ext ?_)
      match a with
      | ⟨0, _⟩ =>
        show win5_1.index t (0 : Fin 2) * 5000 + 1 * (y 0).val = win5_4.index t (0 : Fin 2) * 5000 + 1 * (y 0).val
        omega
      | ⟨1, _⟩ =>
        show win5_1.index t (1 : Fin 2) * 128 + 1 * (j.val - 128) = j.val - 128
        omega
  · show V c main_v120 (((cfg5.win 2).blk t).view.emb (ix2 j (y 1))) = V c main_v120 _
    refine congrArg (V c main_v120) (funext fun a => Fin.ext ?_)
    match a with
    | ⟨0, _⟩ =>
      show win5_2.index t (0 : Fin 2) * 256 + 1 * j.val = j.val
      omega
    | ⟨1, _⟩ =>
      show win5_2.index t (1 : Fin 2) * 128 + 1 * (y 1).val = win5_4.index t (1 : Fin 2) * 128 + 1 * (y 1).val
      omega
  · show V c main_v122 (((cfg5.win 3).blk t).view.emb (ix1 (y 1))) = V c main_v122 _
    refine congrArg (V c main_v122) (funext fun a => Fin.ext ?_)
    match a with
    | ⟨0, _⟩ =>
      show win5_3.index t (0 : Fin 1) * 128 + 1 * (y 1).val = win5_4.index t (1 : Fin 2) * 128 + 1 * (y 1).val
      omega

/-- An index of the output array is in block `t` iff each coordinate is in the block's range on its axis. -/
theorem mem_blk (t : Fin cfg5.N) (i : S100000x128.Idx) :
    i ∈ ((cfg5.win 4).blk t).view.set ↔ ∀ a : Fin 2, win5_4.index t a * S5000x128.size a ≤ (i a).val
      ∧ (i a).val < win5_4.index t a * S5000x128.size a + S5000x128.size a := by
  show i ∈ ((View.whole main_v123).slice (win5_4.rect t)).set ↔ _
  rw [View.set_slice_whole, Rect.mem_set_unit]
  exact Iff.rfl

/-- The 20 blocks tile the output: row `r` is in block `r / 5000`. -/
theorem cover (i : S100000x128.Idx) :
    ∃ t : Fin cfg5.N, (cfg5.win 4).flush t = true ∧ i ∈ ((cfg5.win 4).blk t).view.set := by
  have hi0 : (i 0).val < 100000 := idx2_lt0 i
  have hi1 : (i 1).val < 128 := idx2_lt1 i
  have hN : grid5.N = 20 := N_5
  have ht : (i 0).val / 5000 < cfg5.N := by show (i 0).val / 5000 < grid5.N; rw [hN]; omega
  obtain ⟨-, -, -, -, -, -, -, e40, e41⟩ := idx_facts ⟨(i 0).val / 5000, ht⟩
  refine ⟨⟨(i 0).val / 5000, ht⟩, flush5_4 _, ?_⟩
  rw [mem_blk]
  intro a
  match a with
  | ⟨0, _⟩ =>
    show win5_4.index ⟨(i 0).val / 5000, ht⟩ (0 : Fin 2) * 5000 ≤ (i 0).val
      ∧ (i 0).val < win5_4.index ⟨(i 0).val / 5000, ht⟩ (0 : Fin 2) * 5000 + 5000
    rw [e40]
    show (i 0).val / 5000 * 5000 ≤ (i 0).val ∧ (i 0).val < (i 0).val / 5000 * 5000 + 5000
    omega
  | ⟨1, _⟩ =>
    show win5_4.index ⟨(i 0).val / 5000, ht⟩ (1 : Fin 2) * 128 ≤ (i 1).val
      ∧ (i 1).val < win5_4.index ⟨(i 0).val / 5000, ht⟩ (1 : Fin 2) * 128 + 128
    rw [e41]
    omega

/-- THE OUTPUT ARRAY after the region: the fused layer of the four arrays the region read. -/
theorem final (c : Dev nD) :
    (dat5 V c).arrAt 4 cfg5.N = fused true (V c main_v118) (V c main_v105) (V c main_v120) (V c main_v122) :=
  (dat5 V c).arrAt_eq_of_cover 4 _ (fun t _ => flushed_eq V c t) cover

/-- The region as one four-operand array operation. -/
def op : HloOp τ sig (Elt Ideal) :=
  StableHlo.quaternary main_v118 main_v105 main_v120 main_v122 main_v123 (fun a0 a1 a2 a3 => fused true a0 a1 a2 a3)

/-- The buffer contents at the region's exit are the operation's result on the contents at its entry. -/
theorem exit_eq (m : (ℓ : Loc nD τ sig) → Buf (Elt Ideal) ℓ) (ρ : Dev nD → PrngReg) (c : Dev nD) :
    W12 m ρ c = op.result (W11 m ρ c) := by
  unfold W12
  refine Cert.LibRegionOut.withArrays_eq_result spec5 launch5.win.arr_inj c _ _ op 4 ?_ ?_ ?_
  · unfold op; rw [StableHlo.quaternary_writes]
  · intro w hw
    have hA : ∀ w' : Fin cfg5.W, (cfg5.win w').isOut = false →
        (dat5 (V11 m ρ) c).arrAt w' cfg5.N = W11 m ρ c (Proc.devRef .tc (Pipeline.arrRef spec5 w')) :=
      fun w' h => ((dat5 (V11 m ρ) c).arrAt_in w' h cfg5.N).trans (A_eq5 (V11 m ρ) c w')
    match w, hw with
    | ⟨0, _⟩, _ => exact hA 0 rfl
    | ⟨1, _⟩, _ => exact hA 1 rfl
    | ⟨2, _⟩, _ => exact hA 2 rfl
    | ⟨3, _⟩, _ => exact hA 3 rfl
    | ⟨4, _⟩, hw => exact absurd rfl hw
  · rw [final]
    unfold op
    exact (StableHlo.quaternary_result main_v118 main_v105 main_v120 main_v122 main_v123
      (fun a0 a1 a2 a3 => fused true a0 a1 a2 a3) _ _ _ _ _ (W11 m ρ c)).symm

end Cert.Region5

end
-- ==== Proof.Region6.lean ====
/-
  Region 6 of the kernel program (layer 6's pallas_call), read as ONE array operation.

  The region walks the 100000 nodes in 20 blocks of 5000. At block `t` it loads rows `5000·t … 5000·t + 4999` of the
  neighbour means and of the features, the whole stacked weight matrix and the whole bias row, and writes the body's
  result to the same rows of the output. A row of the output therefore depends only on the same row of the two inputs,
  and the 20 blocks tile the output: the array the region leaves is `SageLayer.fused` of the four arrays it read,
  and every other buffer is untouched — the contents one four-operand host operation would leave.
-/
import proofs.«162382_j80479097192825_1_alg».proof.Proof.Gen.KernelIdeal.Frame
import proofs.«162382_j80479097192825_1_alg».proof.Proof.BlockPayload
import proofs.«162382_j80479097192825_1_alg».proof.Proof.SageLayer
import proofs.«162382_j80479097192825_1_alg».proof.Proof.LibRegionOut
import Idealize.ShloMosaic.Lib.Pipeline.Value
import Idealize.ShloMosaic.Lib.StableHlo.Run

set_option maxRecDepth 16384

noncomputable section

open scoped BigOperators

namespace Cert.Region6

open Idealize.ShloMosaic Idealize.ShloMosaic.TcCoe Idealize.ShloMosaic.ValueIdx Idealize.SL.Sem
open Cert.KernelIdeal Cert.KernelIdeal.Gen Cert.SageLayer Cert.BlockPayload
open Idealize.ShloMosaic.Pipeline (Dat Cfg Window)

variable (V : (c : Dev nD) → (b : Ref sig .tc) → Buf (Elt Ideal) ((c : Thread nD τ).loc b))

theorem zeros2 : (![0, 0] : Fin 2 → Nat) = fun _ => 0 := funext fun a => by fin_cases a <;> rfl
theorem zeros1 : (![0] : Fin 1 → Nat) = fun _ => 0 := funext fun a => by fin_cases a <;> rfl

/-- The printed index maps, decided over the 20 grid points: the two row-blocked inputs and the output sit at block
    `t` of the rows and block 0 of the columns; the weights and the bias are one block each. -/
theorem idx_facts : ∀ t : Fin cfg6.N,
    win6_0.index t (0 : Fin 2) = t.val ∧ win6_0.index t (1 : Fin 2) = 0
    ∧ win6_1.index t (0 : Fin 2) = t.val ∧ win6_1.index t (1 : Fin 2) = 0
    ∧ win6_2.index t (0 : Fin 2) = 0 ∧ win6_2.index t (1 : Fin 2) = 0
    ∧ win6_3.index t (0 : Fin 1) = 0
    ∧ win6_4.index t (0 : Fin 2) = t.val ∧ win6_4.index t (1 : Fin 2) = 0 :=
  (by decide +kernel : ∀ t : Fin grid6.N, _)

/-- WHAT BLOCK `t` WRITES BACK is block `t` of the fused layer of the four arrays as the region finds them. -/
theorem flushed_eq (c : Dev nD) (t : Fin cfg6.N) :
    (dat6 V c).flushed 4 t = ((cfg6.win 4).blk t).view.read (Elt Ideal)
      (fused false (V c main_v136) (V c main_v123) (V c main_v138) (V c main_v140)) := by
  show (cfg6.win 4).cut (grid6.coords t) ((dat6 V c).after 4 t) = _
  rw [after6_4]
  unfold out6_4
  rw [View.canon_unit_zero zeros2]
  simp only [View.ld_unit_zero (S := S5000x128) zeros2, View.ld_unit_zero (S := S256x128) zeros2, View.ld_unit_zero (S := S128) zeros1]
  obtain ⟨e00, e01, e10, e11, e20, e21, e30, e40, e41⟩ := idx_facts t
  funext y
  show k6_pay1 (iblk6 V c 0 t) (iblk6 V c 1 t) (iblk6 V c 2 t) (iblk6 V c 3 t) y
    = fused false (V c main_v136) (V c main_v123) (V c main_v138) (V c main_v140) (((cfg6.win 4).blk t).view.emb y)
  refine (pay6_at (iblk6 V c 0 t) (iblk6 V c 1 t) (iblk6 V c 2 t) (iblk6 V c 3 t) y).trans ?_
  unfold fused fusedAt
  refine congrArg (act false) (congrArg₂ (· + ·) (Finset.sum_congr rfl fun j _ => congrArg₂ (· * ·) ?_ ?_) ?_)
  · unfold blockRow catRow
    by_cases hj : j.val < 128
    · rw [dif_pos hj, dif_pos hj]
      show V c main_v136 (((cfg6.win 0).blk t).view.emb (ix2 (y 0) ⟨j.val, hj⟩)) = V c main_v136 _
      refine congrArg (V c main_v136) (funext fun a => Fin.ext ?_)
      match a with
      | ⟨0, _⟩ =>
        show win6_0.index t (0 : Fin 2) * 5000 + 1 * (y 0).val = win6_4.index t (0 : Fin 2) * 5000 + 1 * (y 0).val
        omega
      | ⟨1, _⟩ =>
        show win6_0.index t (1 : Fin 2) * 128 + 1 * j.val = j.val
        omega
    · rw [dif_neg hj, dif_neg hj]
      show V c main_v123 (((cfg6.win 1).blk t).view.emb (ix2 (y 0) ⟨j.val - 128, _⟩)) = V c main_v123 _
      refine congrArg (V c main_v123) (funext fun a => Fin.ext ?_)
      match a with
      | ⟨0, _⟩ =>
        show win6_1.index t (0 : Fin 2) * 5000 + 1 * (y 0).val = win6_4.index t (0 : Fin 2) * 5000 + 1 * (y 0).val
        omega
      | ⟨1, _⟩ =>
        show win6_1.index t (1 : Fin 2) * 128 + 1 * (j.val - 128) = j.val - 128
        omega
  · show V c main_v138 (((cfg6.win 2).blk t).view.emb (ix2 j (y 1))) = V c main_v138 _
    refine congrArg (V c main_v138) (funext fun a => Fin.ext ?_)
    match a with
    | ⟨0, _⟩ =>
      show win6_2.index t (0 : Fin 2) * 256 + 1 * j.val = j.val
      omega
    | ⟨1, _⟩ =>
      show win6_2.index t (1 : Fin 2) * 128 + 1 * (y 1).val = win6_4.index t (1 : Fin 2) * 128 + 1 * (y 1).val
      omega
  · show V c main_v140 (((cfg6.win 3).blk t).view.emb (ix1 (y 1))) = V c main_v140 _
    refine congrArg (V c main_v140) (funext fun a => Fin.ext ?_)
    match a with
    | ⟨0, _⟩ =>
      show win6_3.index t (0 : Fin 1) * 128 + 1 * (y 1).val = win6_4.index t (1 : Fin 2) * 128 + 1 * (y 1).val
      omega

/-- An index of the output array is in block `t` iff each coordinate is in the block's range on its axis. -/
theorem mem_blk (t : Fin cfg6.N) (i : S100000x128.Idx) :
    i ∈ ((cfg6.win 4).blk t).view.set ↔ ∀ a : Fin 2, win6_4.index t a * S5000x128.size a ≤ (i a).val
      ∧ (i a).val < win6_4.index t a * S5000x128.size a + S5000x128.size a := by
  show i ∈ ((View.whole main_v141).slice (win6_4.rect t)).set ↔ _
  rw [View.set_slice_whole, Rect.mem_set_unit]
  exact Iff.rfl

/-- The 20 blocks tile the output: row `r` is in block `r / 5000`. -/
theorem cover (i : S100000x128.Idx) :
    ∃ t : Fin cfg6.N, (cfg6.win 4).flush t = true ∧ i ∈ ((cfg6.win 4).blk t).view.set := by
  have hi0 : (i 0).val < 100000 := idx2_lt0 i
  have hi1 : (i 1).val < 128 := idx2_lt1 i
  have hN : grid6.N = 20 := N_6
  have ht : (i 0).val / 5000 < cfg6.N := by show (i 0).val / 5000 < grid6.N; rw [hN]; omega
  obtain ⟨-, -, -, -, -, -, -, e40, e41⟩ := idx_facts ⟨(i 0).val / 5000, ht⟩
  refine ⟨⟨(i 0).val / 5000, ht⟩, flush6_4 _, ?_⟩
  rw [mem_blk]
  intro a
  match a with
  | ⟨0, _⟩ =>
    show win6_4.index ⟨(i 0).val / 5000, ht⟩ (0 : Fin 2) * 5000 ≤ (i 0).val
      ∧ (i 0).val < win6_4.index ⟨(i 0).val / 5000, ht⟩ (0 : Fin 2) * 5000 + 5000
    rw [e40]
    show (i 0).val / 5000 * 5000 ≤ (i 0).val ∧ (i 0).val < (i 0).val / 5000 * 5000 + 5000
    omega
  | ⟨1, _⟩ =>
    show win6_4.index ⟨(i 0).val / 5000, ht⟩ (1 : Fin 2) * 128 ≤ (i 1).val
      ∧ (i 1).val < win6_4.index ⟨(i 0).val / 5000, ht⟩ (1 : Fin 2) * 128 + 128
    rw [e41]
    omega

/-- THE OUTPUT ARRAY after the region: the fused layer of the four arrays the region read. -/
theorem final (c : Dev nD) :
    (dat6 V c).arrAt 4 cfg6.N = fused false (V c main_v136) (V c main_v123) (V c main_v138) (V c main_v140) :=
  (dat6 V c).arrAt_eq_of_cover 4 _ (fun t _ => flushed_eq V c t) cover

/-- The region as one four-operand array operation. -/
def op : HloOp τ sig (Elt Ideal) :=
  StableHlo.quaternary main_v136 main_v123 main_v138 main_v140 main_v141 (fun a0 a1 a2 a3 => fused false a0 a1 a2 a3)

/-- The buffer contents at the region's exit are the operation's result on the contents at its entry. -/
theorem exit_eq (m : (ℓ : Loc nD τ sig) → Buf (Elt Ideal) ℓ) (ρ : Dev nD → PrngReg) (c : Dev nD) :
    W14 m ρ c = op.result (W13 m ρ c) := by
  unfold W14
  refine Cert.LibRegionOut.withArrays_eq_result spec6 launch6.win.arr_inj c _ _ op 4 ?_ ?_ ?_
  · unfold op; rw [StableHlo.quaternary_writes]
  · intro w hw
    have hA : ∀ w' : Fin cfg6.W, (cfg6.win w').isOut = false →
        (dat6 (V13 m ρ) c).arrAt w' cfg6.N = W13 m ρ c (Proc.devRef .tc (Pipeline.arrRef spec6 w')) :=
      fun w' h => ((dat6 (V13 m ρ) c).arrAt_in w' h cfg6.N).trans (A_eq6 (V13 m ρ) c w')
    match w, hw with
    | ⟨0, _⟩, _ => exact hA 0 rfl
    | ⟨1, _⟩, _ => exact hA 1 rfl
    | ⟨2, _⟩, _ => exact hA 2 rfl
    | ⟨3, _⟩, _ => exact hA 3 rfl
    | ⟨4, _⟩, hw => exact absurd rfl hw
  · rw [final]
    unfold op
    exact (StableHlo.quaternary_result main_v136 main_v123 main_v138 main_v140 main_v141
      (fun a0 a1 a2 a3 => fused false a0 a1 a2 a3) _ _ _ _ _ (W13 m ρ c)).symm

end Cert.Region6

end
-- ==== Proof.HostChain.lean ====
/-
  The kernel program's buffer contents followed through its seven layers.

  Each region is one array operation on the contents at its entry (`Region<k>.exit_eq`), so layer `k` as a whole —
  the host operations before the region, then the region — is a function `step<k>` of the contents `X` before it.
  What each step leaves is read off operation by operation: the sources, destinations, inverse degrees and stacked
  weights computed once before the first region are carried unchanged through every later step, the bias stack is an
  argument, and the step's output array is the layer function of the previous output. Seven steps from the launch
  contents give the seven-layer function of the arguments.
-/
import proofs.«162382_j80479097192825_1_alg».proof.Proof.KernelHost
import proofs.«162382_j80479097192825_1_alg».proof.Proof.Region0
import proofs.«162382_j80479097192825_1_alg».proof.Proof.Region1
import proofs.«162382_j80479097192825_1_alg».proof.Proof.Region2
import proofs.«162382_j80479097192825_1_alg».proof.Proof.Region3
import proofs.«162382_j80479097192825_1_alg».proof.Proof.Region4
import proofs.«162382_j80479097192825_1_alg».proof.Proof.Region5
import proofs.«162382_j80479097192825_1_alg».proof.Proof.Region6
import Idealize.ShloMosaic.Lib.StableHlo.Run

set_option maxRecDepth 16384

noncomputable section

namespace Cert.HostChain

open Idealize.ShloMosaic Idealize.ShloMosaic.TcCoe Idealize.SL.Sem Idealize.ShloMosaic.StableHlo
open Cert.KernelIdeal Cert.KernelIdeal.Gen Cert.SageLayer Cert.KernelHost

/-! ## Layer 0 -/

/-- Layer 0 on buffer contents: the host operations before region 0, then the region. -/
def step0 (X : Valuation τ sig (Elt Ideal)) : Valuation τ sig (Elt Ideal) := Cert.Region0.op.result (StableHlo.after hostOps0 X)

theorem step0_v1 (X : Valuation τ sig (Elt Ideal)) : step0 X (Proc.devRef .tc main_v1) = srcOf (X (Proc.devRef .tc main_arg1)) := by
  unfold step0 Cert.Region0.op
  dsimp only [hostOps0]
  after_results
  rfl
theorem step0_v3 (X : Valuation τ sig (Elt Ideal)) : step0 X (Proc.devRef .tc main_v3) = dstOf (X (Proc.devRef .tc main_arg1)) := by
  unfold step0 Cert.Region0.op
  dsimp only [hostOps0]
  after_results
  rfl
theorem step0_v11 (X : Valuation τ sig (Elt Ideal)) : step0 X (Proc.devRef .tc main_v11) = degInvOf (X (Proc.devRef .tc main_arg1)) := by
  unfold step0 Cert.Region0.op
  dsimp only [hostOps0]
  after_results
  rfl
theorem step0_v15 (X : Valuation τ sig (Elt Ideal)) : step0 X (Proc.devRef .tc main_v15) = stackAll (X (Proc.devRef .tc main_arg2)) (X (Proc.devRef .tc main_arg3)) := by
  unfold step0 Cert.Region0.op
  dsimp only [hostOps0]
  after_results
  rfl
theorem step0_arg4 (X : Valuation τ sig (Elt Ideal)) : step0 X (Proc.devRef .tc main_arg4) = X (Proc.devRef .tc main_arg4) := by
  unfold step0 Cert.Region0.op
  dsimp only [hostOps0]
  after_results
set_option maxHeartbeats 8000000 in
theorem step0_out (X : Valuation τ sig (Elt Ideal)) : step0 X (Proc.devRef .tc main_v33)
    = fused true (aggOf (srcOf (X (Proc.devRef .tc main_arg1))) (dstOf (X (Proc.devRef .tc main_arg1))) (degInvOf (X (Proc.devRef .tc main_arg1))) (X (Proc.devRef .tc main_arg0))) (X (Proc.devRef .tc main_arg0))
        (shapeCast _ (extractStridedSlice S1x256x128 ![0, 0, 0] (stackAll (X (Proc.devRef .tc main_arg2)) (X (Proc.devRef .tc main_arg3))) slices_S7x256x128_S1x256x128_0_0_0) shapeCasts_S1x256x128_S256x128)
        (shapeCast _ (extractStridedSlice S1x128 ![0, 0] (X (Proc.devRef .tc main_arg4)) slices_S7x128_S1x128_0_0) shapeCasts_S1x128_S128) := by
  unfold step0 Cert.Region0.op
  dsimp only [hostOps0]
  after_results_simp <;> rfl

/-- What layer 0 leaves, from contents holding the arguments. -/
theorem state1 (X : Valuation τ sig (Elt Ideal)) (x : (⟨S100000x128, .f32⟩ : BufTy).Contents (Elt Ideal)) (e : (⟨S2x1600000, .i32⟩ : BufTy).Contents (Elt Ideal))
    (Wl Wr : (⟨S7x128x128, .f32⟩ : BufTy).Contents (Elt Ideal)) (B : (⟨S7x128, .f32⟩ : BufTy).Contents (Elt Ideal))
    (h0 : X (Proc.devRef .tc main_arg0) = x) (h1 : X (Proc.devRef .tc main_arg1) = e) (h2 : X (Proc.devRef .tc main_arg2) = Wl) (h3 : X (Proc.devRef .tc main_arg3) = Wr) (h4 : X (Proc.devRef .tc main_arg4) = B) :
    step0 X (Proc.devRef .tc main_v1) = srcOf e ∧ step0 X (Proc.devRef .tc main_v3) = dstOf e ∧ step0 X (Proc.devRef .tc main_v11) = degInvOf e
    ∧ step0 X (Proc.devRef .tc main_v15) = stackAll Wl Wr ∧ step0 X (Proc.devRef .tc main_arg4) = B
    ∧ step0 X (Proc.devRef .tc main_v33) = layer true 0 (aggOf (srcOf e) (dstOf e) (degInvOf e)) Wl Wr B x := by
  refine ⟨by rw [step0_v1, h1], by rw [step0_v3, h1], by rw [step0_v11, h1], by rw [step0_v15, h2, h3], by rw [step0_arg4, h4], ?_⟩
  rw [step0_out, h0, h1, h2, h3, h4, stack_slab 0 (by decide), bias_slab 0 (by decide), fused_stack]
  rfl

/-! ## Layer 1 -/

/-- Layer 1 on buffer contents: the host operations before region 1, then the region. -/
def step1 (X : Valuation τ sig (Elt Ideal)) : Valuation τ sig (Elt Ideal) := Cert.Region1.op.result (StableHlo.after hostOps1 X)

theorem step1_v1 (X : Valuation τ sig (Elt Ideal)) : step1 X (Proc.devRef .tc main_v1) = X (Proc.devRef .tc main_v1) := by
  unfold step1 Cert.Region1.op
  dsimp only [hostOps1]
  after_results
theorem step1_v3 (X : Valuation τ sig (Elt Ideal)) : step1 X (Proc.devRef .tc main_v3) = X (Proc.devRef .tc main_v3) := by
  unfold step1 Cert.Region1.op
  dsimp only [hostOps1]
  after_results
theorem step1_v11 (X : Valuation τ sig (Elt Ideal)) : step1 X (Proc.devRef .tc main_v11) = X (Proc.devRef .tc main_v11) := by
  unfold step1 Cert.Region1.op
  dsimp only [hostOps1]
  after_results
theorem step1_v15 (X : Valuation τ sig (Elt Ideal)) : step1 X (Proc.devRef .tc main_v15) = X (Proc.devRef .tc main_v15) := by
  unfold step1 Cert.Region1.op
  dsimp only [hostOps1]
  after_results
theorem step1_arg4 (X : Valuation τ sig (Elt Ideal)) : step1 X (Proc.devRef .tc main_arg4) = X (Proc.devRef .tc main_arg4) := by
  unfold step1 Cert.Region1.op
  dsimp only [hostOps1]
  after_results
set_option maxHeartbeats 8000000 in
theorem step1_out (X : Valuation τ sig (Elt Ideal)) : step1 X (Proc.devRef .tc main_v51)
    = fused true (aggOf (X (Proc.devRef .tc main_v1)) (X (Proc.devRef .tc main_v3)) (X (Proc.devRef .tc main_v11)) (X (Proc.devRef .tc main_v33))) (X (Proc.devRef .tc main_v33))
        (shapeCast _ (extractStridedSlice S1x256x128 ![1, 0, 0] (X (Proc.devRef .tc main_v15)) slices_S7x256x128_S1x256x128_1_0_0) shapeCasts_S1x256x128_S256x128)
        (shapeCast _ (extractStridedSlice S1x128 ![1, 0] (X (Proc.devRef .tc main_arg4)) slices_S7x128_S1x128_1_0) shapeCasts_S1x128_S128) := by
  unfold step1 Cert.Region1.op
  dsimp only [hostOps1]
  after_results_simp <;> rfl

/-- What layer 1 leaves, from contents holding what layer 0 left. -/
theorem state2 (X : Valuation τ sig (Elt Ideal)) (H : (⟨S100000x128, .f32⟩ : BufTy).Contents (Elt Ideal)) (e : (⟨S2x1600000, .i32⟩ : BufTy).Contents (Elt Ideal))
    (Wl Wr : (⟨S7x128x128, .f32⟩ : BufTy).Contents (Elt Ideal)) (B : (⟨S7x128, .f32⟩ : BufTy).Contents (Elt Ideal))
    (h1 : X (Proc.devRef .tc main_v1) = srcOf e) (h3 : X (Proc.devRef .tc main_v3) = dstOf e) (h11 : X (Proc.devRef .tc main_v11) = degInvOf e)
    (h15 : X (Proc.devRef .tc main_v15) = stackAll Wl Wr) (h4 : X (Proc.devRef .tc main_arg4) = B) (hh : X (Proc.devRef .tc main_v33) = H) :
    step1 X (Proc.devRef .tc main_v1) = srcOf e ∧ step1 X (Proc.devRef .tc main_v3) = dstOf e ∧ step1 X (Proc.devRef .tc main_v11) = degInvOf e
    ∧ step1 X (Proc.devRef .tc main_v15) = stackAll Wl Wr ∧ step1 X (Proc.devRef .tc main_arg4) = B
    ∧ step1 X (Proc.devRef .tc main_v51) = layer true 1 (aggOf (srcOf e) (dstOf e) (degInvOf e)) Wl Wr B H := by
  refine ⟨by rw [step1_v1, h1], by rw [step1_v3, h3], by rw [step1_v11, h11], by rw [step1_v15, h15], by rw [step1_arg4, h4], ?_⟩
  rw [step1_out, h1, h3, h11, h15, h4, hh, stack_slab 1 (by decide), bias_slab 1 (by decide), fused_stack]
  rfl

/-! ## Layer 2 -/

/-- Layer 2 on buffer contents: the host operations before region 2, then the region. -/
def step2 (X : Valuation τ sig (Elt Ideal)) : Valuation τ sig (Elt Ideal) := Cert.Region2.op.result (StableHlo.after hostOps2 X)

theorem step2_v1 (X : Valuation τ sig (Elt Ideal)) : step2 X (Proc.devRef .tc main_v1) = X (Proc.devRef .tc main_v1) := by
  unfold step2 Cert.Region2.op
  dsimp only [hostOps2]
  after_results
theorem step2_v3 (X : Valuation τ sig (Elt Ideal)) : step2 X (Proc.devRef .tc main_v3) = X (Proc.devRef .tc main_v3) := by
  unfold step2 Cert.Region2.op
  dsimp only [hostOps2]
  after_results
theorem step2_v11 (X : Valuation τ sig (Elt Ideal)) : step2 X (Proc.devRef .tc main_v11) = X (Proc.devRef .tc main_v11) := by
  unfold step2 Cert.Region2.op
  dsimp only [hostOps2]
  after_results
theorem step2_v15 (X : Valuation τ sig (Elt Ideal)) : step2 X (Proc.devRef .tc main_v15) = X (Proc.devRef .tc main_v15) := by
  unfold step2 Cert.Region2.op
  dsimp only [hostOps2]
  after_results
theorem step2_arg4 (X : Valuation τ sig (Elt Ideal)) : step2 X (Proc.devRef .tc main_arg4) = X (Proc.devRef .tc main_arg4) := by
  unfold step2 Cert.Region2.op
  dsimp only [hostOps2]
  after_results
set_option maxHeartbeats 8000000 in
theorem step2_out (X : Valuation τ sig (Elt Ideal)) : step2 X (Proc.devRef .tc main_v69)
    = fused true (aggOf (X (Proc.devRef .tc main_v1)) (X (Proc.devRef .tc main_v3)) (X (Proc.devRef .tc main_v11)) (X (Proc.devRef .tc main_v51))) (X (Proc.devRef .tc main_v51))
        (shapeCast _ (extractStridedSlice S1x256x128 ![2, 0, 0] (X (Proc.devRef .tc main_v15)) slices_S7x256x128_S1x256x128_2_0_0) shapeCasts_S1x256x128_S256x128)
        (shapeCast _ (extractStridedSlice S1x128 ![2, 0] (X (Proc.devRef .tc main_arg4)) slices_S7x128_S1x128_2_0) shapeCasts_S1x128_S128) := by
  unfold step2 Cert.Region2.op
  dsimp only [hostOps2]
  after_results_simp <;> rfl

/-- What layer 2 leaves, from contents holding what layer 1 left. -/
theorem state3 (X : Valuation τ sig (Elt Ideal)) (H : (⟨S100000x128, .f32⟩ : BufTy).Contents (Elt Ideal)) (e : (⟨S2x1600000, .i32⟩ : BufTy).Contents (Elt Ideal))
    (Wl Wr : (⟨S7x128x128, .f32⟩ : BufTy).Contents (Elt Ideal)) (B : (⟨S7x128, .f32⟩ : BufTy).Contents (Elt Ideal))
    (h1 : X (Proc.devRef .tc main_v1) = srcOf e) (h3 : X (Proc.devRef .tc main_v3) = dstOf e) (h11 : X (Proc.devRef .tc main_v11) = degInvOf e)
    (h15 : X (Proc.devRef .tc main_v15) = stackAll Wl Wr) (h4 : X (Proc.devRef .tc main_arg4) = B) (hh : X (Proc.devRef .tc main_v51) = H) :
    step2 X (Proc.devRef .tc main_v1) = srcOf e ∧ step2 X (Proc.devRef .tc main_v3) = dstOf e ∧ step2 X (Proc.devRef .tc main_v11) = degInvOf e
    ∧ step2 X (Proc.devRef .tc main_v15) = stackAll Wl Wr ∧ step2 X (Proc.devRef .tc main_arg4) = B
    ∧ step2 X (Proc.devRef .tc main_v69) = layer true 2 (aggOf (srcOf e) (dstOf e) (degInvOf e)) Wl Wr B H := by
  refine ⟨by rw [step2_v1, h1], by rw [step2_v3, h3], by rw [step2_v11, h11], by rw [step2_v15, h15], by rw [step2_arg4, h4], ?_⟩
  rw [step2_out, h1, h3, h11, h15, h4, hh, stack_slab 2 (by decide), bias_slab 2 (by decide), fused_stack]
  rfl

/-! ## Layer 3 -/

/-- Layer 3 on buffer contents: the host operations before region 3, then the region. -/
def step3 (X : Valuation τ sig (Elt Ideal)) : Valuation τ sig (Elt Ideal) := Cert.Region3.op.result (StableHlo.after hostOps3 X)

theorem step3_v1 (X : Valuation τ sig (Elt Ideal)) : step3 X (Proc.devRef .tc main_v1) = X (Proc.devRef .tc main_v1) := by
  unfold step3 Cert.Region3.op
  dsimp only [hostOps3]
  after_results
theorem step3_v3 (X : Valuation τ sig (Elt Ideal)) : step3 X (Proc.devRef .tc main_v3) = X (Proc.devRef .tc main_v3) := by
  unfold step3 Cert.Region3.op
  dsimp only [hostOps3]
  after_results
theorem step3_v11 (X : Valuation τ sig (Elt Ideal)) : step3 X (Proc.devRef .tc main_v11) = X (Proc.devRef .tc main_v11) := by
  unfold step3 Cert.Region3.op
  dsimp only [hostOps3]
  after_results
theorem step3_v15 (X : Valuation τ sig (Elt Ideal)) : step3 X (Proc.devRef .tc main_v15) = X (Proc.devRef .tc main_v15) := by
  unfold step3 Cert.Region3.op
  dsimp only [hostOps3]
  after_results
theorem step3_arg4 (X : Valuation τ sig (Elt Ideal)) : step3 X (Proc.devRef .tc main_arg4) = X (Proc.devRef .tc main_arg4) := by
  unfold step3 Cert.Region3.op
  dsimp only [hostOps3]
  after_results
set_option maxHeartbeats 8000000 in
theorem step3_out (X : Valuation τ sig (Elt Ideal)) : step3 X (Proc.devRef .tc main_v87)
    = fused true (aggOf (X (Proc.devRef .tc main_v1)) (X (Proc.devRef .tc main_v3)) (X (Proc.devRef .tc main_v11)) (X (Proc.devRef .tc main_v69))) (X (Proc.devRef .tc main_v69))
        (shapeCast _ (extractStridedSlice S1x256x128 ![3, 0, 0] (X (Proc.devRef .tc main_v15)) slices_S7x256x128_S1x256x128_3_0_0) shapeCasts_S1x256x128_S256x128)
        (shapeCast _ (extractStridedSlice S1x128 ![3, 0] (X (Proc.devRef .tc main_arg4)) slices_S7x128_S1x128_3_0) shapeCasts_S1x128_S128) := by
  unfold step3 Cert.Region3.op
  dsimp only [hostOps3]
  after_results_simp <;> rfl

/-- What layer 3 leaves, from contents holding what layer 2 left. -/
theorem state4 (X : Valuation τ sig (Elt Ideal)) (H : (⟨S100000x128, .f32⟩ : BufTy).Contents (Elt Ideal)) (e : (⟨S2x1600000, .i32⟩ : BufTy).Contents (Elt Ideal))
    (Wl Wr : (⟨S7x128x128, .f32⟩ : BufTy).Contents (Elt Ideal)) (B : (⟨S7x128, .f32⟩ : BufTy).Contents (Elt Ideal))
    (h1 : X (Proc.devRef .tc main_v1) = srcOf e) (h3 : X (Proc.devRef .tc main_v3) = dstOf e) (h11 : X (Proc.devRef .tc main_v11) = degInvOf e)
    (h15 : X (Proc.devRef .tc main_v15) = stackAll Wl Wr) (h4 : X (Proc.devRef .tc main_arg4) = B) (hh : X (Proc.devRef .tc main_v69) = H) :
    step3 X (Proc.devRef .tc main_v1) = srcOf e ∧ step3 X (Proc.devRef .tc main_v3) = dstOf e ∧ step3 X (Proc.devRef .tc main_v11) = degInvOf e
    ∧ step3 X (Proc.devRef .tc main_v15) = stackAll Wl Wr ∧ step3 X (Proc.devRef .tc main_arg4) = B
    ∧ step3 X (Proc.devRef .tc main_v87) = layer true 3 (aggOf (srcOf e) (dstOf e) (degInvOf e)) Wl Wr B H := by
  refine ⟨by rw [step3_v1, h1], by rw [step3_v3, h3], by rw [step3_v11, h11], by rw [step3_v15, h15], by rw [step3_arg4, h4], ?_⟩
  rw [step3_out, h1, h3, h11, h15, h4, hh, stack_slab 3 (by decide), bias_slab 3 (by decide), fused_stack]
  rfl

/-! ## Layer 4 -/

/-- Layer 4 on buffer contents: the host operations before region 4, then the region. -/
def step4 (X : Valuation τ sig (Elt Ideal)) : Valuation τ sig (Elt Ideal) := Cert.Region4.op.result (StableHlo.after hostOps4 X)

theorem step4_v1 (X : Valuation τ sig (Elt Ideal)) : step4 X (Proc.devRef .tc main_v1) = X (Proc.devRef .tc main_v1) := by
  unfold step4 Cert.Region4.op
  dsimp only [hostOps4]
  after_results
theorem step4_v3 (X : Valuation τ sig (Elt Ideal)) : step4 X (Proc.devRef .tc main_v3) = X (Proc.devRef .tc main_v3) := by
  unfold step4 Cert.Region4.op
  dsimp only [hostOps4]
  after_results
theorem step4_v11 (X : Valuation τ sig (Elt Ideal)) : step4 X (Proc.devRef .tc main_v11) = X (Proc.devRef .tc main_v11) := by
  unfold step4 Cert.Region4.op
  dsimp only [hostOps4]
  after_results
theorem step4_v15 (X : Valuation τ sig (Elt Ideal)) : step4 X (Proc.devRef .tc main_v15) = X (Proc.devRef .tc main_v15) := by
  unfold step4 Cert.Region4.op
  dsimp only [hostOps4]
  after_results
theorem step4_arg4 (X : Valuation τ sig (Elt Ideal)) : step4 X (Proc.devRef .tc main_arg4) = X (Proc.devRef .tc main_arg4) := by
  unfold step4 Cert.Region4.op
  dsimp only [hostOps4]
  after_results
set_option maxHeartbeats 8000000 in
theorem step4_out (X : Valuation τ sig (Elt Ideal)) : step4 X (Proc.devRef .tc main_v105)
    = fused true (aggOf (X (Proc.devRef .tc main_v1)) (X (Proc.devRef .tc main_v3)) (X (Proc.devRef .tc main_v11)) (X (Proc.devRef .tc main_v87))) (X (Proc.devRef .tc main_v87))
        (shapeCast _ (extractStridedSlice S1x256x128 ![4, 0, 0] (X (Proc.devRef .tc main_v15)) slices_S7x256x128_S1x256x128_4_0_0) shapeCasts_S1x256x128_S256x128)
        (shapeCast _ (extractStridedSlice S1x128 ![4, 0] (X (Proc.devRef .tc main_arg4)) slices_S7x128_S1x128_4_0) shapeCasts_S1x128_S128) := by
  unfold step4 Cert.Region4.op
  dsimp only [hostOps4]
  after_results_simp <;> rfl

/-- What layer 4 leaves, from contents holding what layer 3 left. -/
theorem state5 (X : Valuation τ sig (Elt Ideal)) (H : (⟨S100000x128, .f32⟩ : BufTy).Contents (Elt Ideal)) (e : (⟨S2x1600000, .i32⟩ : BufTy).Contents (Elt Ideal))
    (Wl Wr : (⟨S7x128x128, .f32⟩ : BufTy).Contents (Elt Ideal)) (B : (⟨S7x128, .f32⟩ : BufTy).Contents (Elt Ideal))
    (h1 : X (Proc.devRef .tc main_v1) = srcOf e) (h3 : X (Proc.devRef .tc main_v3) = dstOf e) (h11 : X (Proc.devRef .tc main_v11) = degInvOf e)
    (h15 : X (Proc.devRef .tc main_v15) = stackAll Wl Wr) (h4 : X (Proc.devRef .tc main_arg4) = B) (hh : X (Proc.devRef .tc main_v87) = H) :
    step4 X (Proc.devRef .tc main_v1) = srcOf e ∧ step4 X (Proc.devRef .tc main_v3) = dstOf e ∧ step4 X (Proc.devRef .tc main_v11) = degInvOf e
    ∧ step4 X (Proc.devRef .tc main_v15) = stackAll Wl Wr ∧ step4 X (Proc.devRef .tc main_arg4) = B
    ∧ step4 X (Proc.devRef .tc main_v105) = layer true 4 (aggOf (srcOf e) (dstOf e) (degInvOf e)) Wl Wr B H := by
  refine ⟨by rw [step4_v1, h1], by rw [step4_v3, h3], by rw [step4_v11, h11], by rw [step4_v15, h15], by rw [step4_arg4, h4], ?_⟩
  rw [step4_out, h1, h3, h11, h15, h4, hh, stack_slab 4 (by decide), bias_slab 4 (by decide), fused_stack]
  rfl

/-! ## Layer 5 -/

/-- Layer 5 on buffer contents: the host operations before region 5, then the region. -/
def step5 (X : Valuation τ sig (Elt Ideal)) : Valuation τ sig (Elt Ideal) := Cert.Region5.op.result (StableHlo.after hostOps5 X)

theorem step5_v1 (X : Valuation τ sig (Elt Ideal)) : step5 X (Proc.devRef .tc main_v1) = X (Proc.devRef .tc main_v1) := by
  unfold step5 Cert.Region5.op
  dsimp only [hostOps5]
  after_results
theorem step5_v3 (X : Valuation τ sig (Elt Ideal)) : step5 X (Proc.devRef .tc main_v3) = X (Proc.devRef .tc main_v3) := by
  unfold step5 Cert.Region5.op
  dsimp only [hostOps5]
  after_results
theorem step5_v11 (X : Valuation τ sig (Elt Ideal)) : step5 X (Proc.devRef .tc main_v11) = X (Proc.devRef .tc main_v11) := by
  unfold step5 Cert.Region5.op
  dsimp only [hostOps5]
  after_results
theorem step5_v15 (X : Valuation τ sig (Elt Ideal)) : step5 X (Proc.devRef .tc main_v15) = X (Proc.devRef .tc main_v15) := by
  unfold step5 Cert.Region5.op
  dsimp only [hostOps5]
  after_results
theorem step5_arg4 (X : Valuation τ sig (Elt Ideal)) : step5 X (Proc.devRef .tc main_arg4) = X (Proc.devRef .tc main_arg4) := by
  unfold step5 Cert.Region5.op
  dsimp only [hostOps5]
  after_results
set_option maxHeartbeats 8000000 in
theorem step5_out (X : Valuation τ sig (Elt Ideal)) : step5 X (Proc.devRef .tc main_v123)
    = fused true (aggOf (X (Proc.devRef .tc main_v1)) (X (Proc.devRef .tc main_v3)) (X (Proc.devRef .tc main_v11)) (X (Proc.devRef .tc main_v105))) (X (Proc.devRef .tc main_v105))
        (shapeCast _ (extractStridedSlice S1x256x128 ![5, 0, 0] (X (Proc.devRef .tc main_v15)) slices_S7x256x128_S1x256x128_5_0_0) shapeCasts_S1x256x128_S256x128)
        (shapeCast _ (extractStridedSlice S1x128 ![5, 0] (X (Proc.devRef .tc main_arg4)) slices_S7x128_S1x128_5_0) shapeCasts_S1x128_S128) := by
  unfold step5 Cert.Region5.op
  dsimp only [hostOps5]
  after_results_simp <;> rfl

/-- What layer 5 leaves, from contents holding what layer 4 left. -/
theorem state6 (X : Valuation τ sig (Elt Ideal)) (H : (⟨S100000x128, .f32⟩ : BufTy).Contents (Elt Ideal)) (e : (⟨S2x1600000, .i32⟩ : BufTy).Contents (Elt Ideal))
    (Wl Wr : (⟨S7x128x128, .f32⟩ : BufTy).Contents (Elt Ideal)) (B : (⟨S7x128, .f32⟩ : BufTy).Contents (Elt Ideal))
    (h1 : X (Proc.devRef .tc main_v1) = srcOf e) (h3 : X (Proc.devRef .tc main_v3) = dstOf e) (h11 : X (Proc.devRef .tc main_v11) = degInvOf e)
    (h15 : X (Proc.devRef .tc main_v15) = stackAll Wl Wr) (h4 : X (Proc.devRef .tc main_arg4) = B) (hh : X (Proc.devRef .tc main_v105) = H) :
    step5 X (Proc.devRef .tc main_v1) = srcOf e ∧ step5 X (Proc.devRef .tc main_v3) = dstOf e ∧ step5 X (Proc.devRef .tc main_v11) = degInvOf e
    ∧ step5 X (Proc.devRef .tc main_v15) = stackAll Wl Wr ∧ step5 X (Proc.devRef .tc main_arg4) = B
    ∧ step5 X (Proc.devRef .tc main_v123) = layer true 5 (aggOf (srcOf e) (dstOf e) (degInvOf e)) Wl Wr B H := by
  refine ⟨by rw [step5_v1, h1], by rw [step5_v3, h3], by rw [step5_v11, h11], by rw [step5_v15, h15], by rw [step5_arg4, h4], ?_⟩
  rw [step5_out, h1, h3, h11, h15, h4, hh, stack_slab 5 (by decide), bias_slab 5 (by decide), fused_stack]
  rfl

/-! ## Layer 6 -/

/-- Layer 6 on buffer contents: the host operations before region 6, then the region. -/
def step6 (X : Valuation τ sig (Elt Ideal)) : Valuation τ sig (Elt Ideal) := Cert.Region6.op.result (StableHlo.after hostOps6 X)

theorem step6_v1 (X : Valuation τ sig (Elt Ideal)) : step6 X (Proc.devRef .tc main_v1) = X (Proc.devRef .tc main_v1) := by
  unfold step6 Cert.Region6.op
  dsimp only [hostOps6]
  after_results
theorem step6_v3 (X : Valuation τ sig (Elt Ideal)) : step6 X (Proc.devRef .tc main_v3) = X (Proc.devRef .tc main_v3) := by
  unfold step6 Cert.Region6.op
  dsimp only [hostOps6]
  after_results
theorem step6_v11 (X : Valuation τ sig (Elt Ideal)) : step6 X (Proc.devRef .tc main_v11) = X (Proc.devRef .tc main_v11) := by
  unfold step6 Cert.Region6.op
  dsimp only [hostOps6]
  after_results
theorem step6_v15 (X : Valuation τ sig (Elt Ideal)) : step6 X (Proc.devRef .tc main_v15) = X (Proc.devRef .tc main_v15) := by
  unfold step6 Cert.Region6.op
  dsimp only [hostOps6]
  after_results
theorem step6_arg4 (X : Valuation τ sig (Elt Ideal)) : step6 X (Proc.devRef .tc main_arg4) = X (Proc.devRef .tc main_arg4) := by
  unfold step6 Cert.Region6.op
  dsimp only [hostOps6]
  after_results
set_option maxHeartbeats 8000000 in
theorem step6_out (X : Valuation τ sig (Elt Ideal)) : step6 X (Proc.devRef .tc main_v141)
    = fused false (aggOf (X (Proc.devRef .tc main_v1)) (X (Proc.devRef .tc main_v3)) (X (Proc.devRef .tc main_v11)) (X (Proc.devRef .tc main_v123))) (X (Proc.devRef .tc main_v123))
        (shapeCast _ (extractStridedSlice S1x256x128 ![6, 0, 0] (X (Proc.devRef .tc main_v15)) slices_S7x256x128_S1x256x128_6_0_0) shapeCasts_S1x256x128_S256x128)
        (shapeCast _ (extractStridedSlice S1x128 ![6, 0] (X (Proc.devRef .tc main_arg4)) slices_S7x128_S1x128_6_0) shapeCasts_S1x128_S128) := by
  unfold step6 Cert.Region6.op
  dsimp only [hostOps6]
  after_results_simp <;> rfl

/-- What layer 6 leaves, from contents holding what layer 5 left. -/
theorem state7 (X : Valuation τ sig (Elt Ideal)) (H : (⟨S100000x128, .f32⟩ : BufTy).Contents (Elt Ideal)) (e : (⟨S2x1600000, .i32⟩ : BufTy).Contents (Elt Ideal))
    (Wl Wr : (⟨S7x128x128, .f32⟩ : BufTy).Contents (Elt Ideal)) (B : (⟨S7x128, .f32⟩ : BufTy).Contents (Elt Ideal))
    (h1 : X (Proc.devRef .tc main_v1) = srcOf e) (h3 : X (Proc.devRef .tc main_v3) = dstOf e) (h11 : X (Proc.devRef .tc main_v11) = degInvOf e)
    (h15 : X (Proc.devRef .tc main_v15) = stackAll Wl Wr) (h4 : X (Proc.devRef .tc main_arg4) = B) (hh : X (Proc.devRef .tc main_v123) = H) :
    step6 X (Proc.devRef .tc main_v1) = srcOf e ∧ step6 X (Proc.devRef .tc main_v3) = dstOf e ∧ step6 X (Proc.devRef .tc main_v11) = degInvOf e
    ∧ step6 X (Proc.devRef .tc main_v15) = stackAll Wl Wr ∧ step6 X (Proc.devRef .tc main_arg4) = B
    ∧ step6 X (Proc.devRef .tc main_v141) = layer false 6 (aggOf (srcOf e) (dstOf e) (degInvOf e)) Wl Wr B H := by
  refine ⟨by rw [step6_v1, h1], by rw [step6_v3, h3], by rw [step6_v11, h11], by rw [step6_v15, h15], by rw [step6_arg4, h4], ?_⟩
  rw [step6_out, h1, h3, h11, h15, h4, hh, stack_slab 6 (by decide), bias_slab 6 (by decide), fused_stack]
  rfl

/-! ## The seven layers from the launch contents -/

/-- The kernel program's result buffer at its return holds the seven-layer function of the argument arrays. -/
theorem result_eq (m : (ℓ : Loc nD τ sig) → Buf (Elt Ideal) ℓ) (ρ : Dev nD → PrngReg) (c : Dev nD) :
    W14 m ρ c (Proc.devRef .tc main_v141)
      = net (aggOf (srcOf (m ((c.tc : Thread nD τ).loc main_arg1))) (dstOf (m ((c.tc : Thread nD τ).loc main_arg1)))
            (degInvOf (m ((c.tc : Thread nD τ).loc main_arg1))))
          (m ((c.tc : Thread nD τ).loc main_arg2)) (m ((c.tc : Thread nD τ).loc main_arg3)) (m ((c.tc : Thread nD τ).loc main_arg4))
          (m ((c.tc : Thread nD τ).loc main_arg0)) := by
  have s1 := state1 (W0 m ρ c) (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4)) rfl rfl rfl rfl rfl
  rw [← show W2 m ρ c = step0 (W0 m ρ c) from Cert.Region0.exit_eq m ρ c] at s1
  have s2 := state2 (W2 m ρ c) _ _ _ _ _ s1.1 s1.2.1 s1.2.2.1 s1.2.2.2.1 s1.2.2.2.2.1 s1.2.2.2.2.2
  rw [← show W4 m ρ c = step1 (W2 m ρ c) from Cert.Region1.exit_eq m ρ c] at s2
  have s3 := state3 (W4 m ρ c) _ _ _ _ _ s2.1 s2.2.1 s2.2.2.1 s2.2.2.2.1 s2.2.2.2.2.1 s2.2.2.2.2.2
  rw [← show W6 m ρ c = step2 (W4 m ρ c) from Cert.Region2.exit_eq m ρ c] at s3
  have s4 := state4 (W6 m ρ c) _ _ _ _ _ s3.1 s3.2.1 s3.2.2.1 s3.2.2.2.1 s3.2.2.2.2.1 s3.2.2.2.2.2
  rw [← show W8 m ρ c = step3 (W6 m ρ c) from Cert.Region3.exit_eq m ρ c] at s4
  have s5 := state5 (W8 m ρ c) _ _ _ _ _ s4.1 s4.2.1 s4.2.2.1 s4.2.2.2.1 s4.2.2.2.2.1 s4.2.2.2.2.2
  rw [← show W10 m ρ c = step4 (W8 m ρ c) from Cert.Region4.exit_eq m ρ c] at s5
  have s6 := state6 (W10 m ρ c) _ _ _ _ _ s5.1 s5.2.1 s5.2.2.1 s5.2.2.2.1 s5.2.2.2.2.1 s5.2.2.2.2.2
  rw [← show W12 m ρ c = step5 (W10 m ρ c) from Cert.Region5.exit_eq m ρ c] at s6
  have s7 := state7 (W12 m ρ c) _ _ _ _ _ s6.1 s6.2.1 s6.2.2.1 s6.2.2.2.1 s6.2.2.2.2.1 s6.2.2.2.2.2
  rw [← show W14 m ρ c = step6 (W12 m ρ c) from Cert.Region6.exit_eq m ρ c] at s7
  exact s7.2.2.2.2.2

end Cert.HostChain

end
-- ==== Proof.KernelRun.lean ====
/-
  The kernel program's run with its result buffer named.

  The run of the seven regions among their stretches of host operations ends with every buffer of the TensorCore at
  the last segment boundary's contents. The argument arrays are there as launched; the result buffer is there at the
  seven-layer function of the arguments (`HostChain.result_eq`).
-/
import proofs.«162382_j80479097192825_1_alg».proof.Proof.Gen.KernelIdeal.Frame
import proofs.«162382_j80479097192825_1_alg».proof.Proof.HostChain

set_option maxRecDepth 16384

noncomputable section

namespace Cert.KernelRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.SageLayer Cert.KernelHost

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- Every weakly fair execution of the kernel program terminates, nothing faulting, with every TensorCore buffer at the
    last segment boundary's contents. -/
theorem run_contents : θ_run defs (onTc (τ := τ) (main (F := Ideal))) ⟨m, fun _ => 0, ρ⟩ (fun r => ∀ c : Dev nD,
      ∀ b ∈ Pipeline.ucRefs τ sig, r.2.mem (((c : Thread nD τ)).1, b) = W14 m ρ c b) :=
  Pipeline.θ_run_regions_kit (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h c => h c)

/-- The run with the result named: the result buffer ends at the seven-layer function of the arguments, the
    arguments unchanged. -/
theorem run : θ_run defs (onTc (τ := τ) (main (F := Ideal))) ⟨m, fun _ => 0, ρ⟩ (fun r => ∀ c : Dev nD,
      r.2.mem ((c.tc : Thread nD τ).loc main_v141)
        = net (aggOf (srcOf (m ((c.tc : Thread nD τ).loc main_arg1))) (dstOf (m ((c.tc : Thread nD τ).loc main_arg1)))
              (degInvOf (m ((c.tc : Thread nD τ).loc main_arg1))))
            (m ((c.tc : Thread nD τ).loc main_arg2)) (m ((c.tc : Thread nD τ).loc main_arg3)) (m ((c.tc : Thread nD τ).loc main_arg4))
            (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_v141 (by decide))).trans (Cert.HostChain.result_eq m ρ c),
     (h c _ (mem_uc main_arg0 (by decide))).trans (W14_main_arg0 m ρ c),
     (h c _ (mem_uc main_arg1 (by decide))).trans (W14_main_arg1 m ρ c),
     (h c _ (mem_uc main_arg2 (by decide))).trans (W14_main_arg2 m ρ c),
     (h c _ (mem_uc main_arg3 (by decide))).trans (W14_main_arg3 m ρ c),
     (h c _ (mem_uc main_arg4 (by decide))).trans (W14_main_arg4 m ρ c)⟩)
    (run_contents m ρ)

end Cert.KernelRun

end
-- ==== Proof.lean ====
/-
  The kernel (seven fused-layer regions among host gather / scatter-add stretches) and the reference (seven layers of
  two matrix products) compute the same function of their arguments on the extended reals.

  Both programs run, per layer, the same aggregation of the current features (gather the edges' source rows, add them
  up per destination, scale by the inverse degree) and then a dense part. The reference's dense part is
  `mn · Wl[k]ᵀ + h · Wr[k]ᵀ + B[k]`; the kernel's is the row `[mn | h]` times the stacked matrix `[Wl[k]ᵀ ; Wr[k]ᵀ]` plus
  `B[k]`, computed block by block over the nodes. A sum over 256 indices is the sum of its two halves of 128, so the two
  dense parts agree index by index (`SageLayer.fused_stack`); the activation is the same maximum with zero on the first
  six layers. Narrowing the operands of the kernel's product is the identity on the extended reals. Nothing in the
  argument uses finiteness of the inputs.
  The three frames are the generated ones (the reference's is its generated run with the result dropped); the
  idealization rewrote nothing, so `preserves` is trivial.
-/
import proofs.«162382_j80479097192825_1_alg».proof.Defs
import proofs.«162382_j80479097192825_1_alg».proof.Proof.Gen.Kernel
import proofs.«162382_j80479097192825_1_alg».proof.Proof.Gen.Kernel.Skeleton
import proofs.«162382_j80479097192825_1_alg».proof.Proof.Gen.Kernel.Launch
import proofs.«162382_j80479097192825_1_alg».proof.Proof.Gen.Kernel.Points
import proofs.«162382_j80479097192825_1_alg».proof.Proof.Gen.Kernel.Frame
import proofs.«162382_j80479097192825_1_alg».proof.Proof.Gen.KernelIdeal
import proofs.«162382_j80479097192825_1_alg».proof.Proof.Gen.KernelIdeal.Skeleton
import proofs.«162382_j80479097192825_1_alg».proof.Proof.Gen.KernelIdeal.Launch
import proofs.«162382_j80479097192825_1_alg».proof.Proof.Gen.KernelIdeal.Points
import proofs.«162382_j80479097192825_1_alg».proof.Proof.Gen.KernelIdeal.Frame
import proofs.«162382_j80479097192825_1_alg».proof.Proof.Gen.ReferenceIdeal
import proofs.«162382_j80479097192825_1_alg».proof.Proof.Gen.Pre_finite_inputs
import proofs.«162382_j80479097192825_1_alg».proof.Proof.Gen.ReferenceIdeal.Run
import proofs.«162382_j80479097192825_1_alg».proof.Proof.Gen.ReferenceIdeal.Read
import proofs.«162382_j80479097192825_1_alg».proof.Proof.RefLayers
import proofs.«162382_j80479097192825_1_alg».proof.Proof.KernelRun
import Idealize.ShloMosaic.Adequacy
import Idealize.ShloMosaic.Init

noncomputable section

namespace Cert.Proof

open Idealize.ShloMosaic Idealize.ShloMosaic.TcCoe Idealize.SL.Sem

/-- The kernel's aggregation and the reference's are one operation: the same gather, scatter-add and scaling of the
    same edge list, spelt once in each program. -/
theorem agg_eq (e : (⟨Cert.KernelIdeal.S2x1600000, .i32⟩ : BufTy).Contents (Elt Ideal)) :
    Cert.KernelHost.aggOf (Cert.KernelHost.srcOf e) (Cert.KernelHost.dstOf e) (Cert.KernelHost.degInvOf e) = Cert.RefLayers.mean e :=
  funext fun _ => rfl

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- Both programs end with the seven-layer function of the arguments in their result buffers. -/
theorem algebraic : Cert.algebraic_KernelIdeal_ReferenceIdeal := by
  intro m ρ m' ρ' _ hagree
  refine ⟨fun c => Cert.SageLayer.net (Cert.RefLayers.mean (m ((c.tc : Thread Cert.KernelIdeal.nD Cert.KernelIdeal.τ).loc Cert.KernelIdeal.main_arg1)))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg0)), ?_, ?_⟩
  · refine (θ_run Cert.KernelIdeal.defs _ _).mono (fun _ h c => ⟨(h c).1.trans ?_, (h c).2⟩) (Cert.KernelRun.run m ρ)
    rw [agg_eq]
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v206_eq, Cert.RefLayers.net_eq, (hagree c).1, (hagree c).2.1, (hagree c).2.2.1,
      (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
